-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000x1 : Shape := ⟨2, ![500000, 1]⟩
abbrev S128x256 : Shape := ⟨2, ![128, 256]⟩
abbrev S1x4 : Shape := ⟨2, ![1, 4]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x1 : S_.BroadcastsInDim S500000x1 (![] : Fin 0 → Fin S500000x1.rank)
  reducesTo_S500000x1_S_d0_1 : S500000x1.ReducesTo [0, 1] S_
  bcast_S_S128x256 : S_.BroadcastsInDim S128x256 (![] : Fin 0 → Fin S128x256.rank)
  reducesTo_S128x256_S_d0_1 : S128x256.ReducesTo [0, 1] S_
  bcast_S_S1x4 : S_.BroadcastsInDim S1x4 (![] : Fin 0 → Fin S1x4.rank)
  reducesTo_S1x4_S_d0_1 : S1x4.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x256 .f32) (main_arg6 : FVec F S1x4 .f32) (main_arg7 : FVec F S256x64 .f32) (main_arg8 : FVec F S64 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S1x4 .f32 := Host.absf main_arg6
  let main_cst_8 : FVec F S_ .f32 := constant S_ .f32 0x7F800000#32
  let main_v25 : FVec F S1x4 .f32 := broadcastInDim S1x4 ![] bcast_S_S1x4 main_cst_8
  let main_v26 : IVec S1x4 1 := cmpf .olt main_v24 main_v25
  let main_c_9 : IVec S_ 1 := constantI S_ 1 1#1
  let main_v27 : IVec S_ 1 := (fun x v => Host.reduce IntOp.andi x v reducesTo_S1x4_S_d0_1 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x500000 32) (main_arg2 : FVec F S500000x1 .f32) (main_arg3 : FVec F S128x256 .f32) (main_arg4 : FVec F S128x256 .f32) (main_arg5 : FVec F S128x256 .f32) (main_arg6 : FVec F S1x4 .f32) (main_arg7 : FVec F S256x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x1 .f32 := Host.absf main_arg2
  let main_cst_0 : FVec F S_ .f32 := constant S_ .f32 0x7F800000#32
  let main_v5 : FVec F S500000x1 .f32 := broadcastInDim S500000x1 ![] bcast_S_S500000x1 main_cst_0
  let main_v6 : IVec S500000x1 1 := cmpf .olt main_v4 main_v5
  let main_c_1 : IVec S_ 1 := constantI S_ 1 1#1
  let main_v7 : IVec S_ 1 := (fun x v => Host.reduce IntOp.andi x v reducesTo_S500000x1_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_v13 main_v16
-- ==== Kernel.lean ====
abbrev S50000x128 : Shape := ⟨2, ![50000, 128]⟩
abbrev S2x500000 : Shape := ⟨2, ![2, 500000]⟩
abbrev S500000x1 : Shape := ⟨2, ![500000, 1]⟩
abbrev S128x256 : Shape := ⟨2, ![128, 256]⟩
abbrev S1x4 : Shape := ⟨2, ![1, 4]⟩
abbrev S256x64 : Shape := ⟨2, ![256, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S500000x128 : Shape := ⟨2, ![500000, 128]⟩
abbrev S500000x4 : Shape := ⟨2, ![500000, 4]⟩
abbrev S5000x128 : Shape := ⟨2, ![5000, 128]⟩
abbrev S5000x4 : Shape := ⟨2, ![5000, 4]⟩
abbrev S5000x256 : Shape := ⟨2, ![5000, 256]⟩
abbrev S5000x64 : Shape := ⟨2, ![5000, 64]⟩
abbrev S5000 : Shape := ⟨1, ![5000]⟩
abbrev S5000x1 : Shape := ⟨2, ![5000, 1]⟩
abbrev S4 : Shape := ⟨1, ![4]⟩
abbrev S500000x64 : Shape := ⟨2, ![500000, 64]⟩
abbrev S50000x64 : Shape := ⟨2, ![50000, 64]⟩
abbrev S1x64 : Shape := ⟨2, ![1, 64]⟩

abbrev nBuf : Space → Nat
  | .hbm => 59
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x1, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S1x4, .f32⟩
  | .hbm, ⟨7, _⟩ => ⟨S256x64, .f32⟩
  | .hbm, ⟨8, _⟩ => ⟨S64, .f32⟩
  | .hbm, ⟨9, _⟩ => ⟨S1x500000, .i32⟩
  | .hbm, ⟨10, _⟩ => ⟨S500000, .i32⟩
  | .hbm, ⟨11, _⟩ => ⟨S1x500000, .i32⟩
  | .hbm, ⟨12, _⟩ => ⟨S500000, .i32⟩
  | .hbm, ⟨13, _⟩ => ⟨S50000x128, .bf16⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x128, .bf16⟩
  | .hbm, ⟨23, _⟩ => ⟨S_, .i32⟩
  | .hbm, ⟨24, _⟩ => ⟨S500000, .i32⟩
  | .hbm, ⟨25, _⟩ => ⟨S500000, .i1⟩
  | .hbm, ⟨26, _⟩ => ⟨S_, .i32⟩
  | .hbm, ⟨27, _⟩ => ⟨S500000, .i32⟩
  | .hbm, ⟨28, _⟩ => ⟨S500000, .i32⟩
  | .hbm, ⟨29, _⟩ => ⟨S500000, .i32⟩
  | .hbm, ⟨30, _⟩ => ⟨S500000x1, .i32⟩
  | .hbm, ⟨31, _⟩ => ⟨S500000x128, .bf16⟩
  | .hbm, ⟨32, _⟩ => ⟨S500000x4, .f32⟩
  | .hbm, ⟨33, _⟩ => ⟨S500000x4, .f32⟩
  | .hbm, ⟨34, _⟩ => ⟨S500000x4, .f32⟩
  | .hbm, ⟨35, _⟩ => ⟨S128x256, .bf16⟩
  | .hbm, ⟨36, _⟩ => ⟨S128x256, .bf16⟩
  | .hbm, ⟨37, _⟩ => ⟨S128x256, .bf16⟩
  | .hbm, ⟨38, _⟩ => ⟨S256x64, .bf16⟩
  | .hbm, ⟨39, _⟩ => ⟨S500000x4, .f32⟩
  | .hbm, ⟨40, _⟩ => ⟨S_, .f32⟩
  | .hbm, ⟨41, _⟩ => ⟨S4, .f32⟩
  | .hbm, ⟨42, _⟩ => ⟨S1x4, .f32⟩
  | .hbm, ⟨43, _⟩ => ⟨S500000x4, .f32⟩
  | .hbm, ⟨44, _⟩ => ⟨S500000x4, .f32⟩
  | .hbm, ⟨45, _⟩ => ⟨S500000x4, .f32⟩
  | .hbm, ⟨46, _⟩ => ⟨S_, .f32⟩
  | .hbm, ⟨47, _⟩ => ⟨S4, .f32⟩
  | .hbm, ⟨48, _⟩ => ⟨S1x4, .f32⟩
  | .hbm, ⟨49, _⟩ => ⟨S500000x4, .f32⟩
  | .hbm, ⟨50, _⟩ => ⟨S500000x4, .f32⟩
  | .hbm, ⟨51, _⟩ => ⟨S500000x64, .f32⟩
  | .hbm, ⟨52, _⟩ => ⟨S_, .f32⟩
  | .hbm, ⟨53, _⟩ => ⟨S50000x64, .f32⟩
  | .hbm, ⟨54, _⟩ => ⟨S500000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S5000x4, .f32⟩
  | .local _ .vmem, ⟨5, _⟩ => ⟨S5000x4, .f32⟩
  | .local _ .vmem, ⟨6, _⟩ => ⟨S128x256, .bf16⟩
  | .local _ .vmem, ⟨7, _⟩ => ⟨S128x256, .bf16⟩
  | .local _ .vmem, ⟨8, _⟩ => ⟨S5000x4, .f32⟩
  | .local _ .vmem, ⟨9, _⟩ => ⟨S5000x4, .f32⟩
  | .local _ .vmem, ⟨10, _⟩ => ⟨S5000x128, .bf16⟩
  | .local _ .vmem, ⟨11, _⟩ => ⟨S5000x128, .bf16⟩
  | .local _ .vmem, ⟨12, _⟩ => ⟨S128x256, .bf16⟩
  | .local _ .vmem, ⟨13, _⟩ => ⟨S5000x4, .f32⟩
  | .local _ .vmem, ⟨14, _⟩ => ⟨S5000x4, .f32⟩
  | .local _ .vmem, ⟨15, _⟩ => ⟨S256x64, .bf16⟩
  | .local _ .vmem, ⟨16, _⟩ => ⟨S5000x64, .f32⟩
  | .local _ .vmem, ⟨17, _⟩ => ⟨S5000x64, .f32⟩
  | .local _ .vmem, ⟨18, _⟩ => ⟨S5000x256, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x4_0_1 : S500000x1.BroadcastsInDim S500000x4 (![0, 1] : Fin 2 → Fin S500000x4.rank)
  bcast_S1x4_S500000x4_0_1 : S1x4.BroadcastsInDim S500000x4 (![0, 1] : Fin 2 → Fin S500000x4.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x4_S5000x4_0_0 : ∀ a, (![0, 0] : Fin 2 → Nat) a + S5000x4.size a ≤ S5000x4.size a
  h_S5000x4 : 0 < S5000x4.numel
  shapeCasts_S5000x4_S5000x4 : S5000x4.ShapeCasts S5000x4
  slices_S5000x256_o0_0_S5000x64 : S5000x256.Slices ![0, 0] S5000x64
  reduces_S5000x64_S5000 : S5000x64.Reduces [1] S5000
  shapeCasts_S5000_S5000x1 : S5000.ShapeCasts S5000x1
  slices_S5000x4_o0_0_S5000x1 : S5000x4.Slices ![0, 0] S5000x1
  inb_S5000x4_S5000x1_0_0 : ∀ a, (![0, 0] : Fin 2 → Nat) a + S5000x1.size a ≤ S5000x4.size a
  h_S5000x1 : 0 < S5000x1.numel
  slices_S5000x256_o0_64_S5000x64 : S5000x256.Slices ![0, 64] S5000x64
  slices_S5000x4_o0_1_S5000x1 : S5000x4.Slices ![0, 1] S5000x1
  inb_S5000x4_S5000x1_0_1 : ∀ a, (![0, 1] : Fin 2 → Nat) a + S5000x1.size a ≤ S5000x4.size a
  slices_S5000x256_o0_128_S5000x64 : S5000x256.Slices ![0, 128] S5000x64
  slices_S5000x4_o0_2_S5000x1 : S5000x4.Slices ![0, 2] S5000x1
  inb_S5000x4_S5000x1_0_2 : ∀ a, (![0, 2] : Fin 2 → Nat) a + S5000x1.size a ≤ S5000x4.size a
  slices_S5000x256_o0_192_S5000x64 : S5000x256.Slices ![0, 192] S5000x64
  slices_S5000x4_o0_3_S5000x1 : S5000x4.Slices ![0, 3] S5000x1
  inb_S5000x4_S5000x1_0_3 : ∀ a, (![0, 3] : Fin 2 → Nat) a + S5000x1.size a ≤ S5000x4.size a
  reducesTo_S500000x4_S4_d0 : S500000x4.ReducesTo [0] S4
  h_S_ : 0 < S_.numel
  bcast_S4_S1x4_1 : S4.BroadcastsInDim S1x4 (![1] : Fin 1 → Fin S1x4.rank)
  broadcasts_S5000x1_S5000x64 : S5000x1.Broadcasts S5000x64
  inb_S5000x256_S5000x64_0_0 : ∀ a, (![0, 0] : Fin 2 → Nat) a + S5000x64.size a ≤ S5000x256.size a
  h_S5000x64 : 0 < S5000x64.numel
  shapeCasts_S5000x64_S5000x64 : S5000x64.ShapeCasts S5000x64
  packedbf16_S5000x256_S5000x64_0_0 : (Rect.unit (s := S5000x256) ![0, 0] S5000x64.size inb_S5000x256_S5000x64_0_0).PackedRows (EltTy.packing .bf16)
  inb_S5000x256_S5000x64_0_64 : ∀ a, (![0, 64] : Fin 2 → Nat) a + S5000x64.size a ≤ S5000x256.size a
  packedbf16_S5000x256_S5000x64_0_64 : (Rect.unit (s := S5000x256) ![0, 64] S5000x64.size inb_S5000x256_S5000x64_0_64).PackedRows (EltTy.packing .bf16)
  inb_S5000x256_S5000x64_0_128 : ∀ a, (![0, 128] : Fin 2 → Nat) a + S5000x64.size a ≤ S5000x256.size a
  packedbf16_S5000x256_S5000x64_0_128 : (Rect.unit (s := S5000x256) ![0, 128] S5000x64.size inb_S5000x256_S5000x64_0_128).PackedRows (EltTy.packing .bf16)
  inb_S5000x256_S5000x64_0_192 : ∀ a, (![0, 192] : Fin 2 → Nat) a + S5000x64.size a ≤ S5000x256.size a
  packedbf16_S5000x256_S5000x64_0_192 : (Rect.unit (s := S5000x256) ![0, 192] S5000x64.size inb_S5000x256_S5000x64_0_192).PackedRows (EltTy.packing .bf16)
  inb_S5000x256_S5000x256_0_0 : ∀ a, (![0, 0] : Fin 2 → Nat) a + S5000x256.size a ≤ S5000x256.size a
  h_S5000x256 : 0 < S5000x256.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S5000x64_S5000x64_0_0 : ∀ a, (![0, 0] : Fin 2 → Nat) a + S5000x64.size a ≤ S5000x64.size a
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S500000x1_S500000x128_1_0_n_n_0_1_1128_wf : GatherDims.WF S50000x128 S500000x1 S500000x128 [1] [0] [] [0] [] 1 ![1, 128]
  dot_S5000x128_S128x256_S5000x256_1_0_0_1_n_n_wf : DotDims.WF S5000x128 S128x256 S5000x256 [1] [0] [0] [1] [] []
  dot_S5000x256_S256x64_S5000x64_1_0_0_1_n_n_wf : DotDims.WF S5000x256 S256x64 S5000x64 [1] [0] [0] [1] [] []
  scatter_S50000x64_S500000x1_S500000x64_1_0_0_1_wf : ScatterDims.WF S50000x64 S500000x1 S500000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .bf16 = 32 ∨ (Rect.block (s := S500000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .bf16 = 32 ∨ (Rect.block (s := S500000x128) S5000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x4.size a ≤ S500000x4.size a
  hwx0_2 : ∀ i : grid0.Coords, EltTy.bits .f32 = 32 ∨ (Rect.block (s := S500000x4) S5000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x4.size a ≤ S500000x4.size a
  hwx0_5 : ∀ i : grid0.Coords, EltTy.bits .f32 = 32 ∨ (Rect.block (s := S500000x4) S5000x4.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .bf16 = 32 ∨ (Rect.block (s := S500000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .bf16 = 32 ∨ (Rect.block (s := S128x256) S128x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x4.size a ≤ S500000x4.size a
  hwx1_2 : ∀ i : grid1.Coords, EltTy.bits .f32 = 32 ∨ (Rect.block (s := S500000x4) S5000x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S256x64.size a
  hwx1_3 : ∀ i : grid1.Coords, EltTy.bits .bf16 = 32 ∨ (Rect.block (s := S256x64) S256x64.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S500000x64.size a
  hwx1_4 : ∀ i : grid1.Coords, EltTy.bits .f32 = 32 ∨ (Rect.block (s := S500000x64) S5000x64.size (cc1_transform_4 i) (hinb1_4 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x4.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v11) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S256x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000x1 : Shape := ⟨2, ![500000, 1]⟩
abbrev S128x256 : Shape := ⟨2, ![128, 256]⟩
abbrev S1x4 : Shape := ⟨2, ![1, 4]⟩
abbrev S256x64 : Shape := ⟨2, ![256, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S500000x128 : Shape := ⟨2, ![500000, 128]⟩
abbrev S500000x256 : Shape := ⟨2, ![500000, 256]⟩
abbrev S500000x4x64 : Shape := ⟨3, ![500000, 4, 64]⟩
abbrev S500000x4 : Shape := ⟨2, ![500000, 4]⟩
abbrev S4 : Shape := ⟨1, ![4]⟩
abbrev S500000x4x1 : Shape := ⟨3, ![500000, 4, 1]⟩
abbrev S50000x4x64 : Shape := ⟨3, ![50000, 4, 64]⟩
abbrev S50000x256 : Shape := ⟨2, ![50000, 256]⟩
abbrev S50000x64 : Shape := ⟨2, ![50000, 64]⟩
abbrev S1x64 : Shape := ⟨2, ![1, 64]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x1, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S1x4, .f32⟩
  | .hbm, ⟨7, _⟩ => ⟨S256x64, .f32⟩
  | .hbm, ⟨8, _⟩ => ⟨S64, .f32⟩
  | .hbm, ⟨9, _⟩ => ⟨S1x500000, .i32⟩
  | .hbm, ⟨10, _⟩ => ⟨S500000, .i32⟩
  | .hbm, ⟨11, _⟩ => ⟨S1x500000, .i32⟩
  | .hbm, ⟨12, _⟩ => ⟨S500000, .i32⟩
  | .hbm, ⟨13, _⟩ => ⟨S_, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i32⟩
  | .hbm, ⟨19, _⟩ => ⟨S500000, .i32⟩
  | .hbm, ⟨20, _⟩ => ⟨S500000x1, .i32⟩
  | .hbm, ⟨21, _⟩ => ⟨S500000x128, .f32⟩
  | .hbm, ⟨22, _⟩ => ⟨S_, .i32⟩
  | .hbm, ⟨23, _⟩ => ⟨S500000, .i32⟩
  | .hbm, ⟨24, _⟩ => ⟨S500000, .i1⟩
  | .hbm, ⟨25, _⟩ => ⟨S_, .i32⟩
  | .hbm, ⟨26, _⟩ => ⟨S500000, .i32⟩
  | .hbm, ⟨27, _⟩ => ⟨S500000, .i32⟩
  | .hbm, ⟨28, _⟩ => ⟨S500000, .i32⟩
  | .hbm, ⟨29, _⟩ => ⟨S500000x1, .i32⟩
  | .hbm, ⟨30, _⟩ => ⟨S500000x128, .f32⟩
  | .hbm, ⟨31, _⟩ => ⟨S500000x256, .f32⟩
  | .hbm, ⟨32, _⟩ => ⟨S500000x4x64, .f32⟩
  | .hbm, ⟨33, _⟩ => ⟨S500000x256, .f32⟩
  | .hbm, ⟨34, _⟩ => ⟨S500000x4x64, .f32⟩
  | .hbm, ⟨35, _⟩ => ⟨S500000x256, .f32⟩
  | .hbm, ⟨36, _⟩ => ⟨S500000x4x64, .f32⟩
  | .hbm, ⟨37, _⟩ => ⟨S500000x4x64, .f32⟩
  | .hbm, ⟨38, _⟩ => ⟨S_, .f32⟩
  | .hbm, ⟨39, _⟩ => ⟨S500000x4, .f32⟩
  | .hbm, ⟨40, _⟩ => ⟨S_, .f32⟩
  | .hbm, ⟨41, _⟩ => ⟨S_, .f32⟩
  | .hbm, ⟨42, _⟩ => ⟨S500000x4, .f32⟩
  | .hbm, ⟨43, _⟩ => ⟨S500000x4, .f32⟩
  | .hbm, ⟨44, _⟩ => ⟨S500000x4, .f32⟩
  | .hbm, ⟨45, _⟩ => ⟨S500000x4, .f32⟩
  | .hbm, ⟨46, _⟩ => ⟨S_, .f32⟩
  | .hbm, ⟨47, _⟩ => ⟨S_, .f32⟩
  | .hbm, ⟨48, _⟩ => ⟨S500000x4, .f32⟩
  | .hbm, ⟨49, _⟩ => ⟨S500000x4, .i1⟩
  | .hbm, ⟨50, _⟩ => ⟨S_, .f32⟩
  | .hbm, ⟨51, _⟩ => ⟨S500000x4, .f32⟩
  | .hbm, ⟨52, _⟩ => ⟨S500000x4, .f32⟩
  | .hbm, ⟨53, _⟩ => ⟨S500000x4, .f32⟩
  | .hbm, ⟨54, _⟩ => ⟨S_, .f32⟩
  | .hbm, ⟨55, _⟩ => ⟨S4, .f32⟩
  | .hbm, ⟨56, _⟩ => ⟨S_, .f32⟩
  | .hbm, ⟨57, _⟩ => ⟨S4, .f32⟩
  | .hbm, ⟨58, _⟩ => ⟨S4, .f32⟩
  | .hbm, ⟨59, _⟩ => ⟨S1x4, .f32⟩
  | .hbm, ⟨60, _⟩ => ⟨S500000x4, .f32⟩
  | .hbm, ⟨61, _⟩ => ⟨S500000x4, .f32⟩
  | .hbm, ⟨62, _⟩ => ⟨S500000x4, .f32⟩
  | .hbm, ⟨63, _⟩ => ⟨S_, .f32⟩
  | .hbm, ⟨64, _⟩ => ⟨S4, .f32⟩
  | .hbm, ⟨65, _⟩ => ⟨S1x4, .f32⟩
  | .hbm, ⟨66, _⟩ => ⟨S500000x4, .f32⟩
  | .hbm, ⟨67, _⟩ => ⟨S500000x4, .f32⟩
  | .hbm, ⟨68, _⟩ => ⟨S500000x4x1, .f32⟩
  | .hbm, ⟨69, _⟩ => ⟨S500000x4x64, .f32⟩
  | .hbm, ⟨70, _⟩ => ⟨S500000x4x64, .f32⟩
  | .hbm, ⟨71, _⟩ => ⟨S_, .f32⟩
  | .hbm, ⟨72, _⟩ => ⟨S50000x4x64, .f32⟩
  | .hbm, ⟨73, _⟩ => ⟨S500000x1, .i32⟩
  | .hbm, ⟨74, _⟩ => ⟨S50000x4x64, .f32⟩
  | .hbm, ⟨75, _⟩ => ⟨S50000x256, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_8 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  shapeCasts_S500000x256_S500000x4x64 : S500000x256.ShapeCasts S500000x4x64
  reducesTo_S500000x4x64_S500000x4_d2 : S500000x4x64.ReducesTo [2] S500000x4
  h_S_ : 0 < S_.numel
  bcast_S_S500000x4 : S_.BroadcastsInDim S500000x4 (![] : Fin 0 → Fin S500000x4.rank)
  reducesTo_S500000x4_S4_d0 : S500000x4.ReducesTo [0] S4
  bcast_S_S4 : S_.BroadcastsInDim S4 (![] : Fin 0 → Fin S4.rank)
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  bcast_S500000x4_S500000x4x1_0_1 : S500000x4.BroadcastsInDim S500000x4x1 (![0, 1] : Fin 2 → Fin S500000x4x1.rank)
  bcast_S500000x4x1_S500000x4x64_0_1_2 : S500000x4x1.BroadcastsInDim S500000x4x64 (![0, 1, 2] : Fin 3 → Fin S500000x4x64.rank)
  bcast_S_S50000x4x64 : S_.BroadcastsInDim S50000x4x64 (![] : Fin 0 → Fin S50000x4x64.rank)
  shapeCasts_S50000x4x64_S50000x256 : S50000x4x64.ShapeCasts S50000x256
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S500000x1_S500000x128_1_0_n_n_0_1_1128_wf : GatherDims.WF S50000x128 S500000x1 S500000x128 [1] [0] [] [0] [] 1 ![1, 128]
  dot_S500000x128_S128x256_S500000x256_1_0_0_1_n_n_wf : DotDims.WF S500000x128 S128x256 S500000x256 [1] [0] [0] [1] [] []
  dot_S500000x1_S1x4_S500000x4_1_0_0_1_n_n_wf : DotDims.WF S500000x1 S1x4 S500000x4 [1] [0] [0] [1] [] []
  scatter_S50000x4x64_S500000x1_S500000x4x64_12_0_0_1_wf : ScatterDims.WF S50000x4x64 S500000x1 S500000x4x64 [1, 2] [0] [0] 1
  dot_S50000x256_S256x64_S50000x64_1_0_0_1_n_n_wf : DotDims.WF S50000x256 S256x64 S50000x64 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x128_S128x256_S500000x256_1_0_0_1_n_n : DotDims S500000x128 S128x256 S500000x256 where
  lhsContracting := [1]
  rhsContracting := [0]
  lhsNonContracting := [0]
  rhsNonContracting := [1]
  lhsBatch := []
  rhsBatch := []
  wf := dot_S500000x128_S128x256_S500000x256_1_0_0_1_n_n_wf
def dot_S500000x1_S1x4_S500000x4_1_0_0_1_n_n : DotDims S500000x1 S1x4 S500000x4 where
  lhsContracting := [1]
  rhsContracting := [0]
  lhsNonContracting := [0]
  rhsNonContracting := [1]
  lhsBatch := []
  rhsBatch := []
  wf := dot_S500000x1_S1x4_S500000x4_1_0_0_1_n_n_wf
def scatter_S50000x4x64_S500000x1_S500000x4x64_12_0_0_1 : ScatterDims S50000x4x64 S500000x1 S500000x4x64 where
  updateWindowDims := [1, 2]
  insertedWindowDims := [0]
  scatterDimsToOperandDims := [0]
  indexVectorDim := 1
  wf := scatter_S50000x4x64_S500000x1_S500000x4x64_12_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.KernelRun.lean ====
/-
  The idealized kernel's run with its result NAMED: every weakly fair execution of @main terminates without a fault,
  the argument arrays end as launched, and the result array ends at the contents the last stretch of host operations
  leaves — the fold of @main's five segments (host operations, the logits region, host operations, the value region,
  host operations) from the launch memory, read at the result's buffer.  The same launch of the same segments that
  gives the frame; only the final read keeps one more buffer.
-/
import proofs.«159076_j14929306321609_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result's buffer read at the last boundary's contents. -/
theorem run_named : θ_run defs (onTc (τ := τ) (main (F := F))) ⟨m, fun _ => 0, ρ⟩ (fun r => ∀ c : Dev nD,
      r.2.mem ((c.tc : Thread nD τ).loc main_v42) = W5 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v42 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.Run

end
-- ==== Proof.KStages.lean ====
/-
  The idealized kernel's host operations, stage by stage, as plain functions: the index columns (row 0 of the edge list
  the sources, row 1 the targets, a negative entry moved up by the number of nodes), the gathered source and target rows
  (of the features after their change of format, which is the identity on extended reals), the edge bias (edge weight
  times head weight, by broadcasting), the softmax over all edges per head, and the tail (the per-edge projected
  contributions added up per target node from zero, plus the bias).  And what the first stretch of host operations
  leaves in the buffers the two regions read, as these functions of the launch contents.
-/
import proofs.«159076_j14929306321609_2_alg».proof.Proof.Gen.KernelIdeal.Frame
import Idealize.ShloMosaic.Lib.StableHlo.Run
import Idealize.ShloMosaic.PureOps.Ideal
import Idealize.ShloMosaic.Lib.ValueIdx
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Stages

open Cert.KernelIdeal Cert.KernelIdeal.Gen

/-- Row `0` of the edge list as a vector. -/
def row0 (ei : IVec S2x500000 32) : IVec S500000 32 :=
  shapeCast S500000 (extractStridedSlice S1x500000 ![0, 0] ei slices_S2x500000_S1x500000_0_0) shapeCasts_S1x500000_S500000

/-- Row `1` of the edge list as a vector. -/
def row1 (ei : IVec S2x500000 32) : IVec S500000 32 :=
  shapeCast S500000 (extractStridedSlice S1x500000 ![1, 0] ei slices_S2x500000_S1x500000_1_0) shapeCasts_S1x500000_S500000

/-- An index vector normalised (a negative entry has 50000 added) and made a column. -/
def normCol (r : IVec S500000 32) : IVec S500000x1 32 :=
  broadcastInDim S500000x1 ![0] bcast_S500000_S500000x1_0
    (select (cmpi .slt r (broadcastInDim S500000 ![] bcast_S_S500000 (constantI S_ 32 0#32)))
      (addi r (broadcastInDim S500000 ![] bcast_S_S500000 (constantI S_ 32 50000#32))) r)

def idxS (ei : IVec S2x500000 32) : IVec S500000x1 32 := normCol (row0 ei)
def idxT (ei : IVec S2x500000 32) : IVec S500000x1 32 := normCol (row1 ei)

/-- The target indices as read, not normalised, as a column: what the scatter is indexed by. -/
def tgtRaw (ei : IVec S2x500000 32) : IVec S500000x1 32 :=
  broadcastInDim S500000x1 ![0] bcast_S500000_S500000x1_0 (row1 ei)

/-- The source rows of the node features, one per edge. -/
def xsK (x : FVec Ideal S50000x128 .f32) (ei : IVec S2x500000 32) : FVec Ideal S500000x128 .bf16 :=
  Host.gather gather_S50000x128_S500000x1_S500000x128_1_0_n_n_0_1_1128 (truncf .bf16 x bitsLt_bf16_f32) (idxS ei)

/-- The target rows of the node features, one per edge. -/
def xtK (x : FVec Ideal S50000x128 .f32) (ei : IVec S2x500000 32) : FVec Ideal S500000x128 .bf16 :=
  Host.gather gather_S50000x128_S500000x1_S500000x128_1_0_n_n_0_1_1128 (truncf .bf16 x bitsLt_bf16_f32) (idxT ei)

/-- The edge bias: edge weight times head weight. -/
def ebK (ew : FVec Ideal S500000x1 .f32) (We : FVec Ideal S1x4 .f32) : FVec Ideal S500000x4 .f32 :=
  mulf (broadcastInDim S500000x4 ![0, 1] bcast_S500000x1_S500000x4_0_1 ew) (broadcastInDim S500000x4 ![0, 1] bcast_S1x4_S500000x4_0_1 We)

/-- The per-head maximum over all edges (from −∞), as a 1×4 row. -/
def colMaxK (L : FVec Ideal S500000x4 .f32) : FVec Ideal S1x4 .f32 :=
  broadcastInDim S1x4 ![1] bcast_S4_S1x4_1
    (Host.reduce FloatOps.maximumf L (constant (F := Ideal) S_ .f32 0xFF800000#32) reducesTo_S500000x4_S4_d0 h_S_)

/-- The exponentials of the logits less their per-head maximum. -/
def expShiftK (L : FVec Ideal S500000x4 .f32) : FVec Ideal S500000x4 .f32 :=
  Host.exp (F := Ideal) (subf L (broadcastInDim S500000x4 ![0, 1] bcast_S1x4_S500000x4_0_1 (colMaxK L)))

/-- The softmax over all edges, per head. -/
def softmaxK (L : FVec Ideal S500000x4 .f32) : FVec Ideal S500000x4 .f32 :=
  Host.divf (F := Ideal) (expShiftK L)
    (broadcastInDim S500000x4 ![0, 1] bcast_S1x4_S500000x4_0_1
      (broadcastInDim S1x4 ![1] bcast_S4_S1x4_1
        (Host.reduceAdd (F := Ideal) (expShiftK L) (constant (F := Ideal) S_ .f32 0x00000000#32) reducesTo_S500000x4_S4_d0 h_S_)))

/-- The tail: per-edge contributions added up per target node from zero, plus the bias. -/
def tailK (oe : FVec Ideal S500000x64 .f32) (r1 : IVec S500000 32) (b : FVec Ideal S64 .f32) : FVec Ideal S50000x64 .f32 :=
  addf
    (Host.scatterAdd (F := Ideal) scatter_S50000x64_S500000x1_S500000x64_1_0_0_1
      (broadcastInDim S50000x64 ![] bcast_S_S50000x64 (constant (F := Ideal) S_ .f32 0x00000000#32))
      (broadcastInDim S500000x1 ![0] bcast_S500000_S500000x1_0 r1) oe)
    (broadcastInDim S50000x64 ![0, 1] bcast_S1x64_S50000x64_0_1 (broadcastInDim S1x64 ![1] bcast_S64_S1x64_1 b))

/-- A 128×256 weight matrix after its change of format (the identity on extended reals). -/
def wbf (W : FVec Ideal S128x256 .f32) : FVec Ideal S128x256 .bf16 := truncf .bf16 W bitsLt_bf16_f32

/-- The 256×64 output weights after their change of format. -/
def woutbf (W : FVec Ideal S256x64 .f32) : FVec Ideal S256x64 .bf16 := truncf .bf16 W bitsLt_bf16_f32

variable (m : (ℓ : Loc nD τ sig) → Buf (Elt Ideal) ℓ) (ρ : Dev nD → PrngReg)

/-! ## The first stretch, read at the buffers the regions and the tail take -/

set_option maxHeartbeats 1600000 in
theorem W1_v11 (c : Dev nD) : W1 m ρ c (Proc.devRef .tc main_v11) = xsK (m ((c : Thread nD τ).loc main_arg0)) (m ((c : Thread nD τ).loc main_arg1)) := by
  show StableHlo.after hostOps0 (W0 m ρ c) (Proc.devRef .tc main_v11) = _
  after_results_simp
  rfl

set_option maxHeartbeats 1600000 in
theorem W1_v18 (c : Dev nD) : W1 m ρ c (Proc.devRef .tc main_v18) = xtK (m ((c : Thread nD τ).loc main_arg0)) (m ((c : Thread nD τ).loc main_arg1)) := by
  show StableHlo.after hostOps0 (W0 m ρ c) (Proc.devRef .tc main_v18) = _
  after_results_simp
  rfl

set_option maxHeartbeats 1600000 in
theorem W1_v21 (c : Dev nD) : W1 m ρ c (Proc.devRef .tc main_v21) = ebK (m ((c : Thread nD τ).loc main_arg2)) (m ((c : Thread nD τ).loc main_arg6)) := by
  show StableHlo.after hostOps0 (W0 m ρ c) (Proc.devRef .tc main_v21) = _
  after_results_simp
  rfl

set_option maxHeartbeats 1600000 in
theorem W1_v22 (c : Dev nD) : W1 m ρ c (Proc.devRef .tc main_v22) = wbf (m ((c : Thread nD τ).loc main_arg3)) := by
  show StableHlo.after hostOps0 (W0 m ρ c) (Proc.devRef .tc main_v22) = _
  after_results_simp
  rfl

set_option maxHeartbeats 1600000 in
theorem W1_v23 (c : Dev nD) : W1 m ρ c (Proc.devRef .tc main_v23) = wbf (m ((c : Thread nD τ).loc main_arg4)) := by
  show StableHlo.after hostOps0 (W0 m ρ c) (Proc.devRef .tc main_v23) = _
  after_results_simp
  rfl

set_option maxHeartbeats 1600000 in
theorem W1_v24 (c : Dev nD) : W1 m ρ c (Proc.devRef .tc main_v24) = wbf (m ((c : Thread nD τ).loc main_arg5)) := by
  show StableHlo.after hostOps0 (W0 m ρ c) (Proc.devRef .tc main_v24) = _
  after_results_simp
  rfl

set_option maxHeartbeats 1600000 in
theorem W1_v25 (c : Dev nD) : W1 m ρ c (Proc.devRef .tc main_v25) = woutbf (m ((c : Thread nD τ).loc main_arg7)) := by
  show StableHlo.after hostOps0 (W0 m ρ c) (Proc.devRef .tc main_v25) = _
  after_results_simp
  rfl

set_option maxHeartbeats 1600000 in
theorem W1_v3 (c : Dev nD) : W1 m ρ c (Proc.devRef .tc main_v3) = row1 (m ((c : Thread nD τ).loc main_arg1)) := by
  show StableHlo.after hostOps0 (W0 m ρ c) (Proc.devRef .tc main_v3) = _
  after_results_simp
  rfl

end Cert.KernelIdeal.Stages

end
-- ==== Proof.Spec.lean ====
/-
  The message-passing layer as plain functions on the extended reals, over plain finite index types, with no
  program in sight.  An edge `e` has a source row `xs e` and a target row `xt e` of 128 features.  Three projections
  (128 → 256 = 4 heads × 64 channels) give queries, keys and values.  The logit of head `h` on edge `e` is the
  64-channel inner product of the head's query and key, divided by 8 = √64, plus the edge's bias for the head, passed through
  the leaky rectifier of slope 0.2.  The attention weight is the softmax of the logits over ALL edges, per head.
  The layer's output at node `n` is the sum, over the edges whose target is `n`, of the weighted values, projected by
  `Wout` (256 → 64), plus a bias.  The two programs differ in WHERE the last projection happens: per edge before the
  sum over edges (`outK`) or per node after it (`outR`).
-/
import Idealize.ShloMosaic.PureOps.Ideal

noncomputable section

namespace Cert.Spec

open Idealize.ShloMosaic

/-- Column of channel `c` of head `h` in the 256-wide projected row. -/
def col (h : Fin 4) (c : Fin 64) : Fin 256 := ⟨h.val * 64 + c.val, by omega⟩

/-- The head a projected column belongs to. -/
def headOf (j : Fin 256) : Fin 4 := ⟨j.val / 64, by omega⟩

/-- A feature row times a 128×256 weight matrix, at column `j`. -/
def proj {R : Nat} (xr : Fin R → Fin 128 → EReal) (W : Fin 128 → Fin 256 → EReal) (r : Fin R) (j : Fin 256) : EReal :=
  ∑ i : Fin 128, xr r i * W i j

/-- The inner product of head `h`'s query and key on row `r`. -/
def score {R : Nat} (xt xs : Fin R → Fin 128 → EReal) (Wq Wk : Fin 128 → Fin 256 → EReal) (r : Fin R) (h : Fin 4) : EReal :=
  ∑ c : Fin 64, proj xt Wq r (col h c) * proj xs Wk r (col h c)

/-- The rectifier's slope: the f32 word nearest 0.2, as both programs print it. -/
def slope : EReal := Ideal.ofBits .f32 0x3E4CCCCD#32

/-- The leaky rectifier. -/
def leaky (z : EReal) : EReal := if 0 ≤ z then z else slope * z

/-- The logit of head `h` on row `r`: score / 8 + bias, rectified. -/
def logit {R : Nat} (xt xs : Fin R → Fin 128 → EReal) (Wq Wk : Fin 128 → Fin 256 → EReal) (eb : Fin R → Fin 4 → EReal)
    (r : Fin R) (h : Fin 4) : EReal :=
  leaky (score xt xs Wq Wk r h * ((1 / 8 : ℝ) : EReal) + eb r h)

/-- One edge's contribution, already projected by `Wout`: Σ_j (v[r,j] · a[r, head j]) · Wout[j,o]. -/
def edgeOut {R : Nat} (xs : Fin R → Fin 128 → EReal) (Wv : Fin 128 → Fin 256 → EReal) (a : Fin R → Fin 4 → EReal)
    (Wout : Fin 256 → Fin 64 → EReal) (r : Fin R) (o : Fin 64) : EReal :=
  ∑ j : Fin 256, (proj xs Wv r j * a r (headOf j)) * Wout j o

/-- Project per edge, then add up the edges of node `n` (from zero), then the bias.  `T e` is edge `e`'s target,
    read as a signed integer; an edge whose target is no node contributes nowhere. -/
def outK (T : Fin 500000 → ℤ) (oe : Fin 500000 → Fin 64 → EReal) (b : Fin 64 → EReal) (n : Fin 50000) (o : Fin 64) : EReal :=
  (0 + ∑ e ∈ Finset.univ.filter (fun e : Fin 500000 => T e = (n.val : ℤ)), oe e o) + b o

/-- Add up the weighted values of node `n`'s edges (from zero), then project, then the bias. -/
def outR (T : Fin 500000 → ℤ) (a : Fin 500000 → Fin 4 → EReal) (v : Fin 500000 → Fin 256 → EReal)
    (Wout : Fin 256 → Fin 64 → EReal) (b : Fin 64 → EReal) (n : Fin 50000) (o : Fin 64) : EReal :=
  (∑ k : Fin 256, (0 + ∑ e ∈ Finset.univ.filter (fun e : Fin 500000 => T e = (n.val : ℤ)), a e (headOf k) * v e k) * Wout k o) + b o

end Cert.Spec

end
-- ==== Proof.SpecCongr.lean ====
/-
  The layer's per-row quantities depend on their row families only through the row itself: two families that agree on
  one row (possibly under different row numbers) give that row the same logit and the same projected contribution.
  This is what lets a block of 5000 rows be read as rows of the whole 500000-row array.
-/
import proofs.«159076_j14929306321609_2_alg».proof.Proof.Spec

noncomputable section

namespace Cert.Spec

theorem proj_congr {R R' : Nat} {xr : Fin R → Fin 128 → EReal} {xr' : Fin R' → Fin 128 → EReal} {W W' : Fin 128 → Fin 256 → EReal}
    {r : Fin R} {r' : Fin R'} (hx : ∀ i, xr r i = xr' r' i) (hW : ∀ i j, W i j = W' i j) (j : Fin 256) :
    proj xr W r j = proj xr' W' r' j := by
  unfold proj
  exact Finset.sum_congr rfl fun i _ => by rw [hx i, hW i j]

theorem logit_congr {R R' : Nat} {xt xs : Fin R → Fin 128 → EReal} {xt' xs' : Fin R' → Fin 128 → EReal}
    {Wq Wk Wq' Wk' : Fin 128 → Fin 256 → EReal} {eb : Fin R → Fin 4 → EReal} {eb' : Fin R' → Fin 4 → EReal}
    {r : Fin R} {r' : Fin R'} (ht : ∀ i, xt r i = xt' r' i) (hs : ∀ i, xs r i = xs' r' i)
    (hq : ∀ i j, Wq i j = Wq' i j) (hk : ∀ i j, Wk i j = Wk' i j) (hb : ∀ h, eb r h = eb' r' h) (h : Fin 4) :
    logit xt xs Wq Wk eb r h = logit xt' xs' Wq' Wk' eb' r' h := by
  unfold logit score
  rw [hb h]
  congr 2
  refine congrArg (· * _) ?_
  exact Finset.sum_congr rfl fun c _ => by rw [proj_congr ht hq, proj_congr hs hk]

theorem edgeOut_congr {R R' : Nat} {xs : Fin R → Fin 128 → EReal} {xs' : Fin R' → Fin 128 → EReal}
    {Wv Wv' : Fin 128 → Fin 256 → EReal} {a : Fin R → Fin 4 → EReal} {a' : Fin R' → Fin 4 → EReal}
    {Wout Wout' : Fin 256 → Fin 64 → EReal} {r : Fin R} {r' : Fin R'}
    (hs : ∀ i, xs r i = xs' r' i) (hv : ∀ i j, Wv i j = Wv' i j) (ha : ∀ h, a r h = a' r' h)
    (ho : ∀ j o, Wout j o = Wout' j o) (o : Fin 64) :
    edgeOut xs Wv a Wout r o = edgeOut xs' Wv' a' Wout' r' o := by
  unfold edgeOut
  exact Finset.sum_congr rfl fun j _ => by rw [proj_congr hs hv, ha, ho]

end Cert.Spec

end
-- ==== Proof.K0Array.lean ====
/-
  The logits region as ONE array.  The region's grid has 100 points; at point `t` every row window (target rows, source
  rows, edge bias, and the output) holds rows 5000·t … 5000·t + 4999 of its array, and the two weight windows hold their
  whole matrices.  The body's result at block row `r` and head `h` depends on the blocks only through row `r`, so it is
  the logit of array row 5000·t + r; the 100 output blocks tile the 500000 rows, so after the region the output array
  holds the logit of every edge and head, as a function of the arrays the region found.
-/
import proofs.«159076_j14929306321609_2_alg».proof.Proof.Gen.KernelIdeal.Frame
import proofs.«159076_j14929306321609_2_alg».proof.Proof.Spec
import proofs.«159076_j14929306321609_2_alg».proof.Proof.SpecCongr
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr0

open Cert.KernelIdeal Cert.KernelIdeal.Gen

variable (V : (c : Dev nD) → (b : Ref sig .tc) → Buf (Elt Ideal) ((c : Thread nD τ).loc b))

/-- The array of logits from five arrays: target rows, source rows, the two weight matrices, the edge bias. -/
def logitArr (xt xs : S500000x128.Idx → EReal) (Wq Wk : S128x256.Idx → EReal) (eb : S500000x4.Idx → EReal) :
    S500000x4.Idx → EReal := fun i =>
  Spec.logit (fun e k => xt (ix2 e k)) (fun e k => xs (ix2 e k)) (fun k j => Wq (ix2 k j)) (fun k j => Wk (ix2 k j))
    (fun e h => eb (ix2 e h)) (i 0) (i 1)

/-- The array of logits, from the arrays the region finds. -/
def logitsOf (c : Dev nD) : S500000x4.Idx → EReal :=
  logitArr (V c main_v18) (V c main_v11) (V c main_v22) (V c main_v23) (V c main_v21)

/-- The printed index maps over the grid: the row windows move with the point, the weight windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem N_eq : cfg0.N = 100 := N_0

/-- Target rows: block row `y 0` at point `t` is array row 5000·t + `y 0`. -/
theorem blk0_apply (c : Dev nD) (t : Fin cfg0.N) (y : S5000x128.Idx) (k : S500000x128.Idx)
    (hk0 : (k 0).val = 5000 * t.val + (y 0).val) (hk1 : (k 1).val = (y 1).val) :
    (iblk0 V c 0 t : S5000x128.Idx → EReal) y = (V c main_v18 : S500000x128.Idx → EReal) k := by
  obtain ⟨e0, e1, -⟩ := idx_facts t
  unfold iblk0
  rw [View.read_apply]
  show V c main_v18 _ = V c main_v18 _
  congr 1
  funext a
  apply Fin.ext
  match a with
  | ⟨0, _⟩ => show win0_0.index t (0 : Fin 2) * 5000 + 1 * (y 0).val = (k 0).val; rw [e0, hk0]; omega
  | ⟨1, _⟩ => show win0_0.index t (1 : Fin 2) * 128 + 1 * (y 1).val = (k 1).val; rw [e1, hk1]; omega

/-- Source rows likewise. -/
theorem blk1_apply (c : Dev nD) (t : Fin cfg0.N) (y : S5000x128.Idx) (k : S500000x128.Idx)
    (hk0 : (k 0).val = 5000 * t.val + (y 0).val) (hk1 : (k 1).val = (y 1).val) :
    (iblk0 V c 1 t : S5000x128.Idx → EReal) y = (V c main_v11 : S500000x128.Idx → EReal) k := by
  obtain ⟨-, -, e0, e1, -⟩ := idx_facts t
  unfold iblk0
  rw [View.read_apply]
  show V c main_v11 _ = V c main_v11 _
  congr 1
  funext a
  apply Fin.ext
  match a with
  | ⟨0, _⟩ => show win0_1.index t (0 : Fin 2) * 5000 + 1 * (y 0).val = (k 0).val; rw [e0, hk0]; omega
  | ⟨1, _⟩ => show win0_1.index t (1 : Fin 2) * 128 + 1 * (y 1).val = (k 1).val; rw [e1, hk1]; omega

/-- The edge bias likewise. -/
theorem blk2_apply (c : Dev nD) (t : Fin cfg0.N) (y : S5000x4.Idx) (k : S500000x4.Idx)
    (hk0 : (k 0).val = 5000 * t.val + (y 0).val) (hk1 : (k 1).val = (y 1).val) :
    (iblk0 V c 2 t : S5000x4.Idx → EReal) y = (V c main_v21 : S500000x4.Idx → EReal) k := by
  obtain ⟨-, -, -, -, e0, e1, -⟩ := idx_facts t
  unfold iblk0
  rw [View.read_apply]
  show V c main_v21 _ = V c main_v21 _
  congr 1
  funext a
  apply Fin.ext
  match a with
  | ⟨0, _⟩ => show win0_2.index t (0 : Fin 2) * 5000 + 1 * (y 0).val = (k 0).val; rw [e0, hk0]; omega
  | ⟨1, _⟩ => show win0_2.index t (1 : Fin 2) * 4 + 1 * (y 1).val = (k 1).val; rw [e1, hk1]; omega

/-- The query weights: the block is the matrix. -/
theorem blk3_apply (c : Dev nD) (t : Fin cfg0.N) (y : S128x256.Idx) :
    (iblk0 V c 3 t : S128x256.Idx → EReal) y = (V c main_v22 : S128x256.Idx → EReal) y := by
  obtain ⟨-, -, -, -, -, -, e0, e1, -⟩ := idx_facts t
  unfold iblk0
  rw [View.read_apply]
  show V c main_v22 _ = V c main_v22 _
  congr 1
  funext a
  apply Fin.ext
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- The key weights: the block is the matrix. -/
theorem blk4_apply (c : Dev nD) (t : Fin cfg0.N) (y : S128x256.Idx) :
    (iblk0 V c 4 t : S128x256.Idx → EReal) y = (V c main_v23 : S128x256.Idx → EReal) y := by
  obtain ⟨-, -, -, -, -, -, -, -, e0, e1, -⟩ := idx_facts t
  unfold iblk0
  rw [View.read_apply]
  show V c main_v23 _ = V c main_v23 _
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 256 + 1 * (y 1).val = (y 1).val; rw [e1]; omega

/-- What the body computes on a block, as the specification's logit of the block's rows (the body's arithmetic, proved
    with the body; taken here as a hypothesis so that this module does not depend on it). -/
abbrev BodyFact : Prop :=
  ∀ (x0 x1 : Vec Ideal S5000x128 .bf16) (x2 : Vec Ideal S5000x4 .f32) (x3 x4 : Vec Ideal S128x256 .bf16) (r : Fin 5000) (h : Fin 4),
    out0_5 (F := Ideal) x0 x1 x2 x3 x4 (ix2 r h)
      = Spec.logit (fun r i => x0 (ix2 r i)) (fun r i => x1 (ix2 r i)) (fun i j => x3 (ix2 i j)) (fun i j => x4 (ix2 i j))
          (fun r h => x2 (ix2 r h)) r h

/-- WHAT POINT `t` WRITES BACK is block `t` of the array of logits. -/
theorem flushed_eq (hbody : BodyFact) (c : Dev nD) (t : Fin cfg0.N) :
    (dat0 V c).flushed 5 t = ((cfg0.win 5).blk t).view.read (Elt Ideal) (logitsOf V c) := by
  show (cfg0.win 5).cut (grid0.coords t) ((dat0 V c).after 5 t) = _
  rw [after0_5]
  obtain ⟨-, -, -, -, -, -, -, -, -, -, e0, e1⟩ := idx_facts t
  have hN : cfg0.N = 100 := N_eq
  have htl : t.val < 100 := hN ▸ t.isLt
  funext j
  have hj0 : (j 0).val < 5000 := (j 0).isLt
  have hj1 : (j 1).val < 4 := (j 1).isLt
  show out0_5 (iblk0 V c 0 t) (iblk0 V c 1 t) (iblk0 V c 2 t) (iblk0 V c 3 t) (iblk0 V c 4 t) j = logitsOf V c (((cfg0.win 5).blk t).view.emb j)
  have hj : j = ix2 (⟨(j 0).val, hj0⟩ : Fin 5000) (⟨(j 1).val, hj1⟩ : Fin 4) := by
    funext a; match a with | ⟨0, _⟩ => rfl | ⟨1, _⟩ => rfl
  refine (congrArg (out0_5 (iblk0 V c 0 t) (iblk0 V c 1 t) (iblk0 V c 2 t) (iblk0 V c 3 t) (iblk0 V c 4 t)) hj).trans ?_
  refine (hbody _ _ _ _ _ _ _).trans ?_
  have he0 : ((((cfg0.win 5).blk t).view.emb j) 0).val = 5000 * t.val + (j 0).val := by
    show win0_5.index t (0 : Fin 2) * 5000 + 1 * (j 0).val = _; rw [e0]; omega
  have he1 : ((((cfg0.win 5).blk t).view.emb j) 1).val = (j 1).val := by
    show win0_5.index t (1 : Fin 2) * 4 + 1 * (j 1).val = _; rw [e1]; omega
  unfold logitsOf logitArr
  have hh : (⟨(j 1).val, hj1⟩ : Fin 4) = (((cfg0.win 5).blk t).view.emb j) 1 := Fin.ext he1.symm
  rw [← hh]
  refine Spec.logit_congr (fun i => ?_) (fun i => ?_) (fun i k => ?_) (fun i k => ?_) (fun h => ?_) _
  · exact blk0_apply V c t _ _ (by show _ = 5000 * t.val + (j 0).val; exact he0) rfl
  · exact blk1_apply V c t _ _ (by show _ = 5000 * t.val + (j 0).val; exact he0) rfl
  · exact blk3_apply V c t _
  · exact blk4_apply V c t _
  · exact blk2_apply V c t _ _ (by show _ = 5000 * t.val + (j 0).val; exact he0) rfl

/-- An index of the array is in point `t`'s block iff each coordinate is in the block's range on its axis. -/
theorem mem_blk (t : Fin cfg0.N) (i : S500000x4.Idx) :
    i ∈ ((cfg0.win 5).blk t).view.set ↔ ∀ a : Fin 2, win0_5.index t a * S5000x4.size a ≤ (i a).val ∧ (i a).val < win0_5.index t a * S5000x4.size a + S5000x4.size a := by
  show i ∈ ((View.whole main_v26).slice (win0_5.rect t)).set ↔ _
  rw [View.set_slice_whole, Rect.mem_set_unit]
  exact Iff.rfl

/-- Every row is in the block of the point `row / 5000`. -/
theorem cover (i : S500000x4.Idx) : ∃ t : Fin cfg0.N, (cfg0.win 5).flush t = true ∧ i ∈ ((cfg0.win 5).blk t).view.set := by
  have hi0 : (i 0).val < 500000 := (i 0).isLt
  have hi1 : (i 1).val < 4 := (i 1).isLt
  have hN : cfg0.N = 100 := N_eq
  refine ⟨⟨(i 0).val / 5000, by rw [hN]; omega⟩, flush0_5 _, ?_⟩
  rw [mem_blk]
  obtain ⟨-, -, -, -, -, -, -, -, -, -, e0, e1⟩ := idx_facts ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 4 ≤ (i 1).val ∧ (i 1).val < win0_5.index _ (1 : Fin 2) * 4 + 4
    rw [e1]; omega

/-- THE ARRAY after the region: the logit of every edge and head. -/
theorem final (hbody : BodyFact) (c : Dev nD) : (dat0 V c).arrAt 5 cfg0.N = logitsOf V c :=
  (dat0 V c).arrAt_eq_of_cover 5 (logitsOf V c) (fun t _ => flushed_eq V hbody c t) cover

end Cert.KernelIdeal.Arr0

end
-- ==== Proof.K1Array.lean ====
/-
  The value region as ONE array.  As in the logits region the grid has 100 points; at point `t` the row windows (source
  rows, attention weights, and the output) hold rows 5000·t … 5000·t + 4999 of their arrays and the two weight windows
  hold their whole matrices.  The body's result at block row `r` and output channel `o` is that row's weighted values
  projected to channel `o`, which depends on the blocks only through row `r`; the 100 output blocks tile the 500000 rows.
-/
import proofs.«159076_j14929306321609_2_alg».proof.Proof.Gen.KernelIdeal.Frame
import proofs.«159076_j14929306321609_2_alg».proof.Proof.Spec
import proofs.«159076_j14929306321609_2_alg».proof.Proof.SpecCongr
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arr1

open Cert.KernelIdeal Cert.KernelIdeal.Gen

variable (V : (c : Dev nD) → (b : Ref sig .tc) → Buf (Elt Ideal) ((c : Thread nD τ).loc b))

/-- The array of per-edge projected contributions from four arrays: source rows, value weights, attention weights,
    output weights. -/
def edgeArr (xs : S500000x128.Idx → EReal) (Wv : S128x256.Idx → EReal) (a : S500000x4.Idx → EReal) (Wout : S256x64.Idx → EReal) :
    S500000x64.Idx → EReal := fun i =>
  Spec.edgeOut (fun e k => xs (ix2 e k)) (fun k j => Wv (ix2 k j)) (fun e h => a (ix2 e h)) (fun j o => Wout (ix2 j o)) (i 0) (i 1)

/-- The array of per-edge projected contributions, from the arrays the region finds. -/
def edgeOutOf (c : Dev nD) : S500000x64.Idx → EReal :=
  edgeArr (V c main_v11) (V c main_v24) (V c main_v35) (V c main_v25)

/-- The printed index maps over the grid: the row windows move with the point, the weight windows stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem N_eq : cfg1.N = 100 := N_1

/-- Source rows: block row `y 0` at point `t` is array row 5000·t + `y 0`. -/
theorem blk0_apply (c : Dev nD) (t : Fin cfg1.N) (y : S5000x128.Idx) (k : S500000x128.Idx)
    (hk0 : (k 0).val = 5000 * t.val + (y 0).val) (hk1 : (k 1).val = (y 1).val) :
    (iblk1 V c 0 t : S5000x128.Idx → EReal) y = (V c main_v11 : S500000x128.Idx → EReal) k := by
  obtain ⟨e0, e1, -⟩ := idx_facts t
  unfold iblk1
  rw [View.read_apply]
  show V c main_v11 _ = V c main_v11 _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 128 + 1 * (y 1).val = (k 1).val; rw [e1, hk1]; omega

/-- The value weights: the block is the matrix. -/
theorem blk1_apply (c : Dev nD) (t : Fin cfg1.N) (y : S128x256.Idx) :
    (iblk1 V c 1 t : S128x256.Idx → EReal) y = (V c main_v24 : S128x256.Idx → EReal) y := by
  obtain ⟨-, -, e0, e1, -⟩ := idx_facts t
  unfold iblk1
  rw [View.read_apply]
  show V c main_v24 _ = V c main_v24 _
  congr 1
  funext a
  apply Fin.ext
  match a with
  | ⟨0, _⟩ => show win1_1.index t (0 : Fin 2) * 128 + 1 * (y 0).val = (y 0).val; rw [e0]; omega
  | ⟨1, _⟩ => show win1_1.index t (1 : Fin 2) * 256 + 1 * (y 1).val = (y 1).val; rw [e1]; omega

/-- The attention weights: block row `y 0` at point `t` is array row 5000·t + `y 0`. -/
theorem blk2_apply (c : Dev nD) (t : Fin cfg1.N) (y : S5000x4.Idx) (k : S500000x4.Idx)
    (hk0 : (k 0).val = 5000 * t.val + (y 0).val) (hk1 : (k 1).val = (y 1).val) :
    (iblk1 V c 2 t : S5000x4.Idx → EReal) y = (V c main_v35 : S500000x4.Idx → EReal) k := by
  obtain ⟨-, -, -, -, e0, e1, -⟩ := idx_facts t
  unfold iblk1
  rw [View.read_apply]
  show V c main_v35 _ = V c main_v35 _
  congr 1
  funext a
  apply Fin.ext
  match a with
  | ⟨0, _⟩ => show win1_2.index t (0 : Fin 2) * 5000 + 1 * (y 0).val = (k 0).val; rw [e0, hk0]; omega
  | ⟨1, _⟩ => show win1_2.index t (1 : Fin 2) * 4 + 1 * (y 1).val = (k 1).val; rw [e1, hk1]; omega

/-- The output weights: the block is the matrix. -/
theorem blk3_apply (c : Dev nD) (t : Fin cfg1.N) (y : S256x64.Idx) :
    (iblk1 V c 3 t : S256x64.Idx → EReal) y = (V c main_v25 : S256x64.Idx → EReal) y := by
  obtain ⟨-, -, -, -, -, -, e0, e1, -⟩ := idx_facts t
  unfold iblk1
  rw [View.read_apply]
  show V c main_v25 _ = V c main_v25 _
  congr 1
  funext a
  apply Fin.ext
  match a with
  | ⟨0, _⟩ => show win1_3.index t (0 : Fin 2) * 256 + 1 * (y 0).val = (y 0).val; rw [e0]; omega
  | ⟨1, _⟩ => show win1_3.index t (1 : Fin 2) * 64 + 1 * (y 1).val = (y 1).val; rw [e1]; omega

/-- What the body leaves in the output's block, as the specification's projected contribution of the block's rows (the
    body's arithmetic, proved with the body; a hypothesis here). -/
abbrev BodyFact : Prop :=
  ∀ (c : Dev nD) (i : grid1.Coords) (arg1 : Memref sig .tc .vmem S5000x128 .bf16) (harg1 : arg1.IsWhole)
    (arg2 : Memref sig .tc .vmem S128x256 .bf16) (harg2 : arg2.IsWhole) (arg3 : Memref sig .tc .vmem S5000x4 .f32) (harg3 : arg3.IsWhole)
    (arg4 : Memref sig .tc .vmem S256x64 .bf16) (harg4 : arg4.IsWhole) (arg5 : Memref sig .tc .vmem S5000x64 .f32) (harg5 : arg5.IsWhole)
    (arg6 : Memref sig .tc .vmem S5000x256 .bf16) (harg6 : arg6.IsWhole)
    (x0 : Vec Ideal S5000x128 .bf16) (x1 : Vec Ideal S128x256 .bf16) (x2 : Vec Ideal S5000x4 .f32) (x3 : Vec Ideal S256x64 .bf16)
    (r : Fin 5000) (o : Fin 64),
    out1_A_4 (F := Ideal) c i arg1 harg1 arg2 harg2 arg3 harg3 arg4 harg4 arg5 harg5 arg6 harg6 x0 x1 x2 x3 (ix2 r o)
      = Spec.edgeOut (fun r i => x0 (ix2 r i)) (fun i j => x1 (ix2 i j)) (fun r h => x2 (ix2 r h)) (fun j o => x3 (ix2 j o)) r o

/-- WHAT POINT `t` WRITES BACK is block `t` of the array of projected contributions. -/
theorem flushed_eq (hbody : BodyFact) (c : Dev nD) (t : Fin cfg1.N) :
    (dat1 V c).flushed 4 t = ((cfg1.win 4).blk t).view.read (Elt Ideal) (edgeOutOf V c) := by
  show (cfg1.win 4).cut (grid1.coords t) ((dat1 V c).after 4 t) = _
  rw [after1_4]
  obtain ⟨-, -, -, -, -, -, -, -, e0, e1⟩ := idx_facts t
  have hN : cfg1.N = 100 := N_eq
  have htl : t.val < 100 := hN ▸ t.isLt
  funext j
  have hj0 : (j 0).val < 5000 := (j 0).isLt
  have hj1 : (j 1).val < 64 := (j 1).isLt
  show outsAt1 V c t j = edgeOutOf V c (((cfg1.win 4).blk t).view.emb j)
  have hj : j = ix2 (⟨(j 0).val, hj0⟩ : Fin 5000) (⟨(j 1).val, hj1⟩ : Fin 64) := by
    funext a; match a with | ⟨0, _⟩ => rfl | ⟨1, _⟩ => rfl
  refine (congrArg (outsAt1 V c t) hj).trans ?_
  unfold outsAt1
  refine (hbody _ _ _ _ _ _ _ _ _ _ _ _ _ _ _ _ _ _ _ _).trans ?_
  have he0 : ((((cfg1.win 4).blk t).view.emb j) 0).val = 5000 * t.val + (j 0).val := by
    show win1_4.index t (0 : Fin 2) * 5000 + 1 * (j 0).val = _; rw [e0]; omega
  have he1 : ((((cfg1.win 4).blk t).view.emb j) 1).val = (j 1).val := by
    show win1_4.index t (1 : Fin 2) * 64 + 1 * (j 1).val = _; rw [e1]; omega
  unfold edgeOutOf edgeArr
  have hh : (⟨(j 1).val, hj1⟩ : Fin 64) = (((cfg1.win 4).blk t).view.emb j) 1 := Fin.ext he1.symm
  rw [← hh]
  refine Spec.edgeOut_congr (fun i => ?_) (fun i k => ?_) (fun h => ?_) (fun k o => ?_) _
  · exact blk0_apply V c t _ _ (by show _ = 5000 * t.val + (j 0).val; exact he0) rfl
  · exact blk1_apply V c t _
  · exact blk2_apply V c t _ _ (by show _ = 5000 * t.val + (j 0).val; exact he0) rfl
  · exact blk3_apply V c t _

/-- An index of the array is in point `t`'s block iff each coordinate is in the block's range on its axis. -/
theorem mem_blk (t : Fin cfg1.N) (i : S500000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v36).slice (win1_4.rect t)).set ↔ _
  rw [View.set_slice_whole, Rect.mem_set_unit]
  exact Iff.rfl

/-- Every row is in the block of the point `row / 5000`. -/
theorem cover (i : S500000x64.Idx) : ∃ t : Fin cfg1.N, (cfg1.win 4).flush t = true ∧ i ∈ ((cfg1.win 4).blk t).view.set := by
  have hi0 : (i 0).val < 500000 := (i 0).isLt
  have hi1 : (i 1).val < 64 := (i 1).isLt
  have hN : cfg1.N = 100 := N_eq
  refine ⟨⟨(i 0).val / 5000, by rw [hN]; omega⟩, flush1_4 _, ?_⟩
  rw [mem_blk]
  obtain ⟨-, -, -, -, -, -, -, -, e0, e1⟩ := idx_facts ⟨(i 0).val / 5000, by rw [hN]; omega⟩
  intro a
  match a with
  | ⟨0, _⟩ =>
    show win1_4.index _ (0 : Fin 2) * 5000 ≤ (i 0).val ∧ (i 0).val < win1_4.index _ (0 : Fin 2) * 5000 + 5000
    rw [e0]; show (i 0).val / 5000 * 5000 ≤ (i 0).val ∧ (i 0).val < (i 0).val / 5000 * 5000 + 5000; omega
  | ⟨1, _⟩ =>
    show win1_4.index _ (1 : Fin 2) * 64 ≤ (i 1).val ∧ (i 1).val < win1_4.index _ (1 : Fin 2) * 64 + 64
    rw [e1]; omega

/-- THE ARRAY after the region: every edge's projected contribution. -/
theorem final (hbody : BodyFact) (c : Dev nD) : (dat1 V c).arrAt 4 cfg1.N = edgeOutOf V c :=
  (dat1 V c).arrAt_eq_of_cover 4 (edgeOutOf V c) (fun t _ => flushed_eq V hbody c t) cover

end Cert.KernelIdeal.Arr1

end
-- ==== Proof.KValue.lean ====
/-
  The idealized kernel's result as ONE function of the launch contents.  The last stretch of host operations adds up the
  value region's output per target node and adds the bias; the value region's output is, row by row, the projected
  contribution of the source rows, the value weights, the attention weights and the output weights it finds; the
  attention weights are the softmax of the logits region's output; and the logits region's output is, row by row, the
  logit of the target rows, source rows, query and key weights and edge bias the first stretch of host operations leaves.
  Each buffer is followed back through the segments that do not write it.
-/
import proofs.«159076_j14929306321609_2_alg».proof.Proof.KStages
import proofs.«159076_j14929306321609_2_alg».proof.Proof.K0Array
import proofs.«159076_j14929306321609_2_alg».proof.Proof.K1Array

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Cert.KernelIdeal.Stages

/-- The kernel's result as a function of its nine arguments. -/
def kOut (x : FVec Ideal S50000x128 .f32) (ei : IVec S2x500000 32) (ew : FVec Ideal S500000x1 .f32)
    (Wq Wk Wv : FVec Ideal S128x256 .f32) (We : FVec Ideal S1x4 .f32) (Wout : FVec Ideal S256x64 .f32)
    (b : FVec Ideal S64 .f32) : FVec Ideal S50000x64 .f32 :=
  tailK
    (Arr1.edgeArr (xsK x ei) (wbf Wv)
      (softmaxK (Arr0.logitArr (xtK x ei) (xsK x ei) (wbf Wq) (wbf Wk) (ebK ew We)))
      (woutbf Wout))
    (row1 ei) b

variable (m : (ℓ : Loc nD τ sig) → Buf (Elt Ideal) ℓ) (ρ : Dev nD → PrngReg)

/-! The logits region's entry contents are the first stretch's. -/
theorem V1_v18 (c : Dev nD) : V1 m ρ c main_v18 = xtK (m ((c : Thread nD τ).loc main_arg0)) (m ((c : Thread nD τ).loc main_arg1)) := W1_v18 m ρ c
theorem V1_v11 (c : Dev nD) : V1 m ρ c main_v11 = xsK (m ((c : Thread nD τ).loc main_arg0)) (m ((c : Thread nD τ).loc main_arg1)) := W1_v11 m ρ c
theorem V1_v22 (c : Dev nD) : V1 m ρ c main_v22 = wbf (m ((c : Thread nD τ).loc main_arg3)) := W1_v22 m ρ c
theorem V1_v23 (c : Dev nD) : V1 m ρ c main_v23 = wbf (m ((c : Thread nD τ).loc main_arg4)) := W1_v23 m ρ c
theorem V1_v21 (c : Dev nD) : V1 m ρ c main_v21 = ebK (m ((c : Thread nD τ).loc main_arg2)) (m ((c : Thread nD τ).loc main_arg6)) := W1_v21 m ρ c

/-- The logits region's output array, as the region leaves it. -/
theorem W2_v26 (hb0 : Arr0.BodyFact) (c : Dev nD) :
    W2 m ρ c (Proc.devRef .tc main_v26)
      = Arr0.logitArr (xtK (m ((c : Thread nD τ).loc main_arg0)) (m ((c : Thread nD τ).loc main_arg1)))
          (xsK (m ((c : Thread nD τ).loc main_arg0)) (m ((c : Thread nD τ).loc main_arg1)))
          (wbf (m ((c : Thread nD τ).loc main_arg3)))
          (wbf (m ((c : Thread nD τ).loc main_arg4)))
          (ebK (m ((c : Thread nD τ).loc main_arg2)) (m ((c : Thread nD τ).loc main_arg6))) := by
  refine (W2_arr m ρ c 5).trans ?_
  refine (Arr0.final (V1 m ρ) hb0 c).trans ?_
  unfold Arr0.logitsOf
  rw [V1_v18 m ρ c, V1_v11 m ρ c, V1_v22 m ρ c, V1_v23 m ρ c, V1_v21 m ρ c]

/-- The source rows, as the value region finds them: the first stretch's, through the logits region (which only reads
    them) and the softmax stretch (which does not touch them). -/
theorem W3_v11 (c : Dev nD) :
    W3 m ρ c (Proc.devRef .tc main_v11) = xsK (m ((c : Thread nD τ).loc main_arg0)) (m ((c : Thread nD τ).loc main_arg1)) :=
  calc W3 m ρ c (Proc.devRef .tc main_v11)
    _ = W2 m ρ c (Proc.devRef .tc main_v11) := StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = (dat0 (V1 m ρ) c).arrAt 1 cfg0.N := W2_arr m ρ c 1
    _ = (dat0 (V1 m ρ) c).A 1 := (dat0 (V1 m ρ) c).arrAt_in 1 rfl _
    _ = W1 m ρ c (Proc.devRef .tc main_v11) := A_eq0 (V1 m ρ) c 1
    _ = _ := W1_v11 m ρ c

theorem W3_v24 (c : Dev nD) :
    W3 m ρ c (Proc.devRef .tc main_v24) = wbf (m ((c : Thread nD τ).loc main_arg5)) :=
  calc W3 m ρ c (Proc.devRef .tc main_v24)
    _ = W2 m ρ c (Proc.devRef .tc main_v24) := StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = W1 m ρ c (Proc.devRef .tc main_v24) := W2_of_ne m ρ c main_v24 (by decide)
    _ = _ := W1_v24 m ρ c

theorem W3_v25 (c : Dev nD) :
    W3 m ρ c (Proc.devRef .tc main_v25) = woutbf (m ((c : Thread nD τ).loc main_arg7)) :=
  calc W3 m ρ c (Proc.devRef .tc main_v25)
    _ = W2 m ρ c (Proc.devRef .tc main_v25) := StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = W1 m ρ c (Proc.devRef .tc main_v25) := W2_of_ne m ρ c main_v25 (by decide)
    _ = _ := W1_v25 m ρ c

set_option maxHeartbeats 1600000 in
/-- The attention weights: the softmax stretch applied to the logits region's output. -/
theorem W3_v35 (c : Dev nD) : W3 m ρ c (Proc.devRef .tc main_v35) = softmaxK (W2 m ρ c (Proc.devRef .tc main_v26)) := by
  show StableHlo.after hostOps1 (W2 m ρ c) (Proc.devRef .tc main_v35) = _
  after_results_simp
  rfl

/-! The value region's entry contents. -/
theorem V3_v11 (c : Dev nD) : V3 m ρ c main_v11 = xsK (m ((c : Thread nD τ).loc main_arg0)) (m ((c : Thread nD τ).loc main_arg1)) := W3_v11 m ρ c
theorem V3_v24 (c : Dev nD) : V3 m ρ c main_v24 = wbf (m ((c : Thread nD τ).loc main_arg5)) := W3_v24 m ρ c
theorem V3_v25 (c : Dev nD) : V3 m ρ c main_v25 = woutbf (m ((c : Thread nD τ).loc main_arg7)) := W3_v25 m ρ c
theorem V3_v35 (hb0 : Arr0.BodyFact) (c : Dev nD) :
    V3 m ρ c main_v35 = softmaxK (Arr0.logitArr (xtK (m ((c : Thread nD τ).loc main_arg0)) (m ((c : Thread nD τ).loc main_arg1)))
          (xsK (m ((c : Thread nD τ).loc main_arg0)) (m ((c : Thread nD τ).loc main_arg1)))
          (wbf (m ((c : Thread nD τ).loc main_arg3))) (wbf (m ((c : Thread nD τ).loc main_arg4)))
          (ebK (m ((c : Thread nD τ).loc main_arg2)) (m ((c : Thread nD τ).loc main_arg6)))) :=
  (W3_v35 m ρ c).trans (congrArg softmaxK (W2_v26 m ρ hb0 c))

/-- The value region's output array, as the region leaves it. -/
theorem W4_v36 (hb0 : Arr0.BodyFact) (hb1 : Arr1.BodyFact) (c : Dev nD) :
    W4 m ρ c (Proc.devRef .tc main_v36)
      = Arr1.edgeArr (xsK (m ((c : Thread nD τ).loc main_arg0)) (m ((c : Thread nD τ).loc main_arg1)))
          (wbf (m ((c : Thread nD τ).loc main_arg5)))
          (softmaxK (Arr0.logitArr (xtK (m ((c : Thread nD τ).loc main_arg0)) (m ((c : Thread nD τ).loc main_arg1)))
            (xsK (m ((c : Thread nD τ).loc main_arg0)) (m ((c : Thread nD τ).loc main_arg1)))
            (wbf (m ((c : Thread nD τ).loc main_arg3)))
            (wbf (m ((c : Thread nD τ).loc main_arg4)))
            (ebK (m ((c : Thread nD τ).loc main_arg2)) (m ((c : Thread nD τ).loc main_arg6)))))
          (woutbf (m ((c : Thread nD τ).loc main_arg7))) := by
  refine (W4_arr m ρ c 4).trans ?_
  refine (Arr1.final (V3 m ρ) hb1 c).trans ?_
  unfold Arr1.edgeOutOf
  rw [V3_v11 m ρ c, V3_v24 m ρ c, V3_v25 m ρ c, V3_v35 m ρ hb0 c]

/-- The raw target row, as the tail finds it: no region and no stretch after the first writes it. -/
theorem W4_v3 (c : Dev nD) : W4 m ρ c (Proc.devRef .tc main_v3) = row1 (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = W1 m ρ c (Proc.devRef .tc main_v3) := W2_of_ne m ρ c main_v3 (by decide)
    _ = _ := W1_v3 m ρ c

/-- The bias, as the tail finds it: the launch contents. -/
theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem _ _ (List.forall_iff_forall_mem.mp (by
      simp only [hostOps0, List.Forall, StableHlo.nullary_writes, StableHlo.unary_writes, StableHlo.binary_writes, StableHlo.ternary_writes, StableHlo.reshape_writes, Finset.mem_singleton]
      repeat' apply And.intro
      all_goals exact StableHlo.devRef_ne_of_ne (by decide)))
    _ = m ((c : Thread nD τ).loc main_arg8) := rfl

set_option maxHeartbeats 1600000 in
/-- THE RESULT: what the last boundary holds at the result's buffer is `kOut` of the launch contents. -/
theorem W5_v42 (hb0 : Arr0.BodyFact) (hb1 : Arr1.BodyFact) (c : Dev nD) :
    W5 m ρ c (Proc.devRef .tc main_v42)
      = kOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  have hT : W5 m ρ c (Proc.devRef .tc main_v42)
      = tailK (W4 m ρ c (Proc.devRef .tc main_v36)) (W4 m ρ c (Proc.devRef .tc main_v3)) (W4 m ρ c (Proc.devRef .tc main_arg8)) := by
    show StableHlo.after hostOps2 (W4 m ρ c) (Proc.devRef .tc main_v42) = _
    after_results_simp
    rfl
  rw [hT, W4_v36 m ρ hb0 hb1 c, W4_v3 m ρ c, W4_arg8 m ρ c]
  rfl

end Cert.KernelIdeal.Val

end
-- ==== Proof.BodyLemmas.lean ====
/-
  Reading the two kernel bodies' non-pointwise operations at an index, on the extended reals: the lane sum of a row, the
  column made from a vector of rows, a column broadcast along the lanes, a slice of 64 columns, the two matrix products
  accumulated from zero, the leaky rectifier as a comparison and a selection, and from these one head's logit and one
  head's weighted values.  Every lemma is stated over variables of the literal vector shapes with explicit coordinates.
-/
import proofs.«159076_j14929306321609_2_alg».proof.Proof.Gen.KernelIdeal
import proofs.«159076_j14929306321609_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal

/-- The f32 word 0x3E000000 is one eighth. -/
theorem eighth : Ideal.ofBits .f32 0x3E000000#32 = ((1 / 8 : ℝ) : EReal) := by
  simp [Ideal.ofBits, Ideal.ieee, -EReal.coe_mul]; norm_num

/-- A lane sum over the 64 columns of a row. -/
theorem laneSum (v : FVec Ideal S5000x64 .f32) (r : Fin 5000) :
    multiReduction (F := Ideal) .add [1] S5000 v 0x00000000#32 Gen.reduces_S5000x64_S5000 (.inl rfl) rfl (ix1 r)
      = ∑ c : Fin 64, v (ix2 r c) := by
  refine (Ideal.multiReduction_add_single v 0x00000000#32 Gen.reduces_S5000x64_S5000 (.inl rfl) rfl (ix1 r)).trans ?_
  refine Finset.sum_congr rfl fun c _ => congrArg v ?_
  funext a
  match a with
  | ⟨0, _⟩ => rfl
  | ⟨1, _⟩ => rfl

/-- A column vector made from a vector of rows reads the row's entry, whatever the unit coordinate. -/
theorem colCast (v : FVec Ideal S5000 .f32) (r : Fin 5000) (u : Fin 1) :
    shapeCast S5000x1 v Gen.shapeCasts_S5000_S5000x1 (ix2 r u) = v (ix1 r) :=
  shapeCast_apply v Gen.shapeCasts_S5000_S5000x1 _ _ (by
    have hu : u.val = 0 := by omega
    rw [Shape.rowMajor_val_two, Shape.rowMajor_val_one]
    show r.val = r.val * 1 + u.val
    rw [hu, Nat.mul_one, Nat.add_zero])

/-- A column broadcast along 64 lanes reads the column's entry of the row. -/
theorem colBroadcast (v : FVec Ideal S5000x1 .f32) (r : Fin 5000) (c : Fin 64) :
    broadcastTo S5000x64 v Gen.broadcasts_S5000x1_S5000x64 (ix2 r c) = v (ix2 r (0 : Fin 1)) :=
  broadcastTo_apply v Gen.broadcasts_S5000x1_S5000x64 _ _ (fun a => by
    match a with
    | ⟨0, _⟩ => rfl
    | ⟨1, _⟩ => rfl)

theorem lhs_proj_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_proj_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_proj_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_proj_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- A 5000×128 block times a 128×256 matrix, accumulated from zero, at row `r` and column `j`. -/
theorem proj_apply (x : FVec Ideal S5000x128 .bf16) (w : FVec Ideal S128x256 .bf16) (r : Fin 5000) (j : Fin 256) :
    matmul (F := Ideal) dot_S5000x128_S128x256_S5000x256_1_0_0_1_n_n none x w (constant (F := Ideal) S5000x256 .f32 0x00000000#32) (ix2 r j)
      = ∑ i : Fin 128, x (ix2 r i) * w (ix2 i j) := by
  refine (Ideal.matmul_constant_zero_apply dot_S5000x128_S128x256_S5000x256_1_0_0_1_n_n none x w (ix2 r j)).trans ?_
  rw [← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 r j) ((contrEquiv1 dot_S5000x128_S128x256_S5000x256_1_0_0_1_n_n 128 rfl rfl).symm k) = ix2 r k :=
    funext fun a => Fin.ext (by
      match a with
      | ⟨0, _⟩ => exact lhs_proj_0 _ _
      | ⟨1, _⟩ => exact (lhs_proj_1 _ _).trans hk)
  have er : dot_S5000x128_S128x256_S5000x256_1_0_0_1_n_n.rhsIdx (ix2 r j) ((contrEquiv1 dot_S5000x128_S128x256_S5000x256_1_0_0_1_n_n 128 rfl rfl).symm k) = ix2 k j :=
    funext fun a => Fin.ext (by
      match a with
      | ⟨0, _⟩ => exact (rhs_proj_0 _ _).trans hk
      | ⟨1, _⟩ => exact rhs_proj_1 _ _)
  rw [el, er]

theorem lhs_outp_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
theorem lhs_outp_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
theorem rhs_outp_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
theorem rhs_outp_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- A 5000×256 block times a 256×64 matrix, accumulated from zero, at row `r` and column `o`. -/
theorem outp_apply (x : FVec Ideal S5000x256 .bf16) (w : FVec Ideal S256x64 .bf16) (r : Fin 5000) (j : Fin 64) :
    matmul (F := Ideal) dot_S5000x256_S256x64_S5000x64_1_0_0_1_n_n none x w (constant (F := Ideal) S5000x64 .f32 0x00000000#32) (ix2 r j)
      = ∑ i : Fin 256, x (ix2 r i) * w (ix2 i j) := by
  refine (Ideal.matmul_constant_zero_apply dot_S5000x256_S256x64_S5000x64_1_0_0_1_n_n none x w (ix2 r j)).trans ?_
  rw [← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 r j) ((contrEquiv1 dot_S5000x256_S256x64_S5000x64_1_0_0_1_n_n 256 rfl rfl).symm k) = ix2 r k :=
    funext fun a => Fin.ext (by
      match a with
      | ⟨0, _⟩ => exact lhs_outp_0 _ _
      | ⟨1, _⟩ => exact (lhs_outp_1 _ _).trans hk)
  have er : dot_S5000x256_S256x64_S5000x64_1_0_0_1_n_n.rhsIdx (ix2 r j) ((contrEquiv1 dot_S5000x256_S256x64_S5000x64_1_0_0_1_n_n 256 rfl rfl).symm k) = ix2 k j :=
    funext fun a => Fin.ext (by
      match a with
      | ⟨0, _⟩ => exact (rhs_outp_0 _ _).trans hk
      | ⟨1, _⟩ => exact rhs_outp_1 _ _)
  rw [el, er]

/-- Comparing with zero and selecting between `z` and slope · `z` is the leaky rectifier of the specification. -/
theorem leaky_apply (z zero : FVec Ideal S5000x1 .f32) (i : S5000x1.Idx) (hz : zero i = 0) :
    select (cmpf .oge z zero) z
      (mulf (broadcast S5000x1 (Scalar.ofBits (F := Ideal) .f32 0x3E4CCCCD#32)) z) i = Spec.leaky (z i) := by
  rw [select_apply, cmpf_apply, mulf_apply, broadcast_apply, hz]
  show Scalar.select (BitVec.ofBool (decide ((0 : EReal) ≤ z i))) (z i) (Ideal.ofBits .f32 0x3E4CCCCD#32 * z i) = _
  unfold Spec.leaky Spec.slope
  by_cases h : (0 : EReal) ≤ z i
  · rw [if_pos h, decide_eq_true h]; exact select_one _ _
  · rw [if_neg h, decide_eq_false h]; exact select_zero _ _

/-- The score of one head before the rectifier: the 64 columns from `o` of the two projected blocks multiplied and summed
    along the lanes, made a column, scaled by the word of one eighth, plus the bias column `ob`. -/
theorem preact_apply (o ob : Nat) (q k : FVec Ideal S5000x256 .f32) (b : FVec Ideal S5000x4 .f32)
    (hs : S5000x256.Slices ![0, o] S5000x64) (hb : S5000x4.Slices ![0, ob] S5000x1) (r : Fin 5000) (u : Fin 1) (h : Fin 4)
    (ho : o = h.val * 64) (hob : ob = h.val) :
    addf (mulf (shapeCast S5000x1 (multiReduction (F := Ideal) .add [1] S5000
        (mulf (extractStridedSlice S5000x64 ![0, o] q hs) (extractStridedSlice S5000x64 ![0, o] k hs))
        0x00000000#32 Gen.reduces_S5000x64_S5000 (.inl rfl) rfl) Gen.shapeCasts_S5000_S5000x1)
        (broadcast S5000x1 (Scalar.ofBits (F := Ideal) .f32 0x3E000000#32)))
      (extractStridedSlice S5000x1 ![0, ob] b hb) (ix2 r u)
    = (∑ c : Fin 64, q (ix2 r (Spec.col h c)) * k (ix2 r (Spec.col h c))) * ((1 / 8 : ℝ) : EReal) + b (ix2 r h) := by
  rw [addf_apply, mulf_apply, broadcast_apply, colCast, laneSum]
  refine congrArg₂ (· + ·) (congrArg₂ (· * ·) (Finset.sum_congr rfl fun c _ => ?_) eighth) ?_
  · rw [mulf_apply]
    refine congrArg₂ (· * ·) ?_ ?_
    · exact slice2_axis1_apply o q hs r c (Spec.col h c) (by show h.val * 64 + c.val = o + c.val; rw [ho])
    · exact slice2_axis1_apply o k hs r c (Spec.col h c) (by show h.val * 64 + c.val = o + c.val; rw [ho])
  · exact slice2_axis1_apply ob b hb r u h (by have : u.val = 0 := by omega
                                               rw [hob, this, Nat.add_zero])

/-- One head's weighted values as the value kernel stores them: the 64 columns from `o` of the projected block times the
    attention column `ob` broadcast along the lanes (the rounding to bf16 and the cast to the same shape are the identity
    on the extended reals). -/
theorem weighted_apply (o ob : Nat) (v : FVec Ideal S5000x256 .f32) (a : FVec Ideal S5000x4 .f32)
    (hs : S5000x256.Slices ![0, o] S5000x64) (hb : S5000x4.Slices ![0, ob] S5000x1) (r : Fin 5000) (c : Fin 64) (h : Fin 4)
    (ho : o = h.val * 64) (hob : ob = h.val) :
    shapeCast S5000x64 (truncf (F := Ideal) .bf16 (mulf (extractStridedSlice S5000x64 ![0, o] v hs)
        (broadcastTo S5000x64 (extractStridedSlice S5000x1 ![0, ob] a hb) Gen.broadcasts_S5000x1_S5000x64)) Gen.bitsLt_bf16_f32)
      Gen.shapeCasts_S5000x64_S5000x64 (ix2 r c)
    = v (ix2 r (Spec.col h c)) * a (ix2 r h) := by
  rw [shapeCast_self, truncf_apply, mulf_apply, colBroadcast]
  refine congrArg₂ (· * ·) ?_ ?_
  · exact slice2_axis1_apply o v hs r c (Spec.col h c) (by show h.val * 64 + c.val = o + c.val; rw [ho])
  · exact slice2_axis1_apply ob a hb r (0 : Fin 1) h (by rw [hob]; rfl)

/-- The zero offsets of a whole-buffer rectangle. -/
theorem hz2 : (![0, 0] : Fin 2 → Nat) = fun _ => 0 := funext fun a => by
  match a with
  | ⟨0, _⟩ => rfl
  | ⟨1, _⟩ => rfl

/-- One head's logit column as the kernel computes it, from the two projected blocks `q`, `k` and the bias block `b`. -/
theorem headLogit (o ob : Nat) (q k : FVec Ideal S5000x256 .f32) (b : FVec Ideal S5000x4 .f32)
    (hs : S5000x256.Slices ![0, o] S5000x64) (hb : S5000x4.Slices ![0, ob] S5000x1) (r : Fin 5000) (u : Fin 1) (h : Fin 4)
    (ho : o = h.val * 64) (hob : ob = h.val) :
    select (cmpf .oge
        (addf (mulf (shapeCast S5000x1 (multiReduction (F := Ideal) .add [1] S5000
            (mulf (extractStridedSlice S5000x64 ![0, o] q hs) (extractStridedSlice S5000x64 ![0, o] k hs))
            0x00000000#32 Gen.reduces_S5000x64_S5000 (.inl rfl) rfl) Gen.shapeCasts_S5000_S5000x1)
            (broadcast S5000x1 (Scalar.ofBits (F := Ideal) .f32 0x3E000000#32)))
          (extractStridedSlice S5000x1 ![0, ob] b hb))
        (broadcast S5000x1 (Scalar.ofBits (F := Ideal) .f32 0x00000000#32)))
      (addf (mulf (shapeCast S5000x1 (multiReduction (F := Ideal) .add [1] S5000
            (mulf (extractStridedSlice S5000x64 ![0, o] q hs) (extractStridedSlice S5000x64 ![0, o] k hs))
            0x00000000#32 Gen.reduces_S5000x64_S5000 (.inl rfl) rfl) Gen.shapeCasts_S5000_S5000x1)
            (broadcast S5000x1 (Scalar.ofBits (F := Ideal) .f32 0x3E000000#32)))
          (extractStridedSlice S5000x1 ![0, ob] b hb))
      (mulf (broadcast S5000x1 (Scalar.ofBits (F := Ideal) .f32 0x3E4CCCCD#32))
        (addf (mulf (shapeCast S5000x1 (multiReduction (F := Ideal) .add [1] S5000
            (mulf (extractStridedSlice S5000x64 ![0, o] q hs) (extractStridedSlice S5000x64 ![0, o] k hs))
            0x00000000#32 Gen.reduces_S5000x64_S5000 (.inl rfl) rfl) Gen.shapeCasts_S5000_S5000x1)
            (broadcast S5000x1 (Scalar.ofBits (F := Ideal) .f32 0x3E000000#32)))
          (extractStridedSlice S5000x1 ![0, ob] b hb)))
      (ix2 r u)
    = Spec.leaky ((∑ c : Fin 64, q (ix2 r (Spec.col h c)) * k (ix2 r (Spec.col h c))) * ((1 / 8 : ℝ) : EReal) + b (ix2 r h)) :=
  (leaky_apply _ _ (ix2 r u) Ideal.ofBits_zero_f32).trans (congrArg Spec.leaky (preact_apply o ob q k b hs hb r u h ho hob))

end Cert.KernelIdeal.Body

end
-- ==== Proof.LogitsBody.lean ====
/-
  The logits kernel's body read at an index: its output block, four column stores (one per head) over the loaded blocks,
  is at row `r` and head `h` the specification's logit — the 64-channel inner product of the head's query and key
  projections of the row, times one eighth, plus the head's bias, through the leaky rectifier.
-/
import proofs.«159076_j14929306321609_2_alg».proof.Proof.Gen.KernelIdeal.Frame
import proofs.«159076_j14929306321609_2_alg».proof.Proof.Spec
import proofs.«159076_j14929306321609_2_alg».proof.Proof.BodyLemmas
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal

/-- The logits block as one function of its index: the specification's logit of the row and the head. -/
def logitsG (x0 x1 : Vec Ideal S5000x128 .bf16) (x2 : Vec Ideal S5000x4 .f32) (x3 x4 : Vec Ideal S128x256 .bf16) : S5000x4.Idx → Elt Ideal .f32 :=
  fun y => Spec.logit (fun r i => x0 (ix2 r i)) (fun r i => x1 (ix2 r i)) (fun i j => x3 (ix2 i j)) (fun i j => x4 (ix2 i j))
          (fun r h => x2 (ix2 r h)) (y 0) (y 1)

/-- The query projection of the loaded blocks at a row and a column. -/
theorem pay4_apply (x : Vec Ideal S5000x128 .bf16) (w : Vec Ideal S128x256 .bf16) (r : Fin 5000) (j : Fin 256) :
    Gen.k0_pay4 (F := Ideal) (View.ld x Gen.r0_0) (View.ld w Gen.r0_1) (ix2 r j)
      = Spec.proj (fun r i => x (ix2 r i)) (fun i j => w (ix2 i j)) r j := by
  rw [View.ld_unit_zero (S := S5000x128) hz2, View.ld_unit_zero (S := S128x256) hz2]
  unfold Gen.k0_pay4
  try dsimp only
  rw [shapeCast_self, shapeCast_self]
  exact proj_apply x w r j

/-- The key projection of the loaded blocks at a row and a column. -/
theorem pay5_apply (x : Vec Ideal S5000x128 .bf16) (w : Vec Ideal S128x256 .bf16) (r : Fin 5000) (j : Fin 256) :
    Gen.k0_pay5 (F := Ideal) (View.ld x Gen.r0_0) (View.ld w Gen.r0_1) (ix2 r j)
      = Spec.proj (fun r i => x (ix2 r i)) (fun i j => w (ix2 i j)) r j := by
  rw [View.ld_unit_zero (S := S5000x128) hz2, View.ld_unit_zero (S := S128x256) hz2]
  unfold Gen.k0_pay5
  try dsimp only
  rw [shapeCast_self, shapeCast_self]
  exact proj_apply x w r j

/-- The loaded bias block is the bias block. -/
theorem pay6_apply (b : Vec Ideal S5000x4 .f32) (r : Fin 5000) (h : Fin 4) :
    Gen.k0_pay6 (F := Ideal) (View.ld b Gen.r0_2) (ix2 r h) = b (ix2 r h) := by
  rw [View.ld_unit_zero (S := S5000x4) hz2]
  unfold Gen.k0_pay6
  try dsimp only
  rw [shapeCast_self]

/-- From the head's column of the kernel's arithmetic to the specification's logit. -/
theorem logit_of_blocks (x0 x1 : Vec Ideal S5000x128 .bf16) (x2 : Vec Ideal S5000x4 .f32) (x3 x4 : Vec Ideal S128x256 .bf16)
    (p : Fin 5000) (h : Fin 4) :
    Spec.leaky ((∑ c : Fin 64, Gen.k0_pay4 (F := Ideal) (View.ld x0 Gen.r0_0) (View.ld x3 Gen.r0_1) (ix2 p (Spec.col h c))
          * Gen.k0_pay5 (F := Ideal) (View.ld x1 Gen.r0_0) (View.ld x4 Gen.r0_1) (ix2 p (Spec.col h c))) * ((1 / 8 : ℝ) : EReal)
        + Gen.k0_pay6 (F := Ideal) (View.ld x2 Gen.r0_2) (ix2 p h))
      = logitsG x0 x1 x2 x3 x4 (ix2 p h) := by
  unfold logitsG Spec.logit Spec.score
  exact congrArg Spec.leaky (congrArg₂ (· + ·) (congrArg (· * ((1 / 8 : ℝ) : EReal)) (Finset.sum_congr rfl fun c _ =>
    congrArg₂ (· * ·) (pay4_apply x0 x3 p (Spec.col h c)) (pay5_apply x1 x4 p (Spec.col h c)))) (pay6_apply x2 p h))

/-- A column rectangle of the 5000×4 block embeds `(p, u)` at `(p, h)`. -/
theorem emb_col (h : Fin 4) (inb : ∀ a, (![0, h.val] : Fin 2 → Nat) a + S5000x1.size a ≤ S5000x4.size a) (p : Fin 5000) (u : Fin 1) :
    (Rect.unit (s := S5000x4) ![0, h.val] S5000x1.size inb).emb (ix2 p u) = ix2 p h := funext fun a => Fin.ext (by
  have hu : u.val = 0 := by omega
  match a with
  | ⟨0, _⟩ => show 0 + 1 * p.val = p.val; omega
  | ⟨1, _⟩ => show h.val + 1 * u.val = h.val; omega)

/-- The store into column 3 holds head 3's logits. -/
theorem piece3 (x0 x1 : Vec Ideal S5000x128 .bf16) (x2 : Vec Ideal S5000x4 .f32) (x3 x4 : Vec Ideal S128x256 .bf16)
    (x : Gen.r0_6.shape.Idx) :
    Gen.k0_pay3 (F := Ideal) (Gen.k0_pay4 (View.ld x0 Gen.r0_0) (View.ld x3 Gen.r0_1)) (Gen.k0_pay5 (View.ld x1 Gen.r0_0) (View.ld x4 Gen.r0_1)) (Gen.k0_pay6 (View.ld x2 Gen.r0_2)) x
      = logitsG x0 x1 x2 x3 x4 (Gen.r0_6.emb x) := by
  obtain ⟨p, u, rfl⟩ : ∃ (p : Fin 5000) (u : Fin 1), x = ix2 p u := ⟨x 0, x 1, eq_ix2 x⟩
  rw [show Gen.r0_6.emb (ix2 p u) = ix2 p (3 : Fin 4) from emb_col 3 _ p u]
  unfold Gen.k0_pay3
  try dsimp only
  exact (headLogit 192 3 _ _ _ Gen.slices_S5000x256_o0_192_S5000x64 Gen.slices_S5000x4_o0_3_S5000x1 p u 3 rfl rfl).trans
    (logit_of_blocks x0 x1 x2 x3 x4 p 3)

/-- The store into column 2 holds head 2's logits. -/
theorem piece2 (x0 x1 : Vec Ideal S5000x128 .bf16) (x2 : Vec Ideal S5000x4 .f32) (x3 x4 : Vec Ideal S128x256 .bf16)
    (x : Gen.r0_5.shape.Idx) :
    Gen.k0_pay2 (F := Ideal) (Gen.k0_pay4 (View.ld x0 Gen.r0_0) (View.ld x3 Gen.r0_1)) (Gen.k0_pay5 (View.ld x1 Gen.r0_0) (View.ld x4 Gen.r0_1)) (Gen.k0_pay6 (View.ld x2 Gen.r0_2)) x
      = logitsG x0 x1 x2 x3 x4 (Gen.r0_5.emb x) := by
  obtain ⟨p, u, rfl⟩ : ∃ (p : Fin 5000) (u : Fin 1), x = ix2 p u := ⟨x 0, x 1, eq_ix2 x⟩
  rw [show Gen.r0_5.emb (ix2 p u) = ix2 p (2 : Fin 4) from emb_col 2 _ p u]
  unfold Gen.k0_pay2
  try dsimp only
  exact (headLogit 128 2 _ _ _ Gen.slices_S5000x256_o0_128_S5000x64 Gen.slices_S5000x4_o0_2_S5000x1 p u 2 rfl rfl).trans
    (logit_of_blocks x0 x1 x2 x3 x4 p 2)

/-- The store into column 1 holds head 1's logits (its score is computed before the rectifier is applied to it). -/
theorem piece1 (x0 x1 : Vec Ideal S5000x128 .bf16) (x2 : Vec Ideal S5000x4 .f32) (x3 x4 : Vec Ideal S128x256 .bf16)
    (x : Gen.r0_4.shape.Idx) :
    Gen.k0_pay1 (F := Ideal) (Gen.k0_pay8 (View.ld x0 Gen.r0_0) (View.ld x1 Gen.r0_0) (View.ld x3 Gen.r0_1) (View.ld x4 Gen.r0_1) (View.ld x2 Gen.r0_2)) (Gen.k0_pay9 (F := Ideal)) x
      = logitsG x0 x1 x2 x3 x4 (Gen.r0_4.emb x) := by
  obtain ⟨p, u, rfl⟩ : ∃ (p : Fin 5000) (u : Fin 1), x = ix2 p u := ⟨x 0, x 1, eq_ix2 x⟩
  rw [show Gen.r0_4.emb (ix2 p u) = ix2 p (1 : Fin 4) from emb_col 1 _ p u]
  unfold Gen.k0_pay1
  try dsimp only
  refine (leaky_apply _ _ (ix2 p u) Ideal.ofBits_zero_f32).trans ?_
  refine Eq.trans (congrArg Spec.leaky ?_) (logit_of_blocks x0 x1 x2 x3 x4 p 1)
  unfold Gen.k0_pay8
  try dsimp only
  exact preact_apply 64 1 _ _ _ Gen.slices_S5000x256_o0_64_S5000x64 Gen.slices_S5000x4_o0_1_S5000x1 p u 1 rfl rfl

/-- The store into column 0 holds head 0's logits. -/
theorem piece0 (x0 x1 : Vec Ideal S5000x128 .bf16) (x2 : Vec Ideal S5000x4 .f32) (x3 x4 : Vec Ideal S128x256 .bf16)
    (x : Gen.r0_3.shape.Idx) :
    Gen.k0_pay7 (F := Ideal) (View.ld x0 Gen.r0_0) (View.ld x1 Gen.r0_0) (View.ld x3 Gen.r0_1) (View.ld x4 Gen.r0_1) (View.ld x2 Gen.r0_2) x
      = logitsG x0 x1 x2 x3 x4 (Gen.r0_3.emb x) := by
  obtain ⟨p, u, rfl⟩ : ∃ (p : Fin 5000) (u : Fin 1), x = ix2 p u := ⟨x 0, x 1, eq_ix2 x⟩
  rw [show Gen.r0_3.emb (ix2 p u) = ix2 p (0 : Fin 4) from emb_col 0 _ p u]
  unfold Gen.k0_pay7
  try dsimp only
  exact (headLogit 0 0 _ _ _ Gen.slices_S5000x256_o0_0_S5000x64 Gen.slices_S5000x4_o0_0_S5000x1 p u 0 rfl rfl).trans
    (logit_of_blocks x0 x1 x2 x3 x4 p 0)

/-- The logits kernel's output block at row `r` and head `h` is the specification's logit of the blocks it loaded. -/
theorem out0_5_apply (x0 x1 : Vec Ideal S5000x128 .bf16) (x2 : Vec Ideal S5000x4 .f32) (x3 x4 : Vec Ideal S128x256 .bf16)
    (r : Fin 5000) (h : Fin 4) :
    Gen.out0_5 (F := Ideal) x0 x1 x2 x3 x4 (ix2 r h)
      = Spec.logit (fun r i => x0 (ix2 r i)) (fun r i => x1 (ix2 r i)) (fun i j => x3 (ix2 i j)) (fun i j => x4 (ix2 i j))
          (fun r h => x2 (ix2 r h)) r h := by
  unfold Gen.out0_5
  exact View.canon_apply_of_pieces (logitsG x0 x1 x2 x3 x4) _ (fun p hp => by
      simp only [List.mem_cons, List.not_mem_nil, or_false] at hp
      rcases hp with rfl | rfl | rfl | rfl
      · exact piece3 x0 x1 x2 x3 x4
      · exact piece2 x0 x1 x2 x3 x4
      · exact piece1 x0 x1 x2 x3 x4
      · exact piece0 x0 x1 x2 x3 x4) (ix2 r h) (Gen.cover0_5 _ _ _ _ (ix2 r h))

end Cert.KernelIdeal.Body

end
-- ==== Proof.ValueBody.lean ====
/-
  The value kernel's body read at an index: it stores, per head, the 64 columns of the row's value projection times the
  head's attention weight into a 5000×256 scratch buffer, loads the buffer whole, and stores its product with the output
  matrix.  At row `r` and output column `o` that is the specification's projected contribution of the edge,
  Σ_j (v[r,j] · a[r, head j]) · Wout[j,o].
-/
import proofs.«159076_j14929306321609_2_alg».proof.Proof.Gen.KernelIdeal.Frame
import proofs.«159076_j14929306321609_2_alg».proof.Proof.Spec
import proofs.«159076_j14929306321609_2_alg».proof.Proof.BodyLemmas
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Body

open Idealize.ShloMosaic Idealize.ShloMosaic.ValueIdx Cert.KernelIdeal

/-- The weighted values as one function of the scratch buffer's index: the value projection of the row at the column, times
    the row's attention weight for the column's head. -/
def weightedG (x0 : Vec Ideal S5000x128 .bf16) (x1 : Vec Ideal S128x256 .bf16) (x2 : Vec Ideal S5000x4 .f32) : S5000x256.Idx → Elt Ideal .bf16 :=
  fun y => Spec.proj (fun r i => x0 (ix2 r i)) (fun i j => x1 (ix2 i j)) (y 0) (y 1) * x2 (ix2 (y 0) (Spec.headOf (y 1)))

/-- The value projection of the loaded blocks at a row and a column. -/
theorem pay2_apply (x : Vec Ideal S5000x128 .bf16) (w : Vec Ideal S128x256 .bf16) (r : Fin 5000) (j : Fin 256) :
    Gen.k1_pay2 (F := Ideal) x w (ix2 r j) = Spec.proj (fun r i => x (ix2 r i)) (fun i j => w (ix2 i j)) r j := by
  unfold Gen.k1_pay2
  try dsimp only
  rw [shapeCast_self, shapeCast_self]
  exact proj_apply x w r j

/-- The loaded attention block is the attention block. -/
theorem pay3_apply (a : Vec Ideal S5000x4 .f32) (r : Fin 5000) (h : Fin 4) :
    Gen.k1_pay3 (F := Ideal) a (ix2 r h) = a (ix2 r h) := by
  unfold Gen.k1_pay3
  try dsimp only
  rw [shapeCast_self]

/-- The head of a head's own column. -/
theorem headOf_col (h : Fin 4) (c : Fin 64) : Spec.headOf (Spec.col h c) = h :=
  Fin.ext (by show (h.val * 64 + c.val) / 64 = h.val; omega)

/-- A head's 64-column rectangle of the 5000×256 scratch buffer embeds `(p, c)` at `(p, 64·h + c)`. -/
theorem emb_head (h : Fin 4) (o : Nat) (ho : o = h.val * 64)
    (inb : ∀ a, (![0, o] : Fin 2 → Nat) a + S5000x64.size a ≤ S5000x256.size a) (p : Fin 5000) (c : Fin 64) :
    (Rect.unit (s := S5000x256) ![0, o] S5000x64.size inb).emb (ix2 p c) = ix2 p (Spec.col h c) := funext fun a => Fin.ext (by
  match a with
  | ⟨0, _⟩ => show 0 + 1 * p.val = p.val; omega
  | ⟨1, _⟩ => show o + 1 * c.val = h.val * 64 + c.val; omega)

/-- From a head's column of the kernel's arithmetic to the function of the scratch buffer's index. -/
theorem weighted_of_blocks (x0 : Vec Ideal S5000x128 .bf16) (x1 : Vec Ideal S128x256 .bf16) (x2 : Vec Ideal S5000x4 .f32)
    (p : Fin 5000) (c : Fin 64) (h : Fin 4) :
    Gen.k1_pay2 (F := Ideal) x0 x1 (ix2 p (Spec.col h c)) * Gen.k1_pay3 (F := Ideal) x2 (ix2 p h)
      = weightedG x0 x1 x2 (ix2 p (Spec.col h c)) := by
  unfold weightedG
  show _ = Spec.proj (fun r i => x0 (ix2 r i)) (fun i j => x1 (ix2 i j)) p (Spec.col h c) * x2 (ix2 p (Spec.headOf (Spec.col h c)))
  rw [headOf_col, pay2_apply, pay3_apply]

/-- The store into columns 0–63 holds head 0's weighted values. -/
theorem vpiece0 (x0 : Vec Ideal S5000x128 .bf16) (x1 : Vec Ideal S128x256 .bf16) (x2 : Vec Ideal S5000x4 .f32)
    (x : (Rect.unit (s := S5000x256) ![0, 0] S5000x64.size Gen.inb_S5000x256_S5000x64_0_0).shape.Idx) :
    Gen.k1_pay4 (F := Ideal) x0 x1 x2 x
      = weightedG x0 x1 x2 ((Rect.unit (s := S5000x256) ![0, 0] S5000x64.size Gen.inb_S5000x256_S5000x64_0_0).emb x) := by
  obtain ⟨p, c, rfl⟩ : ∃ (p : Fin 5000) (c : Fin 64), x = ix2 p c := ⟨x 0, x 1, eq_ix2 x⟩
  rw [emb_head 0 0 rfl _ p c]
  unfold Gen.k1_pay4
  try dsimp only
  exact (weighted_apply 0 0 _ _ Gen.slices_S5000x256_o0_0_S5000x64 Gen.slices_S5000x4_o0_0_S5000x1 p c 0 rfl rfl).trans
    (weighted_of_blocks x0 x1 x2 p c 0)

/-- The store into columns 64–127 holds head 1's weighted values. -/
theorem vpiece1 (x0 : Vec Ideal S5000x128 .bf16) (x1 : Vec Ideal S128x256 .bf16) (x2 : Vec Ideal S5000x4 .f32)
    (x : (Rect.unit (s := S5000x256) ![0, 64] S5000x64.size Gen.inb_S5000x256_S5000x64_0_64).shape.Idx) :
    Gen.k1_pay5 (F := Ideal) x0 x1 x2 x
      = weightedG x0 x1 x2 ((Rect.unit (s := S5000x256) ![0, 64] S5000x64.size Gen.inb_S5000x256_S5000x64_0_64).emb x) := by
  obtain ⟨p, c, rfl⟩ : ∃ (p : Fin 5000) (c : Fin 64), x = ix2 p c := ⟨x 0, x 1, eq_ix2 x⟩
  rw [emb_head 1 64 rfl _ p c]
  unfold Gen.k1_pay5
  try dsimp only
  exact (weighted_apply 64 1 _ _ Gen.slices_S5000x256_o0_64_S5000x64 Gen.slices_S5000x4_o0_1_S5000x1 p c 1 rfl rfl).trans
    (weighted_of_blocks x0 x1 x2 p c 1)

/-- The store into columns 128–191 holds head 2's weighted values. -/
theorem vpiece2 (x0 : Vec Ideal S5000x128 .bf16) (x1 : Vec Ideal S128x256 .bf16) (x2 : Vec Ideal S5000x4 .f32)
    (x : (Rect.unit (s := S5000x256) ![0, 128] S5000x64.size Gen.inb_S5000x256_S5000x64_0_128).shape.Idx) :
    Gen.k1_pay6 (F := Ideal) x0 x1 x2 x
      = weightedG x0 x1 x2 ((Rect.unit (s := S5000x256) ![0, 128] S5000x64.size Gen.inb_S5000x256_S5000x64_0_128).emb x) := by
  obtain ⟨p, c, rfl⟩ : ∃ (p : Fin 5000) (c : Fin 64), x = ix2 p c := ⟨x 0, x 1, eq_ix2 x⟩
  rw [emb_head 2 128 rfl _ p c]
  unfold Gen.k1_pay6
  try dsimp only
  exact (weighted_apply 128 2 _ _ Gen.slices_S5000x256_o0_128_S5000x64 Gen.slices_S5000x4_o0_2_S5000x1 p c 2 rfl rfl).trans
    (weighted_of_blocks x0 x1 x2 p c 2)

/-- The store into columns 192–255 holds head 3's weighted values. -/
theorem vpiece3 (x0 : Vec Ideal S5000x128 .bf16) (x1 : Vec Ideal S128x256 .bf16) (x2 : Vec Ideal S5000x4 .f32)
    (x : (Rect.unit (s := S5000x256) ![0, 192] S5000x64.size Gen.inb_S5000x256_S5000x64_0_192).shape.Idx) :
    Gen.k1_pay7 (F := Ideal) x0 x1 x2 x
      = weightedG x0 x1 x2 ((Rect.unit (s := S5000x256) ![0, 192] S5000x64.size Gen.inb_S5000x256_S5000x64_0_192).emb x) := by
  obtain ⟨p, c, rfl⟩ : ∃ (p : Fin 5000) (c : Fin 64), x = ix2 p c := ⟨x 0, x 1, eq_ix2 x⟩
  rw [emb_head 3 192 rfl _ p c]
  unfold Gen.k1_pay7
  try dsimp only
  exact (weighted_apply 192 3 _ _ Gen.slices_S5000x256_o0_192_S5000x64 Gen.slices_S5000x4_o0_3_S5000x1 p c 3 rfl rfl).trans
    (weighted_of_blocks x0 x1 x2 p c 3)

/-- The four 64-column stores tile the 5000×256 scratch buffer, so they cover it. -/
theorem scratchCover (p3 p2 p1 p0 : Vec Ideal S5000x64 .bf16) (y : S5000x256.Idx) :
    ∃ pc ∈ ([⟨Rect.unit (s := S5000x256) ![0, 192] S5000x64.size Gen.inb_S5000x256_S5000x64_0_192, p3⟩,
        ⟨Rect.unit (s := S5000x256) ![0, 128] S5000x64.size Gen.inb_S5000x256_S5000x64_0_128, p2⟩,
        ⟨Rect.unit (s := S5000x256) ![0, 64] S5000x64.size Gen.inb_S5000x256_S5000x64_0_64, p1⟩,
        ⟨Rect.unit (s := S5000x256) ![0, 0] S5000x64.size Gen.inb_S5000x256_S5000x64_0_0, p0⟩] : List (View.Piece (Elt Ideal) S5000x256 .bf16)),
      y ∈ pc.1.set :=
  View.cover_of_tiled [⟨Rect.unit (s := S5000x256) ![0, 192] S5000x64.size Gen.inb_S5000x256_S5000x64_0_192, p3⟩,
        ⟨Rect.unit (s := S5000x256) ![0, 128] S5000x64.size Gen.inb_S5000x256_S5000x64_0_128, p2⟩,
        ⟨Rect.unit (s := S5000x256) ![0, 64] S5000x64.size Gen.inb_S5000x256_S5000x64_0_64, p1⟩,
        ⟨Rect.unit (s := S5000x256) ![0, 0] S5000x64.size Gen.inb_S5000x256_S5000x64_0_0, p0⟩] S5000x64.size (by rfl) y

/-- The scratch buffer after the four stores, loaded whole, is at `(r, j)` the row's value projection at column `j` times
    the row's attention weight for the head of `j`: the four stores tile the buffer and each is a block of that function. -/
theorem scratch_apply (x0 : Vec Ideal S5000x128 .bf16) (x1 : Vec Ideal S128x256 .bf16) (x2 : Vec Ideal S5000x4 .f32)
    (r : Fin 5000) (j : Fin 256) :
    View.canon (Val := Elt Ideal) (e := .bf16)
        [⟨Rect.unit (s := S5000x256) ![0, 192] S5000x64.size Gen.inb_S5000x256_S5000x64_0_192, Gen.k1_pay7 (F := Ideal) x0 x1 x2⟩,
          ⟨Rect.unit (s := S5000x256) ![0, 128] S5000x64.size Gen.inb_S5000x256_S5000x64_0_128, Gen.k1_pay6 (F := Ideal) x0 x1 x2⟩,
          ⟨Rect.unit (s := S5000x256) ![0, 64] S5000x64.size Gen.inb_S5000x256_S5000x64_0_64, Gen.k1_pay5 (F := Ideal) x0 x1 x2⟩,
          ⟨Rect.unit (s := S5000x256) ![0, 0] S5000x64.size Gen.inb_S5000x256_S5000x64_0_0, Gen.k1_pay4 (F := Ideal) x0 x1 x2⟩]
        ((Rect.unit (s := S5000x256) ![0, 0] S5000x256.size Gen.inb_S5000x256_S5000x256_0_0).toLoadRect.idx (ix2 r j))
      = Spec.proj (fun r i => x0 (ix2 r i)) (fun i j => x1 (ix2 i j)) r j * x2 (ix2 r (Spec.headOf j)) := by
  have hidx : (Rect.unit (s := S5000x256) ![0, 0] S5000x256.size Gen.inb_S5000x256_S5000x256_0_0).toLoadRect.idx (ix2 r j) = ix2 r j :=
    funext fun a => Fin.ext (by
      match a with
      | ⟨0, _⟩ => show 0 + 1 * r.val = r.val; omega
      | ⟨1, _⟩ => show 0 + 1 * j.val = j.val; omega)
  rw [hidx]
  exact View.canon_apply_of_pieces (weightedG x0 x1 x2) _ (fun p hp => by
      simp only [List.mem_cons, List.not_mem_nil, or_false] at hp
      rcases hp with rfl | rfl | rfl | rfl
      · exact vpiece3 x0 x1 x2
      · exact vpiece2 x0 x1 x2
      · exact vpiece1 x0 x1 x2
      · exact vpiece0 x0 x1 x2) (ix2 r j) (scratchCover _ _ _ _ (ix2 r j))

open Idealize.ShloMosaic.Tactic in
/-- The value kernel's output block at row `r` and output column `o` is the specification's projected contribution of the
    edge: the weighted values of the row times the output matrix. -/
theorem out1_A_4_apply (c : Dev nD) (i : grid1.Coords) (arg1 : Memref sig .tc .vmem S5000x128 .bf16) (harg1 : arg1.IsWhole)
    (arg2 : Memref sig .tc .vmem S128x256 .bf16) (harg2 : arg2.IsWhole) (arg3 : Memref sig .tc .vmem S5000x4 .f32) (harg3 : arg3.IsWhole)
    (arg4 : Memref sig .tc .vmem S256x64 .bf16) (harg4 : arg4.IsWhole) (arg5 : Memref sig .tc .vmem S5000x64 .f32) (harg5 : arg5.IsWhole)
    (arg6 : Memref sig .tc .vmem S5000x256 .bf16) (harg6 : arg6.IsWhole)
    (x0 : Vec Ideal S5000x128 .bf16) (x1 : Vec Ideal S128x256 .bf16) (x2 : Vec Ideal S5000x4 .f32) (x3 : Vec Ideal S256x64 .bf16)
    (r : Fin 5000) (o : Fin 64) :
    Gen.out1_A_4 (F := Ideal) c i arg1 harg1 arg2 harg2 arg3 harg3 arg4 harg4 arg5 harg5 arg6 harg6 x0 x1 x2 x3 (ix2 r o)
      = Spec.edgeOut (fun r i => x0 (ix2 r i)) (fun i j => x1 (ix2 i j)) (fun r h => x2 (ix2 r h)) (fun j o => x3 (ix2 j o)) r o := by
  unfold Gen.out1_A_4
  rw [View.read_writes_eq_canon _ _ _ (Gen.cover1_A_4 c i arg1 harg1 arg2 harg2 arg3 harg3 arg4 harg4 arg5 harg5 arg6 harg6 x0 x1 x2 x3)]
  unfold Gen.kernelRun1_A
  dsimp only
  sl_unfold_words
  rw [View.canon_unit_zero hz2]
  simp only [View.readAt_eq_ld, harg1.read_unread, harg2.read_unread, harg3.read_unread, harg4.read_unread,
    View.ld_unit_zero (S := S256x64) hz2, View.ld_unit_zero (S := S5000x128) hz2, View.ld_unit_zero (S := S128x256) hz2,
    View.ld_unit_zero (S := S5000x4) hz2]
  rw [View.readCov_eq_canon']
  unfold Gen.k1_pay1
  try dsimp only
  rw [shapeCast_self]
  refine (outp_apply _ x3 r o).trans ?_
  unfold Spec.edgeOut
  refine Finset.sum_congr rfl fun j _ => congrArg₂ (· * ·) ?_ rfl
  exact scratch_apply x0 x1 x2 r j

end Cert.KernelIdeal.Body

end
-- ==== Proof.RefStages.lean ====
/-
  The reference program's value, stage by stage, as plain functions at the ideal instance: each definition is the
  program's own composition of its operations, so that a run's result is these definitions applied to the launch
  contents by computation alone.  The stages: the two index columns (row 0 of the edge list the sources, row 1 the
  targets, each with a negative entry moved up by the number of nodes), the raw target column the scatter reads, the
  gathered source and target rows, the rectified logits, the softmax over all edges per head, and the tail (weighted
  values added up per target node, projected, biased).
-/
import proofs.«159076_j14929306321609_2_alg».proof.Proof.Gen.ReferenceIdeal
import Idealize.ShloMosaic.PureOps.Ideal

noncomputable section

namespace Cert.ReferenceIdeal.RefValue

open Cert.ReferenceIdeal Cert.ReferenceIdeal.Gen Idealize.ShloMosaic

/-- Row `0` of the edge list as a vector: the slice `[0:1, :]` flattened. -/
def row0 (ei : IVec S2x500000 32) : IVec S500000 32 :=
  shapeCast S500000 (extractStridedSlice S1x500000 ![0, 0] ei slices_S2x500000_S1x500000_0_0) shapeCasts_S1x500000_S500000

/-- Row `1` of the edge list as a vector: the slice `[1:2, :]` flattened. -/
def row1 (ei : IVec S2x500000 32) : IVec S500000 32 :=
  shapeCast S500000 (extractStridedSlice S1x500000 ![1, 0] ei slices_S2x500000_S1x500000_1_0) shapeCasts_S1x500000_S500000

/-- An index vector normalised (a negative entry has 50000 added) and made a column. -/
def normCol (r : IVec S500000 32) : IVec S500000x1 32 :=
  broadcastInDim S500000x1 ![0] bcast_S500000_S500000x1_0
    (select (cmpi .slt r (broadcastInDim S500000 ![] bcast_S_S500000 (constantI S_ 32 0#32)))
      (addi r (broadcastInDim S500000 ![] bcast_S_S500000 (constantI S_ 32 50000#32))) r)

/-- The source indices, normalised, as a column. -/
def idxS (ei : IVec S2x500000 32) : IVec S500000x1 32 := normCol (row0 ei)

/-- The target indices, normalised, as a column. -/
def idxT (ei : IVec S2x500000 32) : IVec S500000x1 32 := normCol (row1 ei)

/-- The target indices as read, not normalised, as a column: what the scatter is indexed by. -/
def tgtRaw (ei : IVec S2x500000 32) : IVec S500000x1 32 :=
  broadcastInDim S500000x1 ![0] bcast_S500000_S500000x1_0 (row1 ei)

/-- The source rows of the node features, one per edge. -/
def xsR (x : FVec Ideal S50000x128 .f32) (ei : IVec S2x500000 32) : FVec Ideal S500000x128 .f32 :=
  Host.gather gather_S50000x128_S500000x1_S500000x128_1_0_n_n_0_1_1128 x (idxS ei)

/-- The target rows of the node features, one per edge. -/
def xtR (x : FVec Ideal S50000x128 .f32) (ei : IVec S2x500000 32) : FVec Ideal S500000x128 .f32 :=
  Host.gather gather_S50000x128_S500000x1_S500000x128_1_0_n_n_0_1_1128 x (idxT ei)

/-- A row times a 128×256 weight matrix, split into 4 heads of 64 channels. -/
def headProj (r : FVec Ideal S500000x128 .f32) (W : FVec Ideal S128x256 .f32) : FVec Ideal S500000x4x64 .f32 :=
  shapeCast S500000x4x64 (Host.dotGeneral (F := Ideal) dot_S500000x128_S128x256_S500000x256_1_0_0_1_n_n none r W)
    shapeCasts_S500000x256_S500000x4x64

/-- The logits before the rectifier: the per-head inner product of queries and keys over √64, plus the edge bias. -/
def preLogits (xt xs : FVec Ideal S500000x128 .f32) (ew : FVec Ideal S500000x1 .f32) (Wq Wk : FVec Ideal S128x256 .f32)
    (We : FVec Ideal S1x4 .f32) : FVec Ideal S500000x4 .f32 :=
  addf
    (Host.divf (F := Ideal)
      (Host.reduceAdd (F := Ideal) (mulf (headProj xt Wq) (headProj xs Wk)) (constant (F := Ideal) S_ .f32 0x00000000#32)
        reducesTo_S500000x4x64_S500000x4_d2 h_S_)
      (broadcastInDim S500000x4 ![] bcast_S_S500000x4 (Host.sqrt (F := Ideal) (constant (F := Ideal) S_ .f32 0x42800000#32))))
    (Host.dotGeneral (F := Ideal) dot_S500000x1_S1x4_S500000x4_1_0_0_1_n_n none ew We)

/-- The leaky rectifier of slope `s` (a scalar), elementwise: `z` where `z ≥ 0`, else `s · z`. -/
def leakyRelu (z : FVec Ideal S500000x4 .f32) (s : FVec Ideal S_ .f32) : FVec Ideal S500000x4 .f32 :=
  select (cmpf .oge z (broadcastInDim S500000x4 ![] bcast_S_S500000x4 (constant (F := Ideal) S_ .f32 0x00000000#32)))
    z (mulf (broadcastInDim S500000x4 ![] bcast_S_S500000x4 (id s)) z)

/-- The logits: the rectifier of slope (the f32 word nearest) 0.2 of the pre-logits. -/
def refLogits (xt xs : FVec Ideal S500000x128 .f32) (ew : FVec Ideal S500000x1 .f32) (Wq Wk : FVec Ideal S128x256 .f32)
    (We : FVec Ideal S1x4 .f32) : FVec Ideal S500000x4 .f32 :=
  leakyRelu (preLogits xt xs ew Wq Wk We) (constant (F := Ideal) S_ .f32 0x3E4CCCCD#32)

/-- The per-head maximum over all edges (from −∞, and once more against −∞), as a 1×4 row. -/
def colMax (L : FVec Ideal S500000x4 .f32) : FVec Ideal S1x4 .f32 :=
  broadcastInDim S1x4 ![1] bcast_S4_S1x4_1
    (maximumf (broadcastInDim S4 ![] bcast_S_S4 (constant (F := Ideal) S_ .f32 0xFF800000#32))
      (Host.reduce FloatOps.maximumf L (constant (F := Ideal) S_ .f32 0xFF800000#32) reducesTo_S500000x4_S4_d0 h_S_))

/-- The exponentials of the logits less their per-head maximum. -/
def expShift (L : FVec Ideal S500000x4 .f32) : FVec Ideal S500000x4 .f32 :=
  Host.exp (F := Ideal) (subf L (broadcastInDim S500000x4 ![0, 1] bcast_S1x4_S500000x4_0_1 (colMax L)))

/-- The softmax over all edges, per head. -/
def refSoftmax (L : FVec Ideal S500000x4 .f32) : FVec Ideal S500000x4 .f32 :=
  Host.divf (F := Ideal) (expShift L)
    (broadcastInDim S500000x4 ![0, 1] bcast_S1x4_S500000x4_0_1
      (broadcastInDim S1x4 ![1] bcast_S4_S1x4_1
        (Host.reduceAdd (F := Ideal) (expShift L) (constant (F := Ideal) S_ .f32 0x00000000#32) reducesTo_S500000x4_S4_d0 h_S_)))

/-- The weighted values per edge, head and channel. -/
def weighted (a : FVec Ideal S500000x4 .f32) (xs : FVec Ideal S500000x128 .f32) (Wv : FVec Ideal S128x256 .f32) :
    FVec Ideal S500000x4x64 .f32 :=
  mulf
    (broadcastInDim S500000x4x64 ![0, 1, 2] bcast_S500000x4x1_S500000x4x64_0_1_2
      (broadcastInDim S500000x4x1 ![0, 1] bcast_S500000x4_S500000x4x1_0_1 a))
    (headProj xs Wv)

/-- The weighted values added up per target node (from zero), flattened to 256 columns. -/
def aggregated (a : FVec Ideal S500000x4 .f32) (xs : FVec Ideal S500000x128 .f32) (tgt : IVec S500000x1 32)
    (Wv : FVec Ideal S128x256 .f32) : FVec Ideal S50000x256 .f32 :=
  shapeCast S50000x256
    (Host.scatterAdd (F := Ideal) scatter_S50000x4x64_S500000x1_S500000x4x64_12_0_0_1
      (broadcastInDim S50000x4x64 ![] bcast_S_S50000x4x64 (constant (F := Ideal) S_ .f32 0x00000000#32)) tgt (weighted a xs Wv))
    shapeCasts_S50000x4x64_S50000x256

/-- The layer's output from the attention weights, the source rows, the raw target column and the weights. -/
def refTail (a : FVec Ideal S500000x4 .f32) (xs : FVec Ideal S500000x128 .f32) (tgt : IVec S500000x1 32)
    (Wv : FVec Ideal S128x256 .f32) (Wout : FVec Ideal S256x64 .f32) (b : FVec Ideal S64 .f32) : FVec Ideal S50000x64 .f32 :=
  addf (Host.dotGeneral (F := Ideal) dot_S50000x256_S256x64_S50000x64_1_0_0_1_n_n none (aggregated a xs tgt Wv) Wout)
    (broadcastInDim S50000x64 ![0, 1] bcast_S1x64_S50000x64_0_1 (broadcastInDim S1x64 ![1] bcast_S64_S1x64_1 b))

/-- @main's result as a function of its nine arguments. -/
def refOut (x : FVec Ideal S50000x128 .f32) (ei : IVec S2x500000 32) (ew : FVec Ideal S500000x1 .f32)
    (Wq Wk Wv : FVec Ideal S128x256 .f32) (We : FVec Ideal S1x4 .f32) (Wout : FVec Ideal S256x64 .f32)
    (b : FVec Ideal S64 .f32) : FVec Ideal S50000x64 .f32 :=
  refTail (refSoftmax (refLogits (xtR x ei) (xsR x ei) ew Wq Wk We)) (xsR x ei) (tgtRaw ei) Wv Wout b

end Cert.ReferenceIdeal.RefValue

end
-- ==== Proof.RefRun.lean ====
/-
  The reference program's run: @main is a straight line of 71 host operations (the rectifier's call and the select it
  calls written out at the call site over the call's buffers), so every weakly fair execution terminates with each
  buffer at the operations' fold over the launch contents; read at the result's buffer that fold is the staged value
  `refOut` of the nine arguments, and at an argument's buffer the launch contents, both by computation.
-/
import proofs.«159076_j14929306321609_2_alg».proof.Proof.RefStages
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

section
variable {F : FTy → Type} [FloatOps F]

/-- @main's 71 operations, in order: its own 64 and, at the call, the rectifier's six and the select. -/
abbrev ops : List (HloOp τ sig (Elt F)) :=
  [ StableHlo.unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v0 main_v1 rfl shapeCasts_S1x500000_S500000,
    StableHlo.unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v2 main_v3 rfl shapeCasts_S1x500000_S500000,
    StableHlo.nullary main_c (constantI S_ 32 0#32),
    StableHlo.unary main_c main_v4 (broadcastInDim S500000 ![] bcast_S_S500000 : (⟨S_, .i32⟩ : BufTy).Contents (Elt F) → (⟨S500000, .i32⟩ : BufTy).Contents (Elt F)),
    StableHlo.binary main_v1 main_v4 main_v5 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 50000#32),
    StableHlo.unary main_c_0 main_v6 (broadcastInDim S500000 ![] bcast_S_S500000 : (⟨S_, .i32⟩ : BufTy).Contents (Elt F) → (⟨S500000, .i32⟩ : BufTy).Contents (Elt F)),
    StableHlo.binary main_v1 main_v6 main_v7 (addi : (⟨S500000, .i32⟩ : BufTy).Contents (Elt F) → (⟨S500000, .i32⟩ : BufTy).Contents (Elt F) → (⟨S500000, .i32⟩ : BufTy).Contents (Elt F)),
    StableHlo.ternary main_v5 main_v7 main_v1 main_v8 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v8 main_v9 (broadcastInDim S500000x1 ![0] bcast_S500000_S500000x1_0 : (⟨S500000, .i32⟩ : BufTy).Contents (Elt F) → (⟨S500000x1, .i32⟩ : BufTy).Contents (Elt F)),
    StableHlo.binary main_arg0 main_v9 main_v10 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.nullary main_c_1 (constantI S_ 32 0#32),
    StableHlo.unary main_c_1 main_v11 (broadcastInDim S500000 ![] bcast_S_S500000 : (⟨S_, .i32⟩ : BufTy).Contents (Elt F) → (⟨S500000, .i32⟩ : BufTy).Contents (Elt F)),
    StableHlo.binary main_v3 main_v11 main_v12 (cmpi .slt : (⟨S500000, .i32⟩ : BufTy).Contents (Elt F) → (⟨S500000, .i32⟩ : BufTy).Contents (Elt F) → (⟨S500000, .i1⟩ : BufTy).Contents (Elt F)),
    StableHlo.nullary main_c_2 (constantI S_ 32 50000#32),
    StableHlo.unary main_c_2 main_v13 (broadcastInDim S500000 ![] bcast_S_S500000 : (⟨S_, .i32⟩ : BufTy).Contents (Elt F) → (⟨S500000, .i32⟩ : BufTy).Contents (Elt F)),
    StableHlo.binary main_v3 main_v13 main_v14 (addi : (⟨S500000, .i32⟩ : BufTy).Contents (Elt F) → (⟨S500000, .i32⟩ : BufTy).Contents (Elt F) → (⟨S500000, .i32⟩ : BufTy).Contents (Elt F)),
    StableHlo.ternary main_v12 main_v14 main_v3 main_v15 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v15 main_v16 (broadcastInDim S500000x1 ![0] bcast_S500000_S500000x1_0 : (⟨S500000, .i32⟩ : BufTy).Contents (Elt F) → (⟨S500000x1, .i32⟩ : BufTy).Contents (Elt F)),
    StableHlo.binary main_arg0 main_v16 main_v17 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.binary main_v17 main_arg3 main_v18 ((fun l r => Host.dotGeneral dot_S500000x128_S128x256_S500000x256_1_0_0_1_n_n none l r) : (⟨S500000x128, .f32⟩ : BufTy).Contents (Elt F) → (⟨S128x256, .f32⟩ : BufTy).Contents (Elt F) → (⟨S500000x256, .f32⟩ : BufTy).Contents (Elt F)),
    StableHlo.reshape main_v18 main_v19 rfl shapeCasts_S500000x256_S500000x4x64,
    StableHlo.binary main_v10 main_arg4 main_v20 ((fun l r => Host.dotGeneral dot_S500000x128_S128x256_S500000x256_1_0_0_1_n_n none l r) : (⟨S500000x128, .f32⟩ : BufTy).Contents (Elt F) → (⟨S128x256, .f32⟩ : BufTy).Contents (Elt F) → (⟨S500000x256, .f32⟩ : BufTy).Contents (Elt F)),
    StableHlo.reshape main_v20 main_v21 rfl shapeCasts_S500000x256_S500000x4x64,
    StableHlo.binary main_v10 main_arg5 main_v22 ((fun l r => Host.dotGeneral dot_S500000x128_S128x256_S500000x256_1_0_0_1_n_n none l r) : (⟨S500000x128, .f32⟩ : BufTy).Contents (Elt F) → (⟨S128x256, .f32⟩ : BufTy).Contents (Elt F) → (⟨S500000x256, .f32⟩ : BufTy).Contents (Elt F)),
    StableHlo.reshape main_v22 main_v23 rfl shapeCasts_S500000x256_S500000x4x64,
    StableHlo.binary main_v19 main_v21 main_v24 (mulf : (⟨S500000x4x64, .f32⟩ : BufTy).Contents (Elt F) → (⟨S500000x4x64, .f32⟩ : BufTy).Contents (Elt F) → (⟨S500000x4x64, .f32⟩ : BufTy).Contents (Elt F)),
    StableHlo.nullary main_cst (constant S_ .f32 0x00000000#32),
    StableHlo.binary main_v24 main_cst main_v25 ((fun x v => Host.reduceAdd x v reducesTo_S500000x4x64_S500000x4_d2 h_S_) : (⟨S500000x4x64, .f32⟩ : BufTy).Contents (Elt F) → (⟨S_, .f32⟩ : BufTy).Contents (Elt F) → (⟨S500000x4, .f32⟩ : BufTy).Contents (Elt F)),
    StableHlo.nullary main_cst_3 (constant S_ .f32 0x42800000#32),
    StableHlo.unary main_cst_3 main_v26 (Host.sqrt : (⟨S_, .f32⟩ : BufTy).Contents (Elt F) → (⟨S_, .f32⟩ : BufTy).Contents (Elt F)),
    StableHlo.unary main_v26 main_v27 (broadcastInDim S500000x4 ![] bcast_S_S500000x4 : (⟨S_, .f32⟩ : BufTy).Contents (Elt F) → (⟨S500000x4, .f32⟩ : BufTy).Contents (Elt F)),
    StableHlo.binary main_v25 main_v27 main_v28 (Host.divf : (⟨S500000x4, .f32⟩ : BufTy).Contents (Elt F) → (⟨S500000x4, .f32⟩ : BufTy).Contents (Elt F) → (⟨S500000x4, .f32⟩ : BufTy).Contents (Elt F)),
    StableHlo.binary main_arg2 main_arg6 main_v29 ((fun l r => Host.dotGeneral dot_S500000x1_S1x4_S500000x4_1_0_0_1_n_n none l r) : (⟨S500000x1, .f32⟩ : BufTy).Contents (Elt F) → (⟨S1x4, .f32⟩ : BufTy).Contents (Elt F) → (⟨S500000x4, .f32⟩ : BufTy).Contents (Elt F)),
    StableHlo.binary main_v28 main_v29 main_v30 (addf : (⟨S500000x4, .f32⟩ : BufTy).Contents (Elt F) → (⟨S500000x4, .f32⟩ : BufTy).Contents (Elt F) → (⟨S500000x4, .f32⟩ : BufTy).Contents (Elt F)),
    StableHlo.nullary main_cst_4 (constant S_ .f32 0x3E4CCCCD#32),
    TRef.nullary main_call0.cst (constant S_ .f32 0x00000000#32),
    TRef.unary main_call0.cst main_call0.v0 (broadcastInDim S500000x4 ![] bcast_S_S500000x4),
    TRef.binary (.of main_v30) main_call0.v0 main_call0.v1 (cmpf .oge),
    TRef.unary (.of main_cst_4) main_call0.v2 id,
    TRef.unary main_call0.v2 main_call0.v3 (broadcastInDim S500000x4 ![] bcast_S_S500000x4),
    TRef.binary main_call0.v3 (.of main_v30) main_call0.v4 mulf,
    TRef.ternary main_call0.v1 (.of main_v30) main_call0.v4 main_call0.call0.v0 select,
    StableHlo.nullary main_cst_5 (constant S_ .f32 0xFF800000#32),
    StableHlo.binary main_v31 main_cst_5 main_v32 ((fun x v => Host.reduce FloatOps.maximumf x v reducesTo_S500000x4_S4_d0 h_S_) : (⟨S500000x4, .f32⟩ : BufTy).Contents (Elt F) → (⟨S_, .f32⟩ : BufTy).Contents (Elt F) → (⟨S4, .f32⟩ : BufTy).Contents (Elt F)),
    StableHlo.nullary main_cst_6 (constant S_ .f32 0xFF800000#32),
    StableHlo.unary main_cst_6 main_v33 (broadcastInDim S4 ![] bcast_S_S4 : (⟨S_, .f32⟩ : BufTy).Contents (Elt F) → (⟨S4, .f32⟩ : BufTy).Contents (Elt F)),
    StableHlo.binary main_v33 main_v32 main_v34 (maximumf : (⟨S4, .f32⟩ : BufTy).Contents (Elt F) → (⟨S4, .f32⟩ : BufTy).Contents (Elt F) → (⟨S4, .f32⟩ : BufTy).Contents (Elt F)),
    StableHlo.unary main_v34 main_v35 (broadcastInDim S1x4 ![1] bcast_S4_S1x4_1 : (⟨S4, .f32⟩ : BufTy).Contents (Elt F) → (⟨S1x4, .f32⟩ : BufTy).Contents (Elt F)),
    StableHlo.unary main_v35 main_v36 (broadcastInDim S500000x4 ![0, 1] bcast_S1x4_S500000x4_0_1 : (⟨S1x4, .f32⟩ : BufTy).Contents (Elt F) → (⟨S500000x4, .f32⟩ : BufTy).Contents (Elt F)),
    StableHlo.binary main_v31 main_v36 main_v37 (subf : (⟨S500000x4, .f32⟩ : BufTy).Contents (Elt F) → (⟨S500000x4, .f32⟩ : BufTy).Contents (Elt F) → (⟨S500000x4, .f32⟩ : BufTy).Contents (Elt F)),
    StableHlo.unary main_v37 main_v38 (Host.exp : (⟨S500000x4, .f32⟩ : BufTy).Contents (Elt F) → (⟨S500000x4, .f32⟩ : BufTy).Contents (Elt F)),
    StableHlo.nullary main_cst_7 (constant S_ .f32 0x00000000#32),
    StableHlo.binary main_v38 main_cst_7 main_v39 ((fun x v => Host.reduceAdd x v reducesTo_S500000x4_S4_d0 h_S_) : (⟨S500000x4, .f32⟩ : BufTy).Contents (Elt F) → (⟨S_, .f32⟩ : BufTy).Contents (Elt F) → (⟨S4, .f32⟩ : BufTy).Contents (Elt F)),
    StableHlo.unary main_v39 main_v40 (broadcastInDim S1x4 ![1] bcast_S4_S1x4_1 : (⟨S4, .f32⟩ : BufTy).Contents (Elt F) → (⟨S1x4, .f32⟩ : BufTy).Contents (Elt F)),
    StableHlo.unary main_v40 main_v41 (broadcastInDim S500000x4 ![0, 1] bcast_S1x4_S500000x4_0_1 : (⟨S1x4, .f32⟩ : BufTy).Contents (Elt F) → (⟨S500000x4, .f32⟩ : BufTy).Contents (Elt F)),
    StableHlo.binary main_v38 main_v41 main_v42 (Host.divf : (⟨S500000x4, .f32⟩ : BufTy).Contents (Elt F) → (⟨S500000x4, .f32⟩ : BufTy).Contents (Elt F) → (⟨S500000x4, .f32⟩ : BufTy).Contents (Elt F)),
    StableHlo.unary main_v42 main_v43 (broadcastInDim S500000x4x1 ![0, 1] bcast_S500000x4_S500000x4x1_0_1 : (⟨S500000x4, .f32⟩ : BufTy).Contents (Elt F) → (⟨S500000x4x1, .f32⟩ : BufTy).Contents (Elt F)),
    StableHlo.unary main_v43 main_v44 (broadcastInDim S500000x4x64 ![0, 1, 2] bcast_S500000x4x1_S500000x4x64_0_1_2 : (⟨S500000x4x1, .f32⟩ : BufTy).Contents (Elt F) → (⟨S500000x4x64, .f32⟩ : BufTy).Contents (Elt F)),
    StableHlo.binary main_v44 main_v23 main_v45 (mulf : (⟨S500000x4x64, .f32⟩ : BufTy).Contents (Elt F) → (⟨S500000x4x64, .f32⟩ : BufTy).Contents (Elt F) → (⟨S500000x4x64, .f32⟩ : BufTy).Contents (Elt F)),
    StableHlo.nullary main_cst_8 (constant S_ .f32 0x00000000#32),
    StableHlo.unary main_cst_8 main_v46 (broadcastInDim S50000x4x64 ![] bcast_S_S50000x4x64 : (⟨S_, .f32⟩ : BufTy).Contents (Elt F) → (⟨S50000x4x64, .f32⟩ : BufTy).Contents (Elt F)),
    StableHlo.unary main_v3 main_v47 (broadcastInDim S500000x1 ![0] bcast_S500000_S500000x1_0 : (⟨S500000, .i32⟩ : BufTy).Contents (Elt F) → (⟨S500000x1, .i32⟩ : BufTy).Contents (Elt F)),
    StableHlo.ternary main_v46 main_v47 main_v45 main_v48 ((fun x i u => Host.scatterAdd scatter_S50000x4x64_S500000x1_S500000x4x64_12_0_0_1 x i u) : (⟨S50000x4x64, .f32⟩ : BufTy).Contents (Elt F) → (⟨S500000x1, .i32⟩ : BufTy).Contents (Elt F) → (⟨S500000x4x64, .f32⟩ : BufTy).Contents (Elt F) → (⟨S50000x4x64, .f32⟩ : BufTy).Contents (Elt F)),
    StableHlo.reshape main_v48 main_v49 rfl shapeCasts_S50000x4x64_S50000x256,
    StableHlo.binary main_v49 main_arg7 main_v50 ((fun l r => Host.dotGeneral dot_S50000x256_S256x64_S50000x64_1_0_0_1_n_n none l r) : (⟨S50000x256, .f32⟩ : BufTy).Contents (Elt F) → (⟨S256x64, .f32⟩ : BufTy).Contents (Elt F) → (⟨S50000x64, .f32⟩ : BufTy).Contents (Elt F)),
    StableHlo.unary main_arg8 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S50000x64 ![0, 1] bcast_S1x64_S50000x64_0_1 : (⟨S1x64, .f32⟩ : BufTy).Contents (Elt F) → (⟨S50000x64, .f32⟩ : BufTy).Contents (Elt F)),
    StableHlo.binary main_v50 main_v52 main_v53 (addf : (⟨S50000x64, .f32⟩ : BufTy).Contents (Elt F) → (⟨S50000x64, .f32⟩ : BufTy).Contents (Elt F) → (⟨S50000x64, .f32⟩ : BufTy).Contents (Elt F)) ]

-- seventy-one binds re-associated: the rewrite under the chain recurses once per statement
set_option maxRecDepth 4096 in
set_option maxHeartbeats 4000000 in
/-- @main is that straight line: the two windows and the two functions unfolded, sequencing reassociated. -/
theorem main_eq (c : Dev nD) : main (F := F) c = seq ops := by
  simp only [main, main_part0, main_part1, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., binary_bufs_sub .., reshape_bufs_sub .., binary_bufs_sub .., reshape_bufs_sub .., binary_bufs_sub .., nullary_bufs_sub .., binary_bufs_sub .., nullary_bufs_sub .., unary_bufs_sub .., unary_bufs_sub .., binary_bufs_sub .., binary_bufs_sub .., binary_bufs_sub .., nullary_bufs_sub .., nullary_bufs_sub .., unary_bufs_sub .., binary_bufs_sub .., unary_bufs_sub .., unary_bufs_sub .., binary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., unary_bufs_sub .., binary_bufs_sub .., nullary_bufs_sub .., unary_bufs_sub .., unary_bufs_sub .., ternary_bufs_sub .., reshape_bufs_sub .., binary_bufs_sub .., unary_bufs_sub .., unary_bufs_sub .., binary_bufs_sub ..⟩

end

attribute [local irreducible] Host.reduce Host.gather Host.scatterAdd Host.reduceAdd shapeCast broadcastInDim extractStridedSlice in
set_option maxRecDepth 16384 in
set_option maxHeartbeats 4000000 in
/-- The fold read at the result's buffer is the staged value of the nine arguments' contents: each operation's result
    is its function of the contents its operands hold, and the stages are those functions composed in the same order. -/
theorem out_eq (V : Valuation τ sig (Elt Ideal)) :
    after (ops (F := Ideal)) V (main_v53 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

set_option maxRecDepth 16384 in
set_option maxHeartbeats 4000000 in
/-- No operation writes argument 0's buffer. -/
theorem arg0_eq (V : Valuation τ sig (Elt Ideal)) :
    after (ops (F := Ideal)) V (main_arg0 : DevRef τ sig) = V (main_arg0 : DevRef τ sig) := by
  after_results_simp

set_option maxRecDepth 16384 in
set_option maxHeartbeats 4000000 in
/-- No operation writes argument 1's buffer. -/
theorem arg1_eq (V : Valuation τ sig (Elt Ideal)) :
    after (ops (F := Ideal)) V (main_arg1 : DevRef τ sig) = V (main_arg1 : DevRef τ sig) := by
  after_results_simp

set_option maxRecDepth 16384 in
set_option maxHeartbeats 4000000 in
/-- No operation writes argument 2's buffer. -/
theorem arg2_eq (V : Valuation τ sig (Elt Ideal)) :
    after (ops (F := Ideal)) V (main_arg2 : DevRef τ sig) = V (main_arg2 : DevRef τ sig) := by
  after_results_simp

set_option maxRecDepth 16384 in
set_option maxHeartbeats 4000000 in
/-- No operation writes argument 3's buffer. -/
theorem arg3_eq (V : Valuation τ sig (Elt Ideal)) :
    after (ops (F := Ideal)) V (main_arg3 : DevRef τ sig) = V (main_arg3 : DevRef τ sig) := by
  after_results_simp

set_option maxRecDepth 16384 in
set_option maxHeartbeats 4000000 in
/-- No operation writes argument 4's buffer. -/
theorem arg4_eq (V : Valuation τ sig (Elt Ideal)) :
    after (ops (F := Ideal)) V (main_arg4 : DevRef τ sig) = V (main_arg4 : DevRef τ sig) := by
  after_results_simp

set_option maxRecDepth 16384 in
set_option maxHeartbeats 4000000 in
/-- No operation writes argument 5's buffer. -/
theorem arg5_eq (V : Valuation τ sig (Elt Ideal)) :
    after (ops (F := Ideal)) V (main_arg5 : DevRef τ sig) = V (main_arg5 : DevRef τ sig) := by
  after_results_simp

set_option maxRecDepth 16384 in
set_option maxHeartbeats 4000000 in
/-- No operation writes argument 6's buffer. -/
theorem arg6_eq (V : Valuation τ sig (Elt Ideal)) :
    after (ops (F := Ideal)) V (main_arg6 : DevRef τ sig) = V (main_arg6 : DevRef τ sig) := by
  after_results_simp

set_option maxRecDepth 16384 in
set_option maxHeartbeats 4000000 in
/-- No operation writes argument 7's buffer. -/
theorem arg7_eq (V : Valuation τ sig (Elt Ideal)) :
    after (ops (F := Ideal)) V (main_arg7 : DevRef τ sig) = V (main_arg7 : DevRef τ sig) := by
  after_results_simp

set_option maxRecDepth 16384 in
set_option maxHeartbeats 4000000 in
/-- No operation writes argument 8's buffer. -/
theorem arg8_eq (V : Valuation τ sig (Elt Ideal)) :
    after (ops (F := Ideal)) V (main_arg8 : DevRef τ sig) = V (main_arg8 : DevRef τ sig) := by
  after_results_simp

set_option maxRecDepth 16384 in
set_option maxHeartbeats 4000000 in
/-- On every device, from any memory with zero counters: every weakly fair execution of @main terminates with the
    result at the staged value of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v53)
          = refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v53).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _)⟩)
    (run_seq scopedRefs_eq scopedSems_eq defs main (fun _ => ops) main_eq (fun _ => ops_sub) m ρ)

end Cert.ReferenceIdeal.RefValue

end
-- ==== Proof.Finite.lean ====
/-
  From the precondition on the inputs to "every entry of every float argument is a finite real".  The precondition is,
  for each float argument, the conjunction over all its entries of the comparison |entry| < +∞, the nine results
  conjoined.  Read at the extended reals: |x| is max x (-x), the compared word is ⊤, and max x (-x) < ⊤ excludes both
  infinities, so x is the coercion of a real.
-/
import proofs.«159076_j14929306321609_2_alg».proof.Pre_finite_inputs
import proofs.«159076_j14929306321609_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

/-- The shape of rank zero has exactly one index. -/
instance subsingleton_S_ : Subsingleton S_.Idx := ⟨fun a b => funext fun d => d.elim0⟩

/-- The word all of whose exponent bits are set and whose fraction is zero denotes +∞. -/
theorem ofBits_inf : Ideal.ofBits .f32 0x7F800000#32 = ⊤ := by
  simp [Ideal.ofBits, Ideal.ieee]

/-- An extended real whose absolute value `max x (-x)` is below ⊤ is a finite real. -/
theorem real_of_abs_lt_top (x : EReal) (hx : max x (-x) < ⊤) : ∃ q : ℝ, x = (q : EReal) := by
  induction x using EReal.rec with
  | bot => simp at hx
  | coe r => exact ⟨r, rfl⟩
  | top => simp at hx

/-- One conjunct of the precondition, generic in the argument's shape: if the conjunction over all entries of
    `|a i| < +∞` holds, every entry of `a` is a finite real. -/
theorem real_of_all_lt_inf {S : Shape} (a : FVec Ideal S .f32)
    (hb : S_.BroadcastsInDim S (![] : Fin 0 → Fin S.rank)) {axes : List (Fin S.rank)}
    (hred : S.ReducesTo axes S_) (hu : 0 < S_.numel) (j : S_.Idx)
    (e : Host.reduce IntOp.andi
        (cmpf .olt (Host.absf a) (broadcastInDim S ![] hb (constant (F := Ideal) S_ .f32 0x7F800000#32)))
        (constantI S_ 1 1#1) hred hu j = 1#1) :
    ∀ i, ∃ q : ℝ, a i = (q : EReal) := by
  intro i
  have h1 := Host.reduce_andi_all _ _ hred hu j e i
  have h2 : Ideal.cmp .olt (max (a i) (-(a i))) (Ideal.ofBits .f32 0x7F800000#32) = 1#1 := h1
  rw [ofBits_inf] at h2
  refine real_of_abs_lt_top (a i) ?_
  unfold Ideal.cmp at h2
  by_contra hlt
  simp [hlt] at h2

theorem args_real (x : FVec Ideal S50000x128 .f32) (ei : IVec S2x500000 32) (ew : FVec Ideal S500000x1 .f32)
    (Wq Wk Wv : FVec Ideal S128x256 .f32) (We : FVec Ideal S1x4 .f32) (Wout : FVec Ideal S256x64 .f32)
    (b : FVec Ideal S64 .f32)
    (h : Cert.Pre_finite_inputs.fn (F := Ideal) x ei ew Wq Wk Wv We Wout b = fun _ => 1#1) :
    (∀ i, ∃ q : ℝ, x i = (q : EReal)) ∧ (∀ i, ∃ q : ℝ, ew i = (q : EReal)) ∧ (∀ i, ∃ q : ℝ, Wq i = (q : EReal)) ∧
    (∀ i, ∃ q : ℝ, Wk i = (q : EReal)) ∧ (∀ i, ∃ q : ℝ, Wv i = (q : EReal)) ∧ (∀ i, ∃ q : ℝ, We i = (q : EReal)) ∧
    (∀ i, ∃ q : ℝ, Wout i = (q : EReal)) ∧ (∀ i, ∃ q : ℝ, b i = (q : EReal)) := by
  have h0 := congrFun h ValueIdx.ix0
  dsimp only [fn, fn_part1, fn_part2, andi] at h0
  simp only [IntOp.andi_eq_one] at h0
  obtain ⟨⟨⟨⟨⟨⟨⟨h1, h2⟩, h3⟩, h4⟩, h5⟩, h6⟩, h7⟩, h8⟩ := h0
  exact ⟨real_of_all_lt_inf x _ _ _ _ h1, real_of_all_lt_inf ew _ _ _ _ h2, real_of_all_lt_inf Wq _ _ _ _ h3,
    real_of_all_lt_inf Wk _ _ _ _ h4, real_of_all_lt_inf Wv _ _ _ _ h5, real_of_all_lt_inf We _ _ _ _ h6,
    real_of_all_lt_inf Wout _ _ _ _ h7, real_of_all_lt_inf b _ _ _ _ h8⟩

end Cert.Finite

end
-- ==== Proof.LibScatterSet.lean ====
/-
  Reading a "set" scatter at an index.

  A scatter whose body returns the update (`fun _ b => b`) overwrites: the element at a result
  index that exactly one update index lands on is that update's element, and an element no update
  index lands on is the operand's.  Both are statements about the left fold that defines
  `Host.scatter`, proved for the fold over an arbitrary list of update positions and then read at
  the list of all positions.
-/
import Idealize.ShloMosaic.PureOps.ShapeOps

namespace Idealize.ShloMosaic

section ScatterSet
variable {s si u : Shape} {α : Type} {w : Nat}

/-- One step of the fold that defines `Host.scatter`: the update at row-major position `n` is
    combined by `f` into the result at the index it lands on, and dropped when it lands outside. -/
def Host.scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- `Host.scatter` is the left fold of `Host.scatterStep` over all update positions. -/
theorem Host.scatter_eq_foldl (d : ScatterDims s si u) (f : α → α → α) (x : s.Idx → α) (idx : IVec si w)
    (upd : u.Idx → α) :
    Host.scatter d f x idx upd = (List.finRange u.numel).foldl (Host.scatterStep d f idx upd) x := rfl

/-- A step whose update lands on `i` and whose body returns the update writes that update at `i`. -/
theorem Host.scatterStep_set_hit (d : ScatterDims s si u) (idx : IVec si w) (upd : u.Idx → α) (r : s.Idx → α)
    (n : Fin u.numel) (i : s.Idx) (h : d.resultIdx? (u.rowMajor.symm n) idx = some i) :
    Host.scatterStep d (fun _ b => b) idx upd r n i = upd (u.rowMajor.symm n) := by
  unfold Host.scatterStep
  rw [h]
  simp

/-- A step whose update does not land on `i` leaves the result at `i` as it was (for any body). -/
theorem Host.scatterStep_miss (d : ScatterDims s si u) (f : α → α → α) (idx : IVec si w) (upd : u.Idx → α)
    (r : s.Idx → α) (n : Fin u.numel) (i : s.Idx) (h : d.resultIdx? (u.rowMajor.symm n) idx ≠ some i) :
    Host.scatterStep d f idx upd r n i = r i := by
  unfold Host.scatterStep
  cases h0 : d.resultIdx? (u.rowMajor.symm n) idx with
  | none => rfl
  | some i0 =>
    have hne : i ≠ i0 := fun e => h (by rw [h0, e])
    simp [hne]

/-- The fold over ANY list of update positions, read at a result index `i` on which the update
    index `j` lands and no other does: the update's element at `j` once `j`'s position has been
    met, the initial value's element before that.  (Positions may repeat: every step that lands on
    `i` writes the same element.) -/
theorem Host.foldl_scatterStep_set_hit (d : ScatterDims s si u) (idx : IVec si w) (upd : u.Idx → α)
    (j : u.Idx) (i : s.Idx) (hj : d.resultIdx? j idx = some i)
    (huniq : ∀ j', d.resultIdx? j' idx = some i → j' = j) (l : List (Fin u.numel)) (x : s.Idx → α) :
    l.foldl (Host.scatterStep d (fun _ b => b) idx upd) x i = if u.rowMajor j ∈ l then upd j else x i := by
  induction l generalizing x with
  | nil => simp
  | cons n l ih =>
    rw [List.foldl_cons, ih]
    by_cases hl : u.rowMajor j ∈ l
    · simp [hl]
    · rw [if_neg hl]
      by_cases hn : u.rowMajor j = n
      · have hs : u.rowMajor.symm n = j := by rw [← hn, Equiv.symm_apply_apply]
        rw [Host.scatterStep_set_hit d idx upd x n i (by rw [hs]; exact hj), hs]
        simp [hn]
      · have hne : d.resultIdx? (u.rowMajor.symm n) idx ≠ some i := fun e =>
          hn (by rw [← huniq _ e, Equiv.apply_symm_apply])
        rw [Host.scatterStep_miss d _ idx upd x n i hne]
        have : u.rowMajor j ∉ n :: l := by
          intro hm
          rcases List.mem_cons.1 hm with h | h
          · exact hn h
          · exact hl h
        rw [if_neg this]

/-- The fold over ANY list of update positions, read at a result index no update index lands on:
    the initial value's element (for any body). -/
theorem Host.foldl_scatterStep_miss (d : ScatterDims s si u) (f : α → α → α) (idx : IVec si w) (upd : u.Idx → α)
    (i : s.Idx) (h : ∀ j, d.resultIdx? j idx ≠ some i) (l : List (Fin u.numel)) (x : s.Idx → α) :
    l.foldl (Host.scatterStep d f idx upd) x i = x i := by
  induction l generalizing x with
  | nil => rfl
  | cons n l ih => rw [List.foldl_cons, ih, Host.scatterStep_miss d f idx upd x n i (h _)]

/-- Where an update index lands, by coordinates: the update index `j` lands on the result index `i`
    exactly when, on every operand axis, the start of `j`'s window plus `j`'s window coordinate is
    `i`'s coordinate.  (The bounds test in `ScatterDims.resultIdx?` is then met, because `i` is an
    index of the operand.) -/
theorem ScatterDims.resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  constructor
  · intro h a
    split at h
    · rename_i hin
      have hi := congrFun (Option.some.inj h) a
      have h0 := (hin a).1
      rw [← hi]
      simp only [Int.toNat_of_nonneg h0]
    · exact absurd h (by simp)
  · intro h
    have hin : ∀ a, 0 ≤ d.start j idx a + (d.window j a : Int) ∧
        d.start j idx a + (d.window j a : Int) < (s.size a : Int) := by
      intro a
      rw [h a]
      exact ⟨Int.natCast_nonneg _, Int.ofNat_lt.2 (i a).isLt⟩
    rw [dif_pos hin]
    congr 1
    funext a
    apply Fin.ext
    show (d.start j idx a + (d.window j a : Int)).toNat = (i a).val
    rw [h a, Int.toNat_natCast]

/-- A scatter whose body returns the update, read at a result index `i` on which the update index
    `j` lands (`hj`) and no other update index does (`huniq`): the update's element at `j`. -/
theorem Host.scatter_set_hit (d : ScatterDims s si u) (x : s.Idx → α) (idx : IVec si w) (upd : u.Idx → α)
    (j : u.Idx) (i : s.Idx) (hj : d.resultIdx? j idx = some i)
    (huniq : ∀ j', d.resultIdx? j' idx = some i → j' = j) :
    Host.scatter d (fun _ b => b) x idx upd i = upd j := by
  rw [Host.scatter_eq_foldl, Host.foldl_scatterStep_set_hit d idx upd j i hj huniq,
    if_pos (List.mem_finRange _)]

/-- A scatter read at a result index no update index lands on: the operand's element there. -/
theorem Host.scatter_set_miss (d : ScatterDims s si u) (x : s.Idx → α) (idx : IVec si w) (upd : u.Idx → α)
    (i : s.Idx) (h : ∀ j, d.resultIdx? j idx ≠ some i) :
    Host.scatter d (fun _ b => b) x idx upd i = x i := by
  rw [Host.scatter_eq_foldl, Host.foldl_scatterStep_miss d _ idx upd i h]

end ScatterSet

end Idealize.ShloMosaic
-- ==== Proof.KScatter.lean ====
/-
  The row scatter-add of the program, read at an index.  Update row `e` carries 64 values and one signed target row
  `idx e`; the scatter adds update element `(e, o')` into result element `(idx e, o')`, and drops it when `idx e` is no
  row of the result.  So result element `(n, o)` is the operand's element plus the sum, over the update rows `e` whose
  target is `n`, of update element `(e, o)`.
-/
import proofs.«159076_j14929306321609_2_alg».proof.Proof.Gen.KernelIdeal
import proofs.«159076_j14929306321609_2_alg».proof.Proof.LibScatterSet
import Idealize.ShloMosaic.PureOps.Ideal
import Idealize.ShloMosaic.Lib.ValueIdx

noncomputable section

namespace Cert.KernelIdeal.Scatter

open Idealize.ShloMosaic Idealize.ShloMosaic.ValueIdx Cert.KernelIdeal

/-- On the row axis the window starts at the update row's target. -/
theorem start_row (idx : IVec S500000x1 32) (e : Fin 500000) (o' : Fin 64) :
    scatter_S50000x64_S500000x1_S500000x64_1_0_0_1.start (ix2 e o') idx ⟨0, by decide⟩ = (idx (ix2 e 0)).toInt := by
  unfold ScatterDims.start
  rw [dif_pos (by decide)]
  refine congrArg BitVec.toInt (congrArg idx ?_)
  funext b
  match b with
  | ⟨0, _⟩ => rfl
  | ⟨1, _⟩ => rfl

/-- The row axis is inserted: no window coordinate there. -/
theorem window_row (e : Fin 500000) (o' : Fin 64) : scatter_S50000x64_S500000x1_S500000x64_1_0_0_1.window (ix2 e o') ⟨0, by decide⟩ = 0 := by
  unfold ScatterDims.window
  rw [dif_neg (by decide)]

/-- The column axis is not a scatter axis: the window starts at column 0. -/
theorem start_col (idx : IVec S500000x1 32) (e : Fin 500000) (o' : Fin 64) :
    scatter_S50000x64_S500000x1_S500000x64_1_0_0_1.start (ix2 e o') idx ⟨1, by decide⟩ = 0 := by
  unfold ScatterDims.start
  rw [dif_neg (by decide)]

/-- On the column axis the window coordinate is the update's column. -/
theorem window_col (e : Fin 500000) (o' : Fin 64) : scatter_S50000x64_S500000x1_S500000x64_1_0_0_1.window (ix2 e o') ⟨1, by decide⟩ = o'.val := by
  unfold ScatterDims.window
  rw [dif_pos (by decide)]
  rfl

/-- Update element `(e, o')` lands on result element `(n, o)` exactly when row `e`'s target is `n` and the columns agree. -/
theorem hit (idx : IVec S500000x1 32) (e : Fin 500000) (o' : Fin 64) (n : Fin 50000) (o : Fin 64) :
    scatter_S50000x64_S500000x1_S500000x64_1_0_0_1.resultIdx? (ix2 e o') idx = some (ix2 n o)
      ↔ (idx (ix2 e 0)).toInt = (n.val : ℤ) ∧ o' = o := by
  rw [ScatterDims.resultIdx?_eq_some_iff]
  constructor
  · intro h
    have h0 := h ⟨0, by decide⟩
    have h1 := h ⟨1, by decide⟩
    rw [start_row, window_row] at h0
    rw [start_col, window_col] at h1
    refine ⟨?_, Fin.ext ?_⟩
    · have : ((ix2 n o : S50000x64.Idx) ⟨0, by decide⟩).val = n.val := rfl
      rw [this] at h0
      simpa using h0
    · have : ((ix2 n o : S50000x64.Idx) ⟨1, by decide⟩).val = o.val := rfl
      rw [this] at h1
      omega
  · rintro ⟨h0, rfl⟩ a
    match a with
    | ⟨0, _⟩ =>
      rw [start_row, window_row, h0]
      simp
    | ⟨1, _⟩ =>
      rw [start_col, window_col]
      simp

/-- The update elements that land on result element `(n, o)` are the elements `(e, o)` of the rows `e` whose target is `n`. -/
theorem sum_hits (idx : IVec S500000x1 32) (oe : FVec Ideal S500000x64 .f32) (n : Fin 50000) (o : Fin 64) :
    ∑ j ∈ Finset.univ.filter (fun j : S500000x64.Idx => scatter_S50000x64_S500000x1_S500000x64_1_0_0_1.resultIdx? j idx = some (ix2 n o)), oe j
      = ∑ e ∈ Finset.univ.filter (fun e : Fin 500000 => (idx (ix2 e 0)).toInt = (n.val : ℤ)), oe (ix2 e o) := by
  symm
  refine Finset.sum_nbij (fun e : Fin 500000 => (ix2 e o : S500000x64.Idx)) ?_ ?_ ?_ ?_
  · intro e he
    rw [Finset.mem_filter] at he ⊢
    exact ⟨Finset.mem_univ _, (hit idx e o n o).2 ⟨he.2, rfl⟩⟩
  · intro e _ e' _ h
    exact congrFun h ⟨0, by decide⟩
  · intro j hj
    obtain ⟨e, o', rfl⟩ : ∃ e o', j = ix2 e o' := ⟨_, _, eq_ix2 j⟩
    rw [Finset.mem_coe, Finset.mem_filter] at hj
    obtain ⟨he, rfl⟩ := (hit idx e o' n o).1 hj.2
    exact ⟨e, Finset.mem_coe.2 (Finset.mem_filter.2 ⟨Finset.mem_univ _, he⟩), rfl⟩
  · intro e _
    rfl

theorem scatterAdd_apply (x0 : FVec Ideal S50000x64 .f32) (idx : IVec S500000x1 32) (oe : FVec Ideal S500000x64 .f32)
    (n : Fin 50000) (o : Fin 64) :
    Host.scatterAdd (F := Ideal) scatter_S50000x64_S500000x1_S500000x64_1_0_0_1 x0 idx oe (ix2 n o)
      = x0 (ix2 n o) + ∑ e ∈ Finset.univ.filter (fun e : Fin 500000 => (idx (ix2 e 0)).toInt = (n.val : ℤ)), oe (ix2 e o) := by
  have h : Host.scatterAdd (F := Ideal) scatter_S50000x64_S500000x1_S500000x64_1_0_0_1 x0 idx oe (ix2 n o)
      = x0 (ix2 n o) + ∑ j ∈ Finset.univ.filter (fun j : S500000x64.Idx =>
          scatter_S50000x64_S500000x1_S500000x64_1_0_0_1.resultIdx? j idx = some (ix2 n o)), oe j := rfl
  rw [h]
  exact congrArg (fun t => x0 (ix2 n o) + t) (sum_hits idx oe n o)

end Cert.KernelIdeal.Scatter

end
-- ==== Proof.KTail.lean ====
/-
  The kernel's tail read at a node and a channel: the per-edge contributions whose target is the node, added up from
  zero, plus the channel's bias — the specification's `outK`.
-/
import proofs.«159076_j14929306321609_2_alg».proof.Proof.KStages
import proofs.«159076_j14929306321609_2_alg».proof.Proof.KScatter
import proofs.«159076_j14929306321609_2_alg».proof.Proof.Spec
import Idealize.ShloMosaic.Lib.IdealHost
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Stages

theorem tailK_apply (oe : FVec Ideal S500000x64 .f32) (r1 : IVec S500000 32) (b : FVec Ideal S64 .f32) (n : Fin 50000) (o : Fin 64) :
    tailK oe r1 b (ix2 n o)
      = Spec.outK (fun e => (r1 (ix1 e)).toInt) (fun e o => (oe (ix2 e o) : EReal)) (fun o => (b (ix1 o) : EReal)) n o := by
  unfold tailK Spec.outK
  rw [addf_apply, Scatter.scatterAdd_apply, broadcastInDim_scalar_apply, constant_apply, Ideal.ofBits_zero_f32]
  have hb : broadcastInDim S50000x64 ![0, 1] bcast_S1x64_S50000x64_0_1 (broadcastInDim S1x64 ![1] bcast_S64_S1x64_1 b) (ix2 n o) = b (ix1 o) := by
    refine (broadcastInDim_apply _ _ _ _ (ix2 (0 : Fin 1) o) fun a => ?_).trans ?_
    · match a with
      | ⟨0, _⟩ => rfl
      | ⟨1, _⟩ => rfl
    · refine broadcastInDim_apply _ _ _ _ _ fun a => ?_
      match a with
      | ⟨0, _⟩ => rfl
  rw [hb]
  refine congrArg (fun z => (0 + z) + b (ix1 o)) ?_
  refine Finset.sum_congr ?_ fun _ _ => rfl
  refine Finset.filter_congr fun e _ => ?_
  have hc : broadcastInDim S500000x1 ![0] bcast_S500000_S500000x1_0 r1 (ix2 e 0) = r1 (ix1 e) := by
    refine broadcastInDim_apply _ _ _ _ _ fun a => ?_
    match a with
    | ⟨0, _⟩ => rfl
  rw [hc]

end Cert.KernelIdeal.Tail

end
-- ==== Proof.SpecLaw.lean ====
/-
  Laws of the specification, as pure mathematics over the extended reals: families of finite reals are closed under
  the operations the layer uses, the softmax weight of a member of a finite family of reals is a real, and projecting
  each edge's weighted values before adding up the edges of a node equals adding them up first and projecting after.
-/
import proofs.«159076_j14929306321609_2_alg».proof.Proof.Spec

noncomputable section

namespace Cert.Spec

open Idealize.ShloMosaic

/-! ### Finite reals inside the extended reals, over abstract index types -/

/-- The coercion of a finite sum of reals is the sum of the coercions. -/
theorem coe_finset_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The maximum of the least element and `x` is `x`. -/
protected theorem max_bot_left (x : EReal) : max ⊥ x = x := max_eq_right bot_le

/-- A finite sum of finite reals is a finite real. -/
theorem sum_real {ι : Type*} (s : Finset ι) (f : ι → EReal) (hf : ∀ k ∈ s, ∃ q : ℝ, f k = (q : EReal)) :
    ∃ q : ℝ, ∑ k ∈ s, f k = (q : EReal) := by
  classical
  refine ⟨∑ k ∈ s, (f k).toReal, ?_⟩
  rw [coe_finset_sum]
  refine Finset.sum_congr rfl (fun k hk => ?_)
  obtain ⟨q, hq⟩ := hf k hk
  rw [hq, EReal.toReal_coe]

/-- A product of two finite reals is a finite real. -/
theorem mul_real {x y : EReal} (hx : ∃ q : ℝ, x = (q : EReal)) (hy : ∃ q : ℝ, y = (q : EReal)) :
    ∃ q : ℝ, x * y = (q : EReal) := by
  obtain ⟨p, rfl⟩ := hx
  obtain ⟨q, rfl⟩ := hy
  exact ⟨p * q, (EReal.coe_mul p q).symm⟩

/-- A sum of two finite reals is a finite real. -/
theorem add_real {x y : EReal} (hx : ∃ q : ℝ, x = (q : EReal)) (hy : ∃ q : ℝ, y = (q : EReal)) :
    ∃ q : ℝ, x + y = (q : EReal) := by
  obtain ⟨p, rfl⟩ := hx
  obtain ⟨q, rfl⟩ := hy
  exact ⟨p + q, (EReal.coe_add p q).symm⟩

/-- Exchange of a sum over a finite set of edges with a weighted sum over a finite index type, for families of
    finite reals: `0 + Σ_{e∈S} Σ_j (v e j · a e j) · W j = Σ_j (0 + Σ_{e∈S} a e j · v e j) · W j`. -/
theorem sum_weighted_comm {ε J : Type*} [Fintype J] (S : Finset ε) (v a : ε → J → EReal) (W : J → EReal)
    (hv : ∀ e j, ∃ r : ℝ, v e j = (r : EReal)) (ha : ∀ e j, ∃ r : ℝ, a e j = (r : EReal))
    (hW : ∀ j, ∃ r : ℝ, W j = (r : EReal)) :
    0 + ∑ e ∈ S, ∑ j : J, (v e j * a e j) * W j = ∑ j : J, (0 + ∑ e ∈ S, a e j * v e j) * W j := by
  choose v' hv' using hv
  choose a' ha' using ha
  choose W' hW' using hW
  have h1 : (0 : EReal) + ∑ e ∈ S, ∑ j : J, (v e j * a e j) * W j
      = ((∑ e ∈ S, ∑ j : J, (v' e j * a' e j) * W' j : ℝ) : EReal) := by
    rw [zero_add, coe_finset_sum]
    refine Finset.sum_congr rfl (fun e _ => ?_)
    rw [coe_finset_sum]
    refine Finset.sum_congr rfl (fun j _ => ?_)
    rw [hv', ha', hW', EReal.coe_mul, EReal.coe_mul]
  have h2 : ∑ j : J, (0 + ∑ e ∈ S, a e j * v e j) * W j
      = ((∑ j : J, (∑ e ∈ S, a' e j * v' e j) * W' j : ℝ) : EReal) := by
    rw [coe_finset_sum]
    refine Finset.sum_congr rfl (fun j _ => ?_)
    rw [zero_add, EReal.coe_mul, coe_finset_sum, hW']
    congr 1
    refine Finset.sum_congr rfl (fun e _ => ?_)
    rw [hv', ha', EReal.coe_mul]
  rw [h1, h2]
  congr 1
  rw [Finset.sum_comm]
  refine Finset.sum_congr rfl (fun j _ => ?_)
  rw [Finset.sum_mul]
  refine Finset.sum_congr rfl (fun e _ => ?_)
  rw [mul_comm (v' e j)]

/-! ### The layer's quantities are finite reals -/

theorem proj_real {R : Nat} (xr : Fin R → Fin 128 → EReal) (W : Fin 128 → Fin 256 → EReal)
    (hx : ∀ r i, ∃ q : ℝ, xr r i = (q : EReal)) (hW : ∀ i j, ∃ q : ℝ, W i j = (q : EReal)) (r : Fin R) (j : Fin 256) :
    ∃ q : ℝ, proj xr W r j = (q : EReal) :=
  sum_real _ _ (fun i _ => mul_real (hx r i) (hW i j))

/-! ### Projecting before or after the sum over a node's edges -/

theorem outK_eq_outR (T : Fin 500000 → ℤ) (xs : Fin 500000 → Fin 128 → EReal) (Wv : Fin 128 → Fin 256 → EReal)
    (a : Fin 500000 → Fin 4 → EReal) (Wout : Fin 256 → Fin 64 → EReal) (b : Fin 64 → EReal)
    (hxs : ∀ e i, ∃ r : ℝ, xs e i = (r : EReal)) (hWv : ∀ i j, ∃ r : ℝ, Wv i j = (r : EReal))
    (ha : ∀ e h, ∃ r : ℝ, a e h = (r : EReal)) (hWout : ∀ j o, ∃ r : ℝ, Wout j o = (r : EReal))
    (n : Fin 50000) (o : Fin 64) :
    outK T (edgeOut xs Wv a Wout) b n o = outR T a (proj xs Wv) Wout b n o := by
  unfold outK outR edgeOut
  refine congrArg (· + b o) ?_
  exact sum_weighted_comm _ (proj xs Wv) (fun e j => a e (headOf j)) (fun j => Wout j o)
    (fun e j => proj_real xs Wv hxs hWv e j) (fun e j => ha e (headOf j)) (fun j => hWout j o)

/-! ### The rectifier, the logits and the softmax weights -/

/-- The rectifier's slope is a finite real: its pattern is a normal number. -/
theorem slope_real : ∃ q : ℝ, slope = (q : EReal) := by
  unfold slope
  simp [Ideal.ofBits, Ideal.ieee, -EReal.coe_mul]

/-- The leaky rectifier of a finite real is a finite real. -/
theorem leaky_real {z : EReal} (hz : ∃ q : ℝ, z = (q : EReal)) : ∃ q : ℝ, leaky z = (q : EReal) := by
  unfold leaky
  split
  · exact hz
  · exact mul_real slope_real hz

theorem logit_real {R : Nat} (xt xs : Fin R → Fin 128 → EReal) (Wq Wk : Fin 128 → Fin 256 → EReal) (eb : Fin R → Fin 4 → EReal)
    (hxt : ∀ r i, ∃ q : ℝ, xt r i = (q : EReal)) (hxs : ∀ r i, ∃ q : ℝ, xs r i = (q : EReal))
    (hWq : ∀ i j, ∃ q : ℝ, Wq i j = (q : EReal)) (hWk : ∀ i j, ∃ q : ℝ, Wk i j = (q : EReal))
    (heb : ∀ r h, ∃ q : ℝ, eb r h = (q : EReal)) (r : Fin R) (h : Fin 4) :
    ∃ q : ℝ, logit xt xs Wq Wk eb r h = (q : EReal) := by
  unfold logit
  refine leaky_real (add_real (mul_real ?_ ⟨_, rfl⟩) (heb r h))
  unfold score
  exact sum_real _ _ (fun c _ => mul_real (proj_real xt Wq hxt hWq r _) (proj_real xs Wk hxs hWk r _))

/-- The running maximum, from the least element, over a finite family of finite reals with a member is a finite real. -/
theorem fold_max_real {ι : Type} (s : Finset ι) (L : ι → EReal) (i : ι) (hi : i ∈ s)
    (hL : ∀ k ∈ s, ∃ q : ℝ, L k = (q : EReal)) : ∃ m : ℝ, s.fold max ⊥ L = (m : EReal) := by
  have hbot : s.fold max ⊥ L ≠ ⊥ := by
    obtain ⟨q, hq⟩ := hL i hi
    have h1 : L i ≤ s.fold max ⊥ L := (Finset.le_fold_max _).mpr (Or.inr ⟨i, hi, le_rfl⟩)
    intro h
    rw [h, hq] at h1
    exact (EReal.coe_ne_bot q) (le_bot_iff.mp h1)
  have htop : s.fold max ⊥ L ≠ ⊤ := by
    refine ne_of_lt ((Finset.fold_max_lt _).mpr ⟨bot_lt_top, fun k hk => ?_⟩)
    obtain ⟨q, hq⟩ := hL k hk
    rw [hq]
    exact EReal.coe_lt_top q
  exact ⟨_, (EReal.coe_toReal htop hbot).symm⟩

/-- The softmax weight of a member of a finite family of reals is a real: the running maximum from ⊥ over a nonempty
    family of reals is a real, exp of a real difference is a positive real, the normaliser (from 0) is a positive real,
    and Ideal.div of a real by a nonzero real is a real. -/
theorem softmax_real {ι : Type} (s : Finset ι) (L : ι → EReal) (i : ι) (hi : i ∈ s)
    (hL : ∀ k ∈ s, ∃ q : ℝ, L k = (q : EReal)) :
    ∃ q : ℝ, Ideal.div (Ideal.exp (L i - s.fold max ⊥ L)) (0 + ∑ k ∈ s, Ideal.exp (L k - s.fold max ⊥ L)) = (q : EReal) := by
  obtain ⟨m, hm⟩ := fold_max_real s L i hi hL
  rw [hm]
  have hexp : ∀ k ∈ s, Ideal.exp (L k - (m : EReal)) = ((Real.exp ((L k).toReal - m) : ℝ) : EReal) := by
    intro k hk
    obtain ⟨q, hq⟩ := hL k hk
    rw [hq, EReal.toReal_coe, ← EReal.coe_sub, Ideal.exp_coe]
  have hsum : (0 : EReal) + ∑ k ∈ s, Ideal.exp (L k - (m : EReal))
      = ((∑ k ∈ s, Real.exp ((L k).toReal - m) : ℝ) : EReal) := by
    rw [zero_add, coe_finset_sum]
    exact Finset.sum_congr rfl hexp
  have hpos : (∑ k ∈ s, Real.exp ((L k).toReal - m) : ℝ) ≠ 0 :=
    ne_of_gt (Finset.sum_pos (fun k _ => Real.exp_pos _) ⟨i, hi⟩)
  rw [hsum, hexp i hi, Ideal.div_coe hpos, ← EReal.coe_mul]
  exact ⟨_, rfl⟩

end Cert.Spec

end
-- ==== Proof.KSoftmax.lean ====
/-
  The softmax of the program's host operations, read at an index.  Per head `h`, over ALL edges: the maximum of the
  logits from −∞, the exponentials of the logits less that maximum, their sum from zero, and the quotient.  Read at
  edge `e` and head `h` it is the quotient of `exp (L (e,h) − M h)` by `0 + Σ_k exp (L k − M h)`, `k` over the entries of
  column `h` and `M h` the running maximum from ⊥ over them; for a family of finite reals that is a finite real.
-/
import proofs.«159076_j14929306321609_2_alg».proof.Proof.KStages
import proofs.«159076_j14929306321609_2_alg».proof.Proof.SpecLaw
import Idealize.ShloMosaic.PureOps.Ideal.Laws
import Idealize.ShloMosaic.PureOps.Reduce
import Idealize.ShloMosaic.Lib.Pipeline.Value
import Idealize.ShloMosaic.Lib.ValueIdx

noncomputable section

namespace Cert.KernelIdeal.Softmax

open Idealize.ShloMosaic Idealize.ShloMosaic.ValueIdx Cert.KernelIdeal Cert.KernelIdeal.Gen

/-- Dropping the edge axis of the index `(e, h)` leaves the head `h`. -/
theorem drop_ix2 (hred : S500000x4.ReducesTo [0] S4) (e : Fin 500000) (h : Fin 4) : hred.drop (ix2 e h) = ix1 h := by
  funext b
  match b with
  | ⟨0, _⟩ => exact Fin.ext rfl

/-- The entries of column `h`: the indices whose head is `h`. -/
abbrev colSet (h : Fin 4) : Finset S500000x4.Idx :=
  Finset.univ.filter (fun k : S500000x4.Idx => reducesTo_S500000x4_S4_d0.drop k = ix1 h)

theorem mem_colSet (e : Fin 500000) (h : Fin 4) : ix2 e h ∈ colSet h :=
  Finset.mem_filter.2 ⟨Finset.mem_univ _, drop_ix2 _ e h⟩

/-- Every entry of column `h` is `(e', h)` for some edge `e'`. -/
theorem eq_of_mem_colSet {h : Fin 4} {k : S500000x4.Idx} (hk : k ∈ colSet h) : ∃ e' : Fin 500000, k = ix2 e' h := by
  obtain ⟨e', h', rfl⟩ : ∃ e' h', k = ix2 e' h' := ⟨_, _, eq_ix2 k⟩
  have h1 := (Finset.mem_filter.1 hk).2
  rw [drop_ix2] at h1
  have h2 : h' = h := by
    have h3 := congrFun h1 ⟨0, Nat.zero_lt_one⟩
    exact h3
  exact ⟨e', by rw [h2]⟩

/-- A vector over the heads, made a row and repeated over the edges, read at `(e, h)`. -/
theorem bc_row (v : FVec Ideal S4 .f32) (e : Fin 500000) (h : Fin 4) :
    broadcastInDim S500000x4 ![0, 1] bcast_S1x4_S500000x4_0_1 (broadcastInDim S1x4 ![1] bcast_S4_S1x4_1 v) (ix2 e h)
      = v (ix1 h) := by
  refine (broadcastInDim_apply _ _ _ (ix2 e h) (ix2 0 h) ?_).trans (broadcastInDim_apply _ _ _ (ix2 0 h) (ix1 h) ?_)
  · intro a
    match a with
    | ⟨0, _⟩ => rfl
    | ⟨1, _⟩ => rfl
  · intro a
    match a with
    | ⟨0, _⟩ => rfl

/-- The word with sign and all exponent bits set and zero fraction denotes −∞. -/
theorem ofBits_neg_inf : Ideal.ofBits .f32 0xFF800000#32 = ⊥ := by
  simp [Ideal.ofBits, Ideal.ieee]

/-- The per-head maximum, repeated over the edges, read at `(e, h)`: the running maximum from ⊥ over column `h`. -/
theorem colMax_apply (L : FVec Ideal S500000x4 .f32) (e : Fin 500000) (h : Fin 4) :
    broadcastInDim S500000x4 ![0, 1] bcast_S1x4_S500000x4_0_1 (Stages.colMaxK L) (ix2 e h)
      = (colSet h).fold max ⊥ L := by
  unfold Stages.colMaxK
  rw [bc_row, Host.reduce_eq_fold]
  have hc : constant (F := Ideal) S_ .f32 0xFF800000#32 (Shape.Idx.first h_S_) = ⊥ := ofBits_neg_inf
  rw [hc]
  rfl

/-- The shifted exponential read at `(e, h)`. -/
theorem expShiftK_apply (L : FVec Ideal S500000x4 .f32) (e : Fin 500000) (h : Fin 4) :
    Stages.expShiftK L (ix2 e h) = Ideal.exp (L (ix2 e h) - (colSet h).fold max ⊥ L) := by
  have h1 : Stages.expShiftK L (ix2 e h)
      = Ideal.exp (L (ix2 e h) - broadcastInDim S500000x4 ![0, 1] bcast_S1x4_S500000x4_0_1 (Stages.colMaxK L) (ix2 e h)) := rfl
  rw [h1, colMax_apply]

/-- The sum from zero over all edges, read at head `h`. -/
theorem sumK_apply (X : FVec Ideal S500000x4 .f32) (h : Fin 4) :
    Host.reduceAdd (F := Ideal) X (constant (F := Ideal) S_ .f32 0x00000000#32)
        reducesTo_S500000x4_S4_d0 h_S_ (ix1 h)
      = Ideal.ofBits .f32 0x00000000#32 + ∑ k ∈ colSet h, X k := rfl

/-- The host's quotient of two arrays, read at an index. -/
theorem hostDivf_apply {S : Shape} (X Y : FVec Ideal S .f32) (i : S.Idx) :
    Host.divf (F := Ideal) X Y i = Ideal.div (X i) (Y i) := rfl

/-- The softmax is the quotient of the shifted exponentials by their per-head sums, repeated over the edges. -/
theorem softmaxK_eq (L : FVec Ideal S500000x4 .f32) :
    Stages.softmaxK L = Host.divf (F := Ideal) (Stages.expShiftK L)
      (broadcastInDim S500000x4 ![0, 1] bcast_S1x4_S500000x4_0_1
        (broadcastInDim S1x4 ![1] bcast_S4_S1x4_1
          (Host.reduceAdd (F := Ideal) (Stages.expShiftK L) (constant (F := Ideal) S_ .f32 0x00000000#32)
            reducesTo_S500000x4_S4_d0 h_S_))) := by
  unfold Stages.softmaxK
  rfl

theorem softmaxK_unfold (L : FVec Ideal S500000x4 .f32) (e : Fin 500000) (h : Fin 4) :
    Stages.softmaxK L (ix2 e h)
      = Ideal.div (Stages.expShiftK L (ix2 e h))
          (Host.reduceAdd (F := Ideal) (Stages.expShiftK L) (constant (F := Ideal) S_ .f32 0x00000000#32)
                reducesTo_S500000x4_S4_d0 h_S_ (ix1 h)) := by
  rw [softmaxK_eq, hostDivf_apply, bc_row]

/-- The softmax read at `(e, h)`. -/
theorem softmaxK_apply (L : FVec Ideal S500000x4 .f32) (e : Fin 500000) (h : Fin 4) :
    Stages.softmaxK L (ix2 e h)
      = Ideal.div (Ideal.exp (L (ix2 e h) - (colSet h).fold max ⊥ L))
          (0 + ∑ k ∈ colSet h, Ideal.exp (L k - (colSet h).fold max ⊥ L)) := by
  rw [softmaxK_unfold, expShiftK_apply]
  have h2 := sumK_apply (Stages.expShiftK L) h
  have hsum : ∑ k ∈ colSet h, Stages.expShiftK L k
      = ∑ k ∈ colSet h, Ideal.exp (L k - (colSet h).fold max ⊥ L) :=
    Finset.sum_congr rfl (fun k hk => by
      obtain ⟨e', rfl⟩ := eq_of_mem_colSet hk
      exact expShiftK_apply L e' h)
  rw [h2, Ideal.ofBits_zero_f32, hsum]

theorem softmaxK_real (L : FVec Ideal S500000x4 .f32) (hL : ∀ i, ∃ q : ℝ, L i = (q : EReal)) (i : S500000x4.Idx) :
    ∃ q : ℝ, Stages.softmaxK L i = (q : EReal) := by
  obtain ⟨e, h, rfl⟩ : ∃ e h, i = ix2 e h := ⟨_, _, eq_ix2 i⟩
  rw [softmaxK_apply]
  exact Cert.Spec.softmax_real (colSet h) L (ix2 e h) (mem_colSet e h) (fun k _ => hL k)

end Cert.KernelIdeal.Softmax

end
-- ==== Proof.BridgeStages.lean ====
/-
  The two programs' host stages compared.  Both read the edge list the same way (the same slices, reshapes, comparison
  with zero, addition of the node count and selection), gather rows of the same features (a change of float format in
  between is the identity on extended reals), and take the same softmax over all edges, except that the reference takes
  one more maximum against −∞, which changes nothing.  The kernel's edge bias is the product of the broadcast edge weight
  and head weight; the raw target column read at an edge is row 1 of the edge list at that edge.
-/
import proofs.«159076_j14929306321609_2_alg».proof.Proof.KStages
import proofs.«159076_j14929306321609_2_alg».proof.Proof.RefStages
import Idealize.ShloMosaic.Lib.IdealHost

set_option maxRecDepth 16384

noncomputable section

open Idealize.ShloMosaic Idealize.ShloMosaic.TcCoe Idealize.SL.Sem Idealize.ShloMosaic.ValueIdx
open Idealize.ShloMosaic.Pipeline (Dat)

namespace Cert.Bridge

open Cert.KernelIdeal
open Cert.KernelIdeal.Stages
open Cert.ReferenceIdeal.RefValue

theorem row1_eq (ei : IVec S2x500000 32) : Stages.row1 ei = Cert.ReferenceIdeal.RefValue.row1 ei := rfl

theorem xs_eq (x : FVec Ideal S50000x128 .f32) (ei : IVec S2x500000 32) :
    (xsK x ei : S500000x128.Idx → EReal) = xsR x ei := rfl

theorem xt_eq (x : FVec Ideal S50000x128 .f32) (ei : IVec S2x500000 32) :
    (xtK x ei : S500000x128.Idx → EReal) = xtR x ei := rfl

/-- The f32 word of −∞ is ⊥. -/
theorem ofBits_neg_inf : Ideal.ofBits .f32 0xFF800000#32 = (⊥ : EReal) := by
  simp [Ideal.ofBits, Ideal.ieee]

/-- One more maximum against −∞ changes nothing. -/
theorem max_neg_inf (M : FVec Ideal S4 .f32) :
    maximumf (broadcastInDim S4 ![] Cert.ReferenceIdeal.Facts₀.bcast_S_S4 (constant (F := Ideal) Cert.ReferenceIdeal.S_ .f32 0xFF800000#32)) M = M := by
  funext j
  rw [maximumf_apply, broadcastInDim_scalar_apply, constant_apply, ofBits_neg_inf]
  exact max_eq_right bot_le

/-- The two softmax chains are one function. -/
theorem colMax_eq (L : FVec Ideal S500000x4 .f32) : colMax L = colMaxK L := by
  unfold colMax colMaxK
  rw [max_neg_inf]

theorem expShift_eq (L : FVec Ideal S500000x4 .f32) : expShift L = expShiftK L := by
  unfold expShift expShiftK
  rw [colMax_eq]

theorem softmax_eq (L : FVec Ideal S500000x4 .f32) : refSoftmax L = softmaxK L := by
  unfold refSoftmax softmaxK
  rw [expShift_eq]

/-- The kernel's edge bias at edge `e` and head `h`. -/
theorem eb_apply (ew : FVec Ideal S500000x1 .f32) (We : FVec Ideal S1x4 .f32) (e : Fin 500000) (h : Fin 4) :
    ebK ew We (ix2 e h) = ew (ix2 e 0) * We (ix2 0 h) := by
  unfold ebK
  rw [mulf_apply]
  congr 1
  · refine broadcastInDim_apply _ _ _ _ _ fun a => ?_
    match a with
    | ⟨0, _⟩ => rfl
    | ⟨1, _⟩ => rfl
  · refine broadcastInDim_apply _ _ _ _ _ fun a => ?_
    match a with
    | ⟨0, _⟩ => rfl
    | ⟨1, _⟩ => rfl

/-- The scatter's index column at edge `e` is row 1 of the edge list at `e`. -/
theorem col_apply (r : IVec S500000 32) (e : Fin 500000) :
    broadcastInDim S500000x1 ![0] Facts₀.bcast_S500000_S500000x1_0 r (ix2 e 0) = r (ix1 e) := by
  refine broadcastInDim_apply _ _ _ _ _ fun a => ?_
  match a with
  | ⟨0, _⟩ => rfl

theorem tgtRaw_apply (ei : IVec S2x500000 32) (e : Fin 500000) : Cert.ReferenceIdeal.RefValue.tgtRaw ei (ix2 e 0) = Stages.row1 ei (ix1 e) :=
  col_apply _ e

end Cert.Bridge

end
-- ==== Proof.RefRead.lean ====
/-
  The reference's tail read at an index.  The tail takes the attention weights, the source rows, the raw target column
  and the weights to the layer's output: the weighted values (weight of (edge, head) times the value projection at the
  head's channel) are added into a zero array at the node each edge's target names, the (node, head, channel) array is
  flattened to 256 columns, multiplied by the 256×64 output matrix, and the bias is added.

  Read at (node n, output column o) this is the specification's "add up per node, then project, then the bias":
    (Σ_k (0 + Σ_{e : target e = n} a[e, k / 64] · v[e, k]) · Wout[k, o]) + b[o].
  The steps: a scatter-add from zero at (n, h, c) is zero plus the sum of the updates whose landing index is (n, h, c);
  the update of (e, h', c') lands on (target e read signed, h', c'), so those updates are the (e, h, c) with target e = n,
  and the sum over them is re-indexed by e.  The flattening sends column k to (k / 64, k % 64), whose column is k again.
  A plain matrix product at an index is the sum over the contracted coordinate, and the two bias broadcasts read b[o].
-/
import proofs.«159076_j14929306321609_2_alg».proof.Proof.RefStages
import proofs.«159076_j14929306321609_2_alg».proof.Proof.Spec
import proofs.«159076_j14929306321609_2_alg».proof.Proof.LibScatterSet
import Idealize.ShloMosaic.Lib.StackMember
import Idealize.ShloMosaic.Lib.IdealHost

noncomputable section

namespace Cert.ReferenceIdeal.RefValue

open Cert.ReferenceIdeal Cert.ReferenceIdeal.Gen Idealize.ShloMosaic Idealize.ShloMosaic.ValueIdx
open scoped BigOperators

/-! ## The steps -/

namespace TailRead

/-- The scatter's dimension numbers. -/
abbrev SD : ScatterDims S50000x4x64 S500000x1 S500000x4x64 := scatter_S50000x4x64_S500000x1_S500000x4x64_12_0_0_1

/-- On the node axis an update's window starts at its edge's target, read signed … -/
theorem sd_start0 (tgt : IVec S500000x1 32) (e : Fin 500000) (h : Fin 4) (c : Fin 64) :
    SD.start (ix3 e h c) tgt (0 : Fin 3) = (tgt (ix2 e 0)).toInt := by
  unfold ScatterDims.start
  rw [dif_pos (by decide)]
  refine congrArg (fun k => (tgt k).toInt) ?_
  funext b
  match b with
  | ⟨0, _⟩ => rfl
  | ⟨1, _⟩ => rfl

/-- … and at zero on the head and channel axes. -/
theorem sd_start1 (tgt : IVec S500000x1 32) (e : Fin 500000) (h : Fin 4) (c : Fin 64) :
    SD.start (ix3 e h c) tgt (1 : Fin 3) = 0 := by
  unfold ScatterDims.start
  rw [dif_neg (by decide)]

theorem sd_start2 (tgt : IVec S500000x1 32) (e : Fin 500000) (h : Fin 4) (c : Fin 64) :
    SD.start (ix3 e h c) tgt (2 : Fin 3) = 0 := by
  unfold ScatterDims.start
  rw [dif_neg (by decide)]

/-- The window coordinate is zero on the node axis, the update's head and channel on the other two. -/
theorem sd_window0 (e : Fin 500000) (h : Fin 4) (c : Fin 64) : SD.window (ix3 e h c) (0 : Fin 3) = 0 := by
  unfold ScatterDims.window
  rw [dif_neg (by decide)]

theorem sd_window1 (e : Fin 500000) (h : Fin 4) (c : Fin 64) : SD.window (ix3 e h c) (1 : Fin 3) = h.val := by
  unfold ScatterDims.window
  rw [dif_pos (by decide)]
  rfl

theorem sd_window2 (e : Fin 500000) (h : Fin 4) (c : Fin 64) : SD.window (ix3 e h c) (2 : Fin 3) = c.val := by
  unfold ScatterDims.window
  rw [dif_pos (by decide)]
  rfl

/-- Where an update lands: the update of edge `e`, head `h'`, channel `c'` lands on (node `n`, head `h`, channel `c`)
    exactly when the edge's target, read signed, is `n` and the head and channel agree. -/
theorem sd_hit_iff (tgt : IVec S500000x1 32) (e : Fin 500000) (h' : Fin 4) (c' : Fin 64) (n : Fin 50000) (h : Fin 4)
    (c : Fin 64) :
    SD.resultIdx? (ix3 e h' c') tgt = some (ix3 n h c) ↔ (tgt (ix2 e 0)).toInt = (n.val : ℤ) ∧ h' = h ∧ c' = c := by
  rw [ScatterDims.resultIdx?_eq_some_iff]
  constructor
  · intro H
    have h0 : SD.start (ix3 e h' c') tgt (0 : Fin 3) + (SD.window (ix3 e h' c') (0 : Fin 3) : ℤ) = (n.val : ℤ) := H 0
    have h1 : SD.start (ix3 e h' c') tgt (1 : Fin 3) + (SD.window (ix3 e h' c') (1 : Fin 3) : ℤ) = (h.val : ℤ) := H 1
    have h2 : SD.start (ix3 e h' c') tgt (2 : Fin 3) + (SD.window (ix3 e h' c') (2 : Fin 3) : ℤ) = (c.val : ℤ) := H 2
    rw [sd_start0, sd_window0] at h0
    rw [sd_start1, sd_window1] at h1
    rw [sd_start2, sd_window2] at h2
    refine ⟨by simpa using h0, Fin.ext (by omega), Fin.ext (by omega)⟩
  · rintro ⟨h0, rfl, rfl⟩ a
    match a with
    | ⟨0, _⟩ =>
      show SD.start (ix3 e h' c') tgt (0 : Fin 3) + (SD.window (ix3 e h' c') (0 : Fin 3) : ℤ) = (n.val : ℤ)
      rw [sd_start0, sd_window0, h0]; simp
    | ⟨1, _⟩ =>
      show SD.start (ix3 e h' c') tgt (1 : Fin 3) + (SD.window (ix3 e h' c') (1 : Fin 3) : ℤ) = (h'.val : ℤ)
      rw [sd_start1, sd_window1]; simp
    | ⟨2, _⟩ =>
      show SD.start (ix3 e h' c') tgt (2 : Fin 3) + (SD.window (ix3 e h' c') (2 : Fin 3) : ℤ) = (c'.val : ℤ)
      rw [sd_start2, sd_window2]; simp

/-- The scatter-add from zero read at (node, head, channel): zero plus the sum, over the edges whose target is the
    node, of the update at (edge, head, channel). -/
theorem scatter_read (tgt : IVec S500000x1 32) (upd : FVec Ideal S500000x4x64 .f32) (n : Fin 50000) (h : Fin 4)
    (c : Fin 64) :
    Host.scatterAdd (F := Ideal) SD
        (broadcastInDim S50000x4x64 ![] bcast_S_S50000x4x64 (constant (F := Ideal) S_ .f32 0x00000000#32)) tgt upd (ix3 n h c)
      = 0 + ∑ e ∈ Finset.univ.filter (fun e : Fin 500000 => (tgt (ix2 e 0)).toInt = (n.val : ℤ)), upd (ix3 e h c) := by
  show Ideal.ofBits .f32 0x00000000#32
      + ∑ j ∈ Finset.univ.filter (fun j : S500000x4x64.Idx => SD.resultIdx? j tgt = some (ix3 n h c)), upd j = _
  rw [Ideal.ofBits_zero_f32]
  refine congrArg (fun z : EReal => 0 + z) ?_
  refine Finset.sum_nbij' (fun j : S500000x4x64.Idx => (j 0 : Fin 500000)) (fun e : Fin 500000 => ix3 e h c) ?_ ?_ ?_ ?_ ?_
  · intro j hj
    obtain ⟨e, h', c', rfl⟩ : ∃ (e : Fin 500000) (h' : Fin 4) (c' : Fin 64), j = ix3 e h' c' := ⟨j 0, j 1, j 2, eq_ix3 j⟩
    rw [Finset.mem_filter] at hj ⊢
    exact ⟨Finset.mem_univ _, ((sd_hit_iff tgt e h' c' n h c).mp hj.2).1⟩
  · intro e he
    rw [Finset.mem_filter] at he ⊢
    exact ⟨Finset.mem_univ _, (sd_hit_iff tgt e h c n h c).mpr ⟨he.2, rfl, rfl⟩⟩
  · intro j hj
    obtain ⟨e, h', c', rfl⟩ : ∃ (e : Fin 500000) (h' : Fin 4) (c' : Fin 64), j = ix3 e h' c' := ⟨j 0, j 1, j 2, eq_ix3 j⟩
    rw [Finset.mem_filter] at hj
    obtain ⟨-, rfl, rfl⟩ := (sd_hit_iff tgt e h' c' n h c).mp hj.2
    rfl
  · intro e he
    rfl
  · intro j hj
    obtain ⟨e, h', c', rfl⟩ : ∃ (e : Fin 500000) (h' : Fin 4) (c' : Fin 64), j = ix3 e h' c' := ⟨j 0, j 1, j 2, eq_ix3 j⟩
    rw [Finset.mem_filter] at hj
    obtain ⟨-, rfl, rfl⟩ := (sd_hit_iff tgt e h' c' n h c).mp hj.2
    rfl

/-- A 128-wide row times a 128×256 matrix, read at (row, column): the sum over the 128 features. -/
theorem dot128_apply (r : FVec Ideal S500000x128 .f32) (W : FVec Ideal S128x256 .f32) (e : Fin 500000) (j : Fin 256) :
    Host.dotGeneral (F := Ideal) dot_S500000x128_S128x256_S500000x256_1_0_0_1_n_n none r W (ix2 e j)
      = ∑ i : Fin 128, r (ix2 e i) * W (ix2 i j) :=
  StackMember.dotGeneral_plain_apply (m := 500000) (n := 256) (k := 128) none r W e j

/-- The projected row split into heads, read at (row, head, channel): the projection at the head's column. -/
theorem headProj_apply (r : FVec Ideal S500000x128 .f32) (W : FVec Ideal S128x256 .f32) (e : Fin 500000) (h : Fin 4)
    (c : Fin 64) :
    headProj r W (ix3 e h c) = Spec.proj (fun e i => r (ix2 e i)) (fun i j => W (ix2 i j)) e (Spec.col h c) := by
  unfold headProj
  rw [shapeCast_apply _ shapeCasts_S500000x256_S500000x4x64 (ix3 e h c) (ix2 e (Spec.col h c)) (by
    rw [Shape.rowMajor_val_two, Shape.rowMajor_val_three]
    show e.val * 256 + (h.val * 64 + c.val) = (e.val * 4 + h.val) * 64 + c.val
    omega)]
  exact dot128_apply r W e (Spec.col h c)

/-- The attention weight broadcast along the channels, read at (edge, head, channel): the weight at (edge, head). -/
theorem bcastHead_apply (a : FVec Ideal S500000x4 .f32) (e : Fin 500000) (h : Fin 4) (c : Fin 64) :
    broadcastInDim S500000x4x64 ![0, 1, 2] bcast_S500000x4x1_S500000x4x64_0_1_2
        (broadcastInDim S500000x4x1 ![0, 1] bcast_S500000x4_S500000x4x1_0_1 a) (ix3 e h c) = a (ix2 e h) := by
  rw [broadcastInDim_apply _ bcast_S500000x4x1_S500000x4x64_0_1_2 _ (ix3 e h c) (ix3 e h (0 : Fin 1)) (by
    intro ax
    match ax with
    | ⟨0, _⟩ => rfl
    | ⟨1, _⟩ => rfl
    | ⟨2, _⟩ => rfl)]
  exact broadcastInDim_apply _ bcast_S500000x4_S500000x4x1_0_1 a (ix3 e h (0 : Fin 1)) (ix2 e h) (by
    intro ax
    match ax with
    | ⟨0, _⟩ => rfl
    | ⟨1, _⟩ => rfl)

/-- The weighted value read at (edge, head, channel). -/
theorem weighted_apply (a : FVec Ideal S500000x4 .f32) (xs : FVec Ideal S500000x128 .f32) (Wv : FVec Ideal S128x256 .f32)
    (e : Fin 500000) (h : Fin 4) (c : Fin 64) :
    weighted a xs Wv (ix3 e h c)
      = a (ix2 e h) * Spec.proj (fun e i => xs (ix2 e i)) (fun i j => Wv (ix2 i j)) e (Spec.col h c) := by
  unfold weighted
  rw [mulf_apply, bcastHead_apply, headProj_apply]

/-- A column of the 256 is the column of its head and channel. -/
theorem col_div_mod (k : Fin 256) : Spec.col (Spec.headOf k) ⟨k.val % 64, Nat.mod_lt _ (by decide)⟩ = k := by
  apply Fin.ext
  show k.val / 64 * 64 + k.val % 64 = k.val
  omega

/-- The per-node sums flattened to 256 columns, read at (node, column). -/
theorem aggregated_apply (a : FVec Ideal S500000x4 .f32) (xs : FVec Ideal S500000x128 .f32) (tgt : IVec S500000x1 32)
    (Wv : FVec Ideal S128x256 .f32) (n : Fin 50000) (k : Fin 256) :
    aggregated a xs tgt Wv (ix2 n k)
      = 0 + ∑ e ∈ Finset.univ.filter (fun e : Fin 500000 => (tgt (ix2 e 0)).toInt = (n.val : ℤ)),
          a (ix2 e (Spec.headOf k)) * Spec.proj (fun e i => xs (ix2 e i)) (fun i j => Wv (ix2 i j)) e k := by
  unfold aggregated
  rw [shapeCast_apply _ shapeCasts_S50000x4x64_S50000x256 (ix2 n k)
    (ix3 n (Spec.headOf k) (⟨k.val % 64, Nat.mod_lt _ (by decide)⟩ : Fin 64)) (by
      rw [Shape.rowMajor_val_two, Shape.rowMajor_val_three]
      show (n.val * 4 + k.val / 64) * 64 + k.val % 64 = n.val * 256 + k.val
      omega)]
  refine (scatter_read tgt (weighted a xs Wv) n (Spec.headOf k) _).trans ?_
  refine congrArg (fun z : EReal => 0 + z) (Finset.sum_congr rfl fun e _ => ?_)
  rw [weighted_apply, col_div_mod]

/-- The bias broadcast to every node, read at (node, output column). -/
theorem bcastBias_apply (b : FVec Ideal S64 .f32) (n : Fin 50000) (o : Fin 64) :
    broadcastInDim S50000x64 ![0, 1] bcast_S1x64_S50000x64_0_1 (broadcastInDim S1x64 ![1] bcast_S64_S1x64_1 b) (ix2 n o)
      = b (ix1 o) := by
  rw [broadcastInDim_apply _ bcast_S1x64_S50000x64_0_1 _ (ix2 n o) (ix2 (0 : Fin 1) o) (by
    intro ax
    match ax with
    | ⟨0, _⟩ => rfl
    | ⟨1, _⟩ => rfl)]
  exact broadcastInDim_apply _ bcast_S64_S1x64_1 b (ix2 (0 : Fin 1) o) (ix1 o) (by
    intro ax
    match ax with
    | ⟨0, _⟩ => rfl)

/-- A 256-wide row times the 256×64 output matrix, read at (node, output column). -/
theorem dot256_apply (r : FVec Ideal S50000x256 .f32) (W : FVec Ideal S256x64 .f32) (n : Fin 50000) (o : Fin 64) :
    Host.dotGeneral (F := Ideal) dot_S50000x256_S256x64_S50000x64_1_0_0_1_n_n none r W (ix2 n o)
      = ∑ k : Fin 256, r (ix2 n k) * W (ix2 k o) :=
  StackMember.dotGeneral_plain_apply (m := 50000) (n := 64) (k := 256) none r W n o

end TailRead

open TailRead

/-- THE TAIL READ AT (node, output column): the specification's "add up per node, then project, then the bias". -/
theorem refTail_apply (a : FVec Ideal S500000x4 .f32) (xs : FVec Ideal S500000x128 .f32) (tgt : IVec S500000x1 32)
    (Wv : FVec Ideal S128x256 .f32) (Wout : FVec Ideal S256x64 .f32) (b : FVec Ideal S64 .f32) (n : Fin 50000) (o : Fin 64) :
    refTail a xs tgt Wv Wout b (ix2 n o)
      = Spec.outR (fun e => (tgt (ix2 e 0)).toInt) (fun e h => a (ix2 e h))
          (Spec.proj (fun e i => xs (ix2 e i)) (fun i j => Wv (ix2 i j))) (fun j o => Wout (ix2 j o)) (fun o => b (ix1 o)) n o := by
  unfold refTail Spec.outR
  rw [addf_apply, bcastBias_apply, dot256_apply]
  refine congrArg (fun z : EReal => z + b (ix1 o)) (Finset.sum_congr rfl fun k _ => ?_)
  rw [aggregated_apply]

end Cert.ReferenceIdeal.RefValue

end
-- ==== Proof.RefLogitsRead.lean ====
/-
  The reference's logits read at an index, on the extended reals: the head projection (a row times a 128×256 matrix,
  reshaped to 4 heads of 64 channels) is the specification's projection at the head's column; the sum over the channels
  from the zero constant is the plain sum; dividing by the square root of the constant 64 is multiplying by one eighth;
  the edge bias is a contraction over one element; the rectifier is a comparison with zero and a selection.  Together:
  the reference's logit of edge `e` and head `h` is the specification's.
-/
import proofs.«159076_j14929306321609_2_alg».proof.Proof.RefStages
import proofs.«159076_j14929306321609_2_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx

namespace LogitsRead

theorem lhs_rproj_0 (i : S500000x256.Idx) (q : dot_S500000x128_S128x256_S500000x256_1_0_0_1_n_n.contr.Idx) :
    (dot_S500000x128_S128x256_S500000x256_1_0_0_1_n_n.lhsIdx i q 0).val = (i 0).val := by
  unfold DotDims.lhsIdx
  rw [dif_neg (show ¬(0 : Fin S500000x128.rank) ∈ dot_S500000x128_S128x256_S500000x256_1_0_0_1_n_n.lhsBatch by decide), dif_pos (show (0 : Fin S500000x128.rank) ∈ dot_S500000x128_S128x256_S500000x256_1_0_0_1_n_n.lhsNonContracting by decide)]
  rfl
theorem lhs_rproj_1 (i : S500000x256.Idx) (q : dot_S500000x128_S128x256_S500000x256_1_0_0_1_n_n.contr.Idx) :
    (dot_S500000x128_S128x256_S500000x256_1_0_0_1_n_n.lhsIdx i q 1).val = (q ⟨0, by decide⟩).val :=
  dot_S500000x128_S128x256_S500000x256_1_0_0_1_n_n.lhsIdx_val_of_single rfl i q
theorem rhs_rproj_0 (i : S500000x256.Idx) (q : dot_S500000x128_S128x256_S500000x256_1_0_0_1_n_n.contr.Idx) :
    (dot_S500000x128_S128x256_S500000x256_1_0_0_1_n_n.rhsIdx i q 0).val = (q ⟨0, by decide⟩).val :=
  dot_S500000x128_S128x256_S500000x256_1_0_0_1_n_n.rhsIdx_val_of_single rfl i q
theorem rhs_rproj_1 (i : S500000x256.Idx) (q : dot_S500000x128_S128x256_S500000x256_1_0_0_1_n_n.contr.Idx) :
    (dot_S500000x128_S128x256_S500000x256_1_0_0_1_n_n.rhsIdx i q 1).val = (i 1).val := by
  unfold DotDims.rhsIdx
  rw [dif_neg (show ¬(1 : Fin S128x256.rank) ∈ dot_S500000x128_S128x256_S500000x256_1_0_0_1_n_n.rhsBatch by decide), dif_pos (show (1 : Fin S128x256.rank) ∈ dot_S500000x128_S128x256_S500000x256_1_0_0_1_n_n.rhsNonContracting by decide)]
  rfl

end LogitsRead

open LogitsRead in
/-- The host's product of the edge rows with a 128×256 matrix, at edge `r` and column `j`. -/
theorem hostProj_apply (x : FVec Ideal S500000x128 .f32) (w : FVec Ideal S128x256 .f32) (r : Fin 500000) (j : Fin 256) :
    Host.dotGeneral (F := Ideal) dot_S500000x128_S128x256_S500000x256_1_0_0_1_n_n none x w (ix2 r j) = ∑ i : Fin 128, x (ix2 r i) * w (ix2 i j) := by
  refine (Ideal.dotGeneral_apply dot_S500000x128_S128x256_S500000x256_1_0_0_1_n_n none .single x w (ix2 r j)).trans ?_
  rw [← Equiv.sum_comp (contrEquiv1 dot_S500000x128_S128x256_S500000x256_1_0_0_1_n_n 128 rfl rfl).symm]
  refine Finset.sum_congr rfl fun k _ => ?_
  have hk := contrEquiv1_symm_val dot_S500000x128_S128x256_S500000x256_1_0_0_1_n_n 128 rfl rfl k
  have el : dot_S500000x128_S128x256_S500000x256_1_0_0_1_n_n.lhsIdx (ix2 r j) ((contrEquiv1 dot_S500000x128_S128x256_S500000x256_1_0_0_1_n_n 128 rfl rfl).symm k) = ix2 r k :=
    funext fun a => Fin.ext (by
      match a with
      | ⟨0, _⟩ => exact lhs_rproj_0 _ _
      | ⟨1, _⟩ => exact (lhs_rproj_1 _ _).trans hk)
  have er : dot_S500000x128_S128x256_S500000x256_1_0_0_1_n_n.rhsIdx (ix2 r j) ((contrEquiv1 dot_S500000x128_S128x256_S500000x256_1_0_0_1_n_n 128 rfl rfl).symm k) = ix2 k j :=
    funext fun a => Fin.ext (by
      match a with
      | ⟨0, _⟩ => exact (rhs_rproj_0 _ _).trans hk
      | ⟨1, _⟩ => exact rhs_rproj_1 _ _)
  rw [el, er]

namespace LogitsRead

theorem lhs_rbias_0 (i : S500000x4.Idx) (q : dot_S500000x1_S1x4_S500000x4_1_0_0_1_n_n.contr.Idx) :
    (dot_S500000x1_S1x4_S500000x4_1_0_0_1_n_n.lhsIdx i q 0).val = (i 0).val := by
  unfold DotDims.lhsIdx
  rw [dif_neg (show ¬(0 : Fin S500000x1.rank) ∈ dot_S500000x1_S1x4_S500000x4_1_0_0_1_n_n.lhsBatch by decide), dif_pos (show (0 : Fin S500000x1.rank) ∈ dot_S500000x1_S1x4_S500000x4_1_0_0_1_n_n.lhsNonContracting by decide)]
  rfl
theorem lhs_rbias_1 (i : S500000x4.Idx) (q : dot_S500000x1_S1x4_S500000x4_1_0_0_1_n_n.contr.Idx) :
    (dot_S500000x1_S1x4_S500000x4_1_0_0_1_n_n.lhsIdx i q 1).val = (q ⟨0, by decide⟩).val :=
  dot_S500000x1_S1x4_S500000x4_1_0_0_1_n_n.lhsIdx_val_of_single rfl i q
theorem rhs_rbias_0 (i : S500000x4.Idx) (q : dot_S500000x1_S1x4_S500000x4_1_0_0_1_n_n.contr.Idx) :
    (dot_S500000x1_S1x4_S500000x4_1_0_0_1_n_n.rhsIdx i q 0).val = (q ⟨0, by decide⟩).val :=
  dot_S500000x1_S1x4_S500000x4_1_0_0_1_n_n.rhsIdx_val_of_single rfl i q
theorem rhs_rbias_1 (i : S500000x4.Idx) (q : dot_S500000x1_S1x4_S500000x4_1_0_0_1_n_n.contr.Idx) :
    (dot_S500000x1_S1x4_S500000x4_1_0_0_1_n_n.rhsIdx i q 1).val = (i 1).val := by
  unfold DotDims.rhsIdx
  rw [dif_neg (show ¬(1 : Fin S1x4.rank) ∈ dot_S500000x1_S1x4_S500000x4_1_0_0_1_n_n.rhsBatch by decide), dif_pos (show (1 : Fin S1x4.rank) ∈ dot_S500000x1_S1x4_S500000x4_1_0_0_1_n_n.rhsNonContracting by decide)]
  rfl

end LogitsRead

open LogitsRead in
/-- The host's product of the edge-weight column with the 1×4 bias row, at edge `r` and head `j`, as a sum over one element. -/
theorem LogitsRead.hostBias_sum (x : FVec Ideal S500000x1 .f32) (w : FVec Ideal S1x4 .f32) (r : Fin 500000) (j : Fin 4) :
    Host.dotGeneral (F := Ideal) dot_S500000x1_S1x4_S500000x4_1_0_0_1_n_n none x w (ix2 r j) = ∑ i : Fin 1, x (ix2 r i) * w (ix2 i j) := by
  refine (Ideal.dotGeneral_apply dot_S500000x1_S1x4_S500000x4_1_0_0_1_n_n none .single x w (ix2 r j)).trans ?_
  rw [← Equiv.sum_comp (contrEquiv1 dot_S500000x1_S1x4_S500000x4_1_0_0_1_n_n 1 rfl rfl).symm]
  refine Finset.sum_congr rfl fun k _ => ?_
  have hk := contrEquiv1_symm_val dot_S500000x1_S1x4_S500000x4_1_0_0_1_n_n 1 rfl rfl k
  have el : dot_S500000x1_S1x4_S500000x4_1_0_0_1_n_n.lhsIdx (ix2 r j) ((contrEquiv1 dot_S500000x1_S1x4_S500000x4_1_0_0_1_n_n 1 rfl rfl).symm k) = ix2 r k :=
    funext fun a => Fin.ext (by
      match a with
      | ⟨0, _⟩ => exact lhs_rbias_0 _ _
      | ⟨1, _⟩ => exact (lhs_rbias_1 _ _).trans hk)
  have er : dot_S500000x1_S1x4_S500000x4_1_0_0_1_n_n.rhsIdx (ix2 r j) ((contrEquiv1 dot_S500000x1_S1x4_S500000x4_1_0_0_1_n_n 1 rfl rfl).symm k) = ix2 k j :=
    funext fun a => Fin.ext (by
      match a with
      | ⟨0, _⟩ => exact (rhs_rbias_0 _ _).trans hk
      | ⟨1, _⟩ => exact rhs_rbias_1 _ _)
  rw [el, er]

/-- The edge bias: a contraction over one element is the one product. -/
theorem hostBias_apply (ew : FVec Ideal S500000x1 .f32) (We : FVec Ideal S1x4 .f32) (e : Fin 500000) (h : Fin 4) :
    Host.dotGeneral (F := Ideal) dot_S500000x1_S1x4_S500000x4_1_0_0_1_n_n none ew We (ix2 e h) = ew (ix2 e 0) * We (ix2 0 h) := by
  rw [LogitsRead.hostBias_sum]
  exact Fin.sum_univ_one _

/-- The head projection at edge `e`, head `h`, channel `c` is the projection at column 64·h + c. -/
theorem headProj_apply (r : FVec Ideal S500000x128 .f32) (W : FVec Ideal S128x256 .f32) (e : Fin 500000) (h : Fin 4) (c : Fin 64) :
    headProj r W (ix3 e h c) = Spec.proj (fun e i => r (ix2 e i)) (fun i j => W (ix2 i j)) e (Spec.col h c) := by
  unfold headProj
  refine (shapeCast_apply _ shapeCasts_S500000x256_S500000x4x64 (ix3 e h c) (ix2 e (Spec.col h c)) ?_).trans
    (hostProj_apply r W e (Spec.col h c))
  rw [Shape.rowMajor_val_two, Shape.rowMajor_val_three]
  show e.val * 256 + (h.val * 64 + c.val) = (e.val * 4 + h.val) * 64 + c.val
  omega

/-- The 3-axis shape's reduction over its last axis, as the witness that names the inserted index. -/
theorem LogitsRead.reduces_heads : S500000x4x64.Reduces [2] S500000x4 := by decide

/-- The host's sum over the 64 channels from the zero constant is the plain sum. -/
theorem sumChannels_apply (x : FVec Ideal S500000x4x64 .f32) (e : Fin 500000) (h : Fin 4) :
    Host.reduceAdd (F := Ideal) x (constant (F := Ideal) S_ .f32 0x00000000#32) reducesTo_S500000x4x64_S500000x4_d2 h_S_ (ix2 e h)
      = ∑ c : Fin 64, x (ix3 e h c) := by
  rw [hostReduceAdd_apply]
  refine (Ideal.hostReduceAdd_single reducesTo_S500000x4x64_S500000x4_d2 LogitsRead.reduces_heads x _ (ix2 e h)).trans ?_
  rw [constant_apply, Ideal.ofBits_zero_f32, zero_add]
  refine Finset.sum_congr rfl fun c _ => congrArg x ?_
  funext a
  match a with
  | ⟨0, _⟩ => rfl
  | ⟨1, _⟩ => rfl
  | ⟨2, _⟩ => rfl

/-- The f32 word 0x42800000 is 64. -/
theorem LogitsRead.sixtyFour : Ideal.ofBits .f32 0x42800000#32 = ((64 : ℝ) : EReal) := by
  simp [Ideal.ofBits, Ideal.ieee, -EReal.coe_mul]; norm_num

/-- The square root of 64 is 8. -/
theorem LogitsRead.sqrt64 : Ideal.sqrt (Ideal.ofBits .f32 0x42800000#32) = ((8 : ℝ) : EReal) := by
  rw [LogitsRead.sixtyFour, Ideal.sqrt_coe, if_neg (by norm_num)]
  refine congrArg _ ?_
  rw [show (64 : ℝ) = 8 ^ 2 by norm_num]
  exact Real.sqrt_sq (by norm_num)

/-- Dividing by the broadcast square root of the constant 64 is multiplying by one eighth. -/
theorem divSqrt_apply (x : FVec Ideal S500000x4 .f32) (e : Fin 500000) (h : Fin 4) :
    Host.divf (F := Ideal) x
        (broadcastInDim S500000x4 ![] bcast_S_S500000x4 (Host.sqrt (F := Ideal) (constant (F := Ideal) S_ .f32 0x42800000#32))) (ix2 e h)
      = x (ix2 e h) * ((1 / 8 : ℝ) : EReal) := by
  rw [hostDivf_apply, broadcastInDim_scalar_apply]
  show Ideal.div (x (ix2 e h)) (Ideal.sqrt (Ideal.ofBits .f32 0x42800000#32)) = _
  rw [LogitsRead.sqrt64]
  exact Ideal.div_coe (by norm_num) _

/-- The logits before the rectifier, at edge `e` and head `h`. -/
theorem preLogits_apply (xt xs : FVec Ideal S500000x128 .f32) (ew : FVec Ideal S500000x1 .f32) (Wq Wk : FVec Ideal S128x256 .f32)
    (We : FVec Ideal S1x4 .f32) (e : Fin 500000) (h : Fin 4) :
    preLogits xt xs ew Wq Wk We (ix2 e h)
      = Spec.score (fun e i => xt (ix2 e i)) (fun e i => xs (ix2 e i)) (fun i j => Wq (ix2 i j)) (fun i j => Wk (ix2 i j)) e h
          * ((1 / 8 : ℝ) : EReal) + ew (ix2 e 0) * We (ix2 0 h) := by
  unfold preLogits
  rw [addf_apply, divSqrt_apply, sumChannels_apply, hostBias_apply]
  unfold Spec.score
  refine congrArg₂ (· + ·) (congrArg (· * ((1 / 8 : ℝ) : EReal)) (Finset.sum_congr rfl fun c _ => ?_)) rfl
  rw [mulf_apply, headProj_apply, headProj_apply]

/-- The host's leaky rectifier at an index is the specification's, for the slope word the specification names. -/
theorem leakyRelu_apply (z : FVec Ideal S500000x4 .f32) (i : S500000x4.Idx) :
    leakyRelu z (constant (F := Ideal) S_ .f32 0x3E4CCCCD#32) i = Spec.leaky (z i) := by
  unfold leakyRelu
  rw [select_apply, cmpf_apply, mulf_apply, broadcastInDim_scalar_apply, broadcastInDim_scalar_apply]
  show Scalar.select (BitVec.ofBool (decide (Ideal.ofBits .f32 0x00000000#32 ≤ z i))) (z i) (Ideal.ofBits .f32 0x3E4CCCCD#32 * z i) = _
  rw [Ideal.ofBits_zero_f32]
  unfold Spec.leaky Spec.slope
  by_cases hz : (0 : EReal) ≤ z i
  · rw [if_pos hz, decide_eq_true hz]; exact select_one _ _
  · rw [if_neg hz, decide_eq_false hz]; exact select_zero _ _

/-- The reference's logit of edge `e` and head `h` is the specification's logit of the gathered rows, with the edge bias
    the edge weight times the head's bias entry. -/
theorem refLogits_apply (xt xs : FVec Ideal S500000x128 .f32) (ew : FVec Ideal S500000x1 .f32) (Wq Wk : FVec Ideal S128x256 .f32) (We : FVec Ideal S1x4 .f32) (e : Fin 500000) (h : Fin 4) :
    refLogits xt xs ew Wq Wk We (ix2 e h) = Spec.logit (fun e i => xt (ix2 e i)) (fun e i => xs (ix2 e i)) (fun i j => Wq (ix2 i j)) (fun i j => Wk (ix2 i j)) (fun e h => ew (ix2 e 0) * We (ix2 0 h)) e h := by
  unfold refLogits
  rw [leakyRelu_apply, preLogits_apply]
  rfl

end Cert.ReferenceIdeal.RefValue

end
-- ==== Proof.Bridge.lean ====
/-
  The two programs compute one function.  Both take the same logits (the kernel's region and the reference's host
  operations both give the specification's logit of the same gathered rows, the same weights and the same edge bias) and
  the same softmax of them; the kernel then projects every edge's weighted values by the output weights and adds the
  edges of a node up, the reference adds the weighted values of a node's edges up and projects the sum.  The two orders
  agree because every value in sight is a finite real: the features and weights by the precondition, a gathered row
  because it is a row of the features, a logit as sums and products of reals, an attention weight as a softmax weight
  of real logits.
-/
import proofs.«159076_j14929306321609_2_alg».proof.Proof.KValue
import proofs.«159076_j14929306321609_2_alg».proof.Proof.KTail
import proofs.«159076_j14929306321609_2_alg».proof.Proof.KSoftmax
import proofs.«159076_j14929306321609_2_alg».proof.Proof.BridgeStages
import proofs.«159076_j14929306321609_2_alg».proof.Proof.RefRead
import proofs.«159076_j14929306321609_2_alg».proof.Proof.RefLogitsRead
import proofs.«159076_j14929306321609_2_alg».proof.Proof.SpecLaw

set_option maxRecDepth 16384

noncomputable section

open Idealize.ShloMosaic Idealize.ShloMosaic.TcCoe Idealize.SL.Sem Idealize.ShloMosaic.ValueIdx
open Idealize.ShloMosaic.Pipeline (Dat)

namespace Cert.Bridge

open Cert.KernelIdeal
open Cert.KernelIdeal.Stages
open Cert.ReferenceIdeal.RefValue

section
variable (x : FVec Ideal S50000x128 .f32) (ei : IVec S2x500000 32) (ew : FVec Ideal S500000x1 .f32)
  (Wq Wk Wv : FVec Ideal S128x256 .f32) (We : FVec Ideal S1x4 .f32) (Wout : FVec Ideal S256x64 .f32) (b : FVec Ideal S64 .f32)

/-- The two arrays of logits are one array. -/
theorem logits_eq :
    Arr0.logitArr (xtK x ei) (xsK x ei) (wbf Wq) (wbf Wk) (ebK ew We) = refLogits (xtR x ei) (xsR x ei) ew Wq Wk We := by
  funext i
  obtain ⟨e, h, rfl⟩ : ∃ (e : Fin 500000) (h : Fin 4), i = ix2 e h := ⟨i 0, i 1, eq_ix2 i⟩
  rw [refLogits_apply]
  show Spec.logit _ _ _ _ _ e h = _
  exact Spec.logit_congr (fun _ => rfl) (fun _ => rfl) (fun _ _ => rfl) (fun _ _ => rfl) (fun h => eb_apply ew We e h) h

variable (hx : ∀ i, ∃ q : ℝ, x i = (q : EReal)) (hew : ∀ i, ∃ q : ℝ, ew i = (q : EReal))
  (hWq : ∀ i, ∃ q : ℝ, Wq i = (q : EReal)) (hWk : ∀ i, ∃ q : ℝ, Wk i = (q : EReal)) (hWv : ∀ i, ∃ q : ℝ, Wv i = (q : EReal))
  (hWe : ∀ i, ∃ q : ℝ, We i = (q : EReal)) (hWout : ∀ i, ∃ q : ℝ, Wout i = (q : EReal))

include hx in
/-- A gathered row is a row of the features: real. -/
theorem xs_real (e : Fin 500000) (k : Fin 128) : ∃ q : ℝ, (xsK x ei (ix2 e k) : EReal) = (q : EReal) :=
  hx (gather_S50000x128_S500000x1_S500000x128_1_0_n_n_0_1_1128.operandIdx (ix2 e k) (Stages.idxS ei))

include hx in
theorem xt_real (e : Fin 500000) (k : Fin 128) : ∃ q : ℝ, (xtK x ei (ix2 e k) : EReal) = (q : EReal) :=
  hx (gather_S50000x128_S500000x1_S500000x128_1_0_n_n_0_1_1128.operandIdx (ix2 e k) (Stages.idxT ei))

include hx hew hWq hWk hWe in
/-- Every logit is real. -/
theorem logits_real (i : S500000x4.Idx) :
    ∃ q : ℝ, Arr0.logitArr (xtK x ei) (xsK x ei) (wbf Wq) (wbf Wk) (ebK ew We) i = (q : EReal) := by
  obtain ⟨e, h, rfl⟩ : ∃ (e : Fin 500000) (h : Fin 4), i = ix2 e h := ⟨i 0, i 1, eq_ix2 i⟩
  show ∃ q : ℝ, Spec.logit _ _ _ _ _ e h = (q : EReal)
  refine Spec.logit_real _ _ _ _ _ (fun r k => xt_real x ei hx r k) (fun r k => xs_real x ei hx r k)
    (fun k j => hWq (ix2 k j)) (fun k j => hWk (ix2 k j)) (fun r h => ?_) e h
  rw [eb_apply]
  exact Spec.mul_real (hew _) (hWe _)

include hx hew hWq hWk hWv hWe hWout in
/-- THE BRIDGE: the kernel's function of the arguments is the reference's. -/
theorem kOut_eq_refOut : Val.kOut x ei ew Wq Wk Wv We Wout b = refOut x ei ew Wq Wk Wv We Wout b := by
  funext i
  obtain ⟨n, o, rfl⟩ : ∃ (n : Fin 50000) (o : Fin 64), i = ix2 n o := ⟨i 0, i 1, eq_ix2 i⟩
  unfold Val.kOut refOut
  rw [Tail.tailK_apply, refTail_apply]
  have hE : (fun (e : Fin 500000) (o : Fin 64) =>
        (Arr1.edgeArr (xsK x ei) (wbf Wv) (softmaxK (Arr0.logitArr (xtK x ei) (xsK x ei) (wbf Wq) (wbf Wk) (ebK ew We))) (woutbf Wout) (ix2 e o) : EReal))
      = Spec.edgeOut (fun e k => (xsK x ei (ix2 e k) : EReal)) (fun k j => (Wv (ix2 k j) : EReal))
          (fun e h => (softmaxK (Arr0.logitArr (xtK x ei) (xsK x ei) (wbf Wq) (wbf Wk) (ebK ew We)) (ix2 e h) : EReal))
          (fun j o => (Wout (ix2 j o) : EReal)) := rfl
  rw [hE, Spec.outK_eq_outR _ _ _ _ _ _ (fun e k => xs_real x ei hx e k) (fun k j => hWv (ix2 k j))
    (fun e h => Softmax.softmaxK_real _ (logits_real x ei ew Wq Wk We hx hew hWq hWk hWe) (ix2 e h)) (fun j o => hWout (ix2 j o))]
  have hT : (fun e : Fin 500000 => (Stages.row1 ei (ix1 e)).toInt) = fun e => (Cert.ReferenceIdeal.RefValue.tgtRaw ei (ix2 e 0)).toInt :=
    funext fun e => by rw [tgtRaw_apply]
  have hA : softmaxK (Arr0.logitArr (xtK x ei) (xsK x ei) (wbf Wq) (wbf Wk) (ebK ew We))
      = refSoftmax (refLogits (xtR x ei) (xsR x ei) ew Wq Wk We) := by
    rw [softmax_eq, logits_eq]
  rw [hT, hA]
  rfl

end

end Cert.Bridge

end
-- ==== Proof.lean ====
/-
  The certificate of a graph message-passing layer: a kernel in two regions (per-edge attention logits; per-edge weighted
  values projected by the output weights) around host gathers, a softmax over all edges and a per-node sum, against a
  reference that gathers, projects, takes the same softmax, adds the weighted values up per node and projects the sums.
  The three frames: the two kernel programs' are generated whole; the reference's is its run with the result dropped.
  Nothing was rewritten by the ideal pass, so `preserves` is trivial.  The algebraic claim: the kernel's run ends with its
  result at one function `kOut` of the arguments (the logits region's output is the specification's logit of every edge
  and head, the value region's output every edge's projected contribution, the host operations between and after them
  the softmax and the per-node sum), the reference's run at `refOut` of them, and the two functions agree on finite
  inputs: moving the output projection across the sum over a node's edges is the distributive law, which holds because
  every value in sight is a finite real.
-/
import proofs.«159076_j14929306321609_2_alg».proof.Defs
import proofs.«159076_j14929306321609_2_alg».proof.Proof.Gen.Kernel
import proofs.«159076_j14929306321609_2_alg».proof.Proof.Gen.Kernel.Frame
import proofs.«159076_j14929306321609_2_alg».proof.Proof.Gen.KernelIdeal
import proofs.«159076_j14929306321609_2_alg».proof.Proof.Gen.KernelIdeal.Frame
import proofs.«159076_j14929306321609_2_alg».proof.Proof.Gen.ReferenceIdeal
import proofs.«159076_j14929306321609_2_alg».proof.Proof.Gen.Pre_finite_inputs
import proofs.«159076_j14929306321609_2_alg».proof.Proof.KernelRun
import proofs.«159076_j14929306321609_2_alg».proof.Proof.KValue
import proofs.«159076_j14929306321609_2_alg».proof.Proof.LogitsBody
import proofs.«159076_j14929306321609_2_alg».proof.Proof.ValueBody
import proofs.«159076_j14929306321609_2_alg».proof.Proof.RefRun
import proofs.«159076_j14929306321609_2_alg».proof.Proof.Finite
import proofs.«159076_j14929306321609_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both runs end with their results at one function of the (agreeing, finite) arguments. -/
theorem algebraic : Cert.algebraic_KernelIdeal_ReferenceIdeal := by
  intro m ρ m' ρ' hpre hagree
  refine ⟨fun c => Cert.KernelIdeal.Val.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Val.W5_v42 m ρ Cert.KernelIdeal.Body.out0_5_apply Cert.KernelIdeal.Body.out1_A_4_apply c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.RefValue.run m' ρ')
    obtain ⟨a0, a1, a2, a3, a4, a5, a6, a7, a8⟩ := hagree c
    rw [a0, a1, a2, a3, a4, a5, a6, a7, a8]
    obtain ⟨hx, hew, hWq, hWk, hWv, hWe, hWout, -⟩ := Cert.Finite.args_real _ _ _ _ _ _ _ _ _ (hpre c)
    exact (Cert.Bridge.kOut_eq_refOut _ _ _ _ _ _ _ _ _ hx hew hWq hWk hWv hWe hWout).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
